-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128x2 .f32) (main_arg19 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x2 .f32 := Host.absf main_arg18
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128x128 .f32) (main_arg14 : FVec F S128x128 .f32) (main_arg15 : FVec F S128 .f32) (main_arg16 : FVec F S128 .f32) (main_arg17 : FVec F S128 .f32) (main_arg18 : FVec F S128x2 .f32) (main_arg19 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_arg16 : FVec F S128 .f32) (main_arg17 : FVec F S128 .f32) (main_arg18 : FVec F S128x2 .f32) (main_arg19 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_arg16 : FVec F S128 .f32) (main_arg17 : FVec F S128 .f32) (main_arg18 : FVec F S128x2 .f32) (main_arg19 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x128 .f32) (main_arg14 : FVec F S128x128 .f32) (main_arg15 : FVec F S128 .f32) (main_arg16 : FVec F S128 .f32) (main_arg17 : FVec F S128 .f32) (main_arg18 : FVec F S128x2 .f32) (main_arg19 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S256x128 : Shape := ⟨2, ![256, 128]⟩
abbrev S2000x128 : Shape := ⟨2, ![2000, 128]⟩
abbrev S2000x1 : Shape := ⟨2, ![2000, 1]⟩
abbrev S2000x256 : Shape := ⟨2, ![2000, 256]⟩
abbrev S2000 : Shape := ⟨1, ![2000]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 115
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x2, .f32⟩
  | .hbm, ⟨19, _⟩ => ⟨S2, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .bf16⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S256x128, .f32⟩
  | .hbm, ⟨56, _⟩ => ⟨S50000x128, .f32⟩
  | .hbm, ⟨57, _⟩ => ⟨S50000x128, .bf16⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .bf16⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S256x128, .f32⟩
  | .hbm, ⟨76, _⟩ => ⟨S50000x128, .f32⟩
  | .hbm, ⟨77, _⟩ => ⟨S50000x128, .bf16⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .bf16⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S256x128, .f32⟩
  | .hbm, ⟨96, _⟩ => ⟨S50000x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S512x128, .f32⟩
  | .hbm, ⟨101, _⟩ => ⟨S50000x1, .i32⟩
  | .hbm, ⟨102, _⟩ => ⟨S512x128, .f32⟩
  | .hbm, ⟨103, _⟩ => ⟨S_, .f32⟩
  | .hbm, ⟨104, _⟩ => ⟨S512, .f32⟩
  | .hbm, ⟨105, _⟩ => ⟨S50000x1, .i32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512x1, .f32⟩
  | .hbm, ⟨111, _⟩ => ⟨S512x128, .f32⟩
  | .hbm, ⟨112, _⟩ => ⟨S512x128, .f32⟩
  | .hbm, ⟨113, _⟩ => ⟨S1x2, .f32⟩
  | .hbm, ⟨114, _⟩ => ⟨S512x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S256x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S256x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S512x128, .f32⟩
  | .local _ .vmem, ⟨41, _⟩ => ⟨S128x2, .f32⟩
  | .local _ .vmem, ⟨42, _⟩ => ⟨S1x2, .f32⟩
  | .local _ .vmem, ⟨43, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_8 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg8_1 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem8_1 : DmaSem sig := 39
abbrev cc3_sem0_0 : DmaSem sig := 40
abbrev cc3_sem1_0 : DmaSem sig := 41
abbrev cc3_sem2_0 : DmaSem sig := 42
abbrev cc3_sem3_0 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  concatenates_S128x128_S128x128_S256x128_d0 : Shape.Concatenates [S128x128, S128x128] S256x128 0
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x2.size a ≤ S512x2.size a
  hwx3_3 : ∀ i : grid3.Coords, EltTy.bits .f32 = 32 ∨ (Rect.block (s := S512x2) S512x2.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v75) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg18) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S512x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 280
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128x128, .f32⟩
  | 15 => ⟨S128, .f32⟩
  | 16 => ⟨S128, .f32⟩
  | 17 => ⟨S128, .f32⟩
  | 18 => ⟨S128x2, .f32⟩
  | 19 => ⟨S2, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S_, .i32⟩
  | 65 => ⟨S_, .f32⟩
  | 66 => ⟨S50000, .f32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S50000x128, .f32⟩
  | 74 => ⟨S_, .f32⟩
  | 75 => ⟨S_, .f32⟩
  | 76 => ⟨S_, .f32⟩
  | 77 => ⟨S_, .f32⟩
  | 78 => ⟨S50000, .f32⟩
  | 79 => ⟨S50000x1, .f32⟩
  | 80 => ⟨S50000x1, .f32⟩
  | 81 => ⟨S50000x1, .f32⟩
  | 82 => ⟨S_, .f32⟩
  | 83 => ⟨S_, .i1⟩
  | 84 => ⟨S_, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S_, .f32⟩
  | 91 => ⟨S50000x1, .f32⟩
  | 92 => ⟨S50000x1, .f32⟩
  | 93 => ⟨S50000x1, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S_, .i32⟩
  | 16 => ⟨S_, .f32⟩
  | 17 => ⟨S50000, .f32⟩
  | 18 => ⟨S50000x1, .f32⟩
  | 19 => ⟨S_, .f32⟩
  | 20 => ⟨S50000x1, .f32⟩
  | 21 => ⟨S50000x1, .f32⟩
  | 22 => ⟨S50000x128, .f32⟩
  | 23 => ⟨S50000x128, .f32⟩
  | 24 => ⟨S50000x128, .f32⟩
  | 25 => ⟨S_, .f32⟩
  | 26 => ⟨S_, .f32⟩
  | 27 => ⟨S_, .f32⟩
  | 28 => ⟨S_, .f32⟩
  | 29 => ⟨S50000, .f32⟩
  | 30 => ⟨S50000x1, .f32⟩
  | 31 => ⟨S50000x1, .f32⟩
  | 32 => ⟨S50000x1, .f32⟩
  | 33 => ⟨S_, .f32⟩
  | 34 => ⟨S_, .i1⟩
  | 35 => ⟨S_, .f32⟩
  | 36 => ⟨S_, .f32⟩
  | 37 => ⟨S50000x1, .f32⟩
  | 38 => ⟨S50000x1, .f32⟩
  | 39 => ⟨S50000x128, .f32⟩
  | 40 => ⟨S50000x128, .f32⟩
  | 41 => ⟨S_, .f32⟩
  | 42 => ⟨S50000x1, .f32⟩
  | 43 => ⟨S50000x1, .f32⟩
  | 44 => ⟨S50000x1, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S_, .f32⟩
  | 89 => ⟨S50000, .f32⟩
  | 90 => ⟨S50000x1, .f32⟩
  | 91 => ⟨S_, .f32⟩
  | 92 => ⟨S50000x1, .f32⟩
  | 93 => ⟨S50000x1, .f32⟩
  | 94 => ⟨S_, .i32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S50000, .f32⟩
  | 109 => ⟨S50000x1, .f32⟩
  | 110 => ⟨S50000x1, .f32⟩
  | 111 => ⟨S50000x1, .f32⟩
  | 112 => ⟨S_, .f32⟩
  | 113 => ⟨S_, .i1⟩
  | 114 => ⟨S_, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S_, .f32⟩
  | 121 => ⟨S50000x1, .f32⟩
  | 122 => ⟨S50000x1, .f32⟩
  | 123 => ⟨S50000x1, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S512x128, .f32⟩
  | 6 => ⟨S50000x1, .i32⟩
  | 7 => ⟨S512x128, .f32⟩
  | 8 => ⟨S_, .f32⟩
  | 9 => ⟨S50000, .f32⟩
  | 10 => ⟨S_, .f32⟩
  | 11 => ⟨S512, .f32⟩
  | 12 => ⟨S50000x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x128, .f32⟩
  | 19 => ⟨S512x128, .f32⟩
  | 20 => ⟨S512x2, .f32⟩
  | 21 => ⟨S1x2, .f32⟩
  | 22 => ⟨S512x2, .f32⟩
  | 23 => ⟨S512x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call0_cst : Ref sig .tc := ⟨.hbm, 55, rfl⟩
abbrev main_call0_v0 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_cst_1 : Ref sig .tc := ⟨.hbm, 75, rfl⟩
abbrev main_call1_v8 : Ref sig .tc := ⟨.hbm, 76, rfl⟩
abbrev main_call1_cst_2 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_cst_3 : Ref sig .tc := ⟨.hbm, 82, rfl⟩
abbrev main_call1_v13 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_7 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_c_8 : Ref sig .tc := ⟨.hbm, 102, rfl⟩
abbrev main_v48 : Ref sig .tc := ⟨.hbm, 103, rfl⟩
abbrev main_v49 : Ref sig .tc := ⟨.hbm, 104, rfl⟩
abbrev main_c_9 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_10 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_cst_11 : Ref sig .tc := ⟨.hbm, 115, rfl⟩
abbrev main_v58 : Ref sig .tc := ⟨.hbm, 116, rfl⟩
abbrev main_cst_12 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_13 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_call2_cst : Ref sig .tc := ⟨.hbm, 133, rfl⟩
abbrev main_call2_v0 : Ref sig .tc := ⟨.hbm, 134, rfl⟩
abbrev main_v73 : Ref sig .tc := ⟨.hbm, 135, rfl⟩
abbrev main_v74 : Ref sig .tc := ⟨.hbm, 136, rfl⟩
abbrev main_cst_14 : Ref sig .tc := ⟨.hbm, 137, rfl⟩
abbrev main_v75 : Ref sig .tc := ⟨.hbm, 138, rfl⟩
abbrev main_v76 : Ref sig .tc := ⟨.hbm, 139, rfl⟩
abbrev main_cst_15 : Ref sig .tc := ⟨.hbm, 140, rfl⟩
abbrev main_v77 : Ref sig .tc := ⟨.hbm, 141, rfl⟩
abbrev main_v78 : Ref sig .tc := ⟨.hbm, 142, rfl⟩
abbrev main_c_16 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_v12 : Ref sig .tc := ⟨.hbm, 160, rfl⟩
abbrev main_call3_cst_3 : Ref sig .tc := ⟨.hbm, 161, rfl⟩
abbrev main_call3_v13 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_cst_17 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_c_18 : Ref sig .tc := ⟨.hbm, 181, rfl⟩
abbrev main_v93 : Ref sig .tc := ⟨.hbm, 182, rfl⟩
abbrev main_v94 : Ref sig .tc := ⟨.hbm, 183, rfl⟩
abbrev main_c_19 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_cst_20 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_cst_21 : Ref sig .tc := ⟨.hbm, 194, rfl⟩
abbrev main_v103 : Ref sig .tc := ⟨.hbm, 195, rfl⟩
abbrev main_cst_22 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_23 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_call4_cst : Ref sig .tc := ⟨.hbm, 212, rfl⟩
abbrev main_call4_v0 : Ref sig .tc := ⟨.hbm, 213, rfl⟩
abbrev main_v118 : Ref sig .tc := ⟨.hbm, 214, rfl⟩
abbrev main_v119 : Ref sig .tc := ⟨.hbm, 215, rfl⟩
abbrev main_cst_24 : Ref sig .tc := ⟨.hbm, 216, rfl⟩
abbrev main_v120 : Ref sig .tc := ⟨.hbm, 217, rfl⟩
abbrev main_v121 : Ref sig .tc := ⟨.hbm, 218, rfl⟩
abbrev main_cst_25 : Ref sig .tc := ⟨.hbm, 219, rfl⟩
abbrev main_v122 : Ref sig .tc := ⟨.hbm, 220, rfl⟩
abbrev main_v123 : Ref sig .tc := ⟨.hbm, 221, rfl⟩
abbrev main_c_26 : Ref sig .tc := ⟨.hbm, 222, rfl⟩
abbrev main_call5_cst : Ref sig .tc := ⟨.hbm, 223, rfl⟩
abbrev main_call5_v0 : Ref sig .tc := ⟨.hbm, 224, rfl⟩
abbrev main_call5_v1 : Ref sig .tc := ⟨.hbm, 225, rfl⟩
abbrev main_call5_cst_0 : Ref sig .tc := ⟨.hbm, 226, rfl⟩
abbrev main_call5_v2 : Ref sig .tc := ⟨.hbm, 227, rfl⟩
abbrev main_call5_v3 : Ref sig .tc := ⟨.hbm, 228, rfl⟩
abbrev main_call5_v4 : Ref sig .tc := ⟨.hbm, 229, rfl⟩
abbrev main_call5_v5 : Ref sig .tc := ⟨.hbm, 230, rfl⟩
abbrev main_call5_v6 : Ref sig .tc := ⟨.hbm, 231, rfl⟩
abbrev main_call5_v7 : Ref sig .tc := ⟨.hbm, 232, rfl⟩
abbrev main_call5_cst_1 : Ref sig .tc := ⟨.hbm, 233, rfl⟩
abbrev main_call5_v8 : Ref sig .tc := ⟨.hbm, 234, rfl⟩
abbrev main_call5_cst_2 : Ref sig .tc := ⟨.hbm, 235, rfl⟩
abbrev main_call5_v9 : Ref sig .tc := ⟨.hbm, 236, rfl⟩
abbrev main_call5_v10 : Ref sig .tc := ⟨.hbm, 237, rfl⟩
abbrev main_call5_v11 : Ref sig .tc := ⟨.hbm, 238, rfl⟩
abbrev main_call5_v12 : Ref sig .tc := ⟨.hbm, 239, rfl⟩
abbrev main_call5_cst_3 : Ref sig .tc := ⟨.hbm, 240, rfl⟩
abbrev main_call5_v13 : Ref sig .tc := ⟨.hbm, 241, rfl⟩
abbrev main_call5_cst_4 : Ref sig .tc := ⟨.hbm, 242, rfl⟩
abbrev main_call5_call0_v0 : Ref sig .tc := ⟨.hbm, 243, rfl⟩
abbrev main_call5_call0_v1 : Ref sig .tc := ⟨.hbm, 244, rfl⟩
abbrev main_v124 : Ref sig .tc := ⟨.hbm, 245, rfl⟩
abbrev main_v125 : Ref sig .tc := ⟨.hbm, 246, rfl⟩
abbrev main_v126 : Ref sig .tc := ⟨.hbm, 247, rfl⟩
abbrev main_cst_27 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_cst_28 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_cst_29 : Ref sig .tc := ⟨.hbm, 264, rfl⟩
abbrev main_v141 : Ref sig .tc := ⟨.hbm, 265, rfl⟩
abbrev main_cst_30 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_cst_31 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KRegion0.lean ====
/-
  Region 0 of the program as the pipeline runs it: the first fused layer (neighbour mean, one product with the stacked weights, bias, rectifier, row normalisation), one row tile of 2000 nodes per grid point.
-/
import proofs.«159482_j24764781429188_2_alg».proof.Proof.Gen.Kernel.Launch
import proofs.«159482_j24764781429188_2_alg».proof.Proof.Gen.Kernel.Skeleton
import proofs.«159482_j24764781429188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or kept from the point before. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev rS2000x128 : Rect S2000x128 := Rect.unit (s := S2000x128) ![0, 0] S2000x128.size inb_S2000x128_S2000x128_0_0
abbrev rS2000x1 : Rect S2000x1 := Rect.unit (s := S2000x1) ![0, 0] S2000x1.size inb_S2000x1_S2000x1_0_0
abbrev rS256x128 : Rect S256x128 := Rect.unit (s := S256x128) ![0, 0] S256x128.size inb_S256x128_S256x128_0_0
abbrev rS1x128 : Rect S1x128 := Rect.unit (s := S1x128) ![0, 0] S1x128.size inb_S1x128_S1x128_0_0

/-- What the body leaves in the output window's buffer: its one store, of the body's arithmetic on the loaded blocks. -/
def out (x0 : Vec F S2000x128 .f32) (x1 : Vec F S2000x128 .f32) (x2 : Vec F S2000x1 .f32) (x3 : Vec F S256x128 .f32) (x4 : Vec F S1x128 .f32) (x5 : Vec F S1x128 .f32) (x6 : Vec F S1x128 .f32) : Vec F S2000x128 .f32 :=
  View.canon [⟨rS2000x128, k0_pay1 (k0_pay2 (View.ld x0 rS2000x128) (View.ld x2 rS2000x1) (View.ld x1 rS2000x128) (View.ld x3 rS256x128) (View.ld x4 rS1x128) (View.ld x5 rS1x128)) (View.ld x6 rS1x128)⟩]

theorem cover (p0 : Vec F S2000x128 .f32) (y : S2000x128.Idx) :
    ∃ pc ∈ ([⟨rS2000x128, p0⟩] : List (View.Piece (Elt F) S2000x128 .f32)), y ∈ pc.1.set :=
  View.cover_of_tiled [⟨rS2000x128, p0⟩] S2000x128.size (by rfl) y

set_option maxHeartbeats 4000000 in
/-- The body on whole staging buffers: the inputs are read and left as they were, the output buffer ends at `out` of them. -/
theorem sound_kernel (c : Dev nD) (E : Set ℕ) (i : grid0.Coords) (a0 : Memref sig .tc .vmem S2000x128 .f32) (h0 : a0.IsWhole) (a1 : Memref sig .tc .vmem S2000x128 .f32) (h1 : a1.IsWhole) (a2 : Memref sig .tc .vmem S2000x1 .f32) (h2 : a2.IsWhole) (a3 : Memref sig .tc .vmem S256x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S2000x128 .f32) (h7 : a7.IsWhole)
    (x0 : Vec F S2000x128 .f32) (x1 : Vec F S2000x128 .f32) (x2 : Vec F S2000x1 .f32) (x3 : Vec F S256x128 .f32) (x4 : Vec F S1x128 .f32) (x5 : Vec F S1x128 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out x0 x1 x2 x3 x4 x5 x6)) -∗ K ⟨⟩))
      ⊢ wp frame (wpE (defs₀ (F := F)) Variants.none c none) E (cc0__sage_ln_kernel_noresid i a0 h0 a1 h1 a2 h2 a3 h3 a4 h4 a5 h5 a6 h6 a7 h7) K := by
  simp only [cc0__sage_ln_kernel_noresid_eq_skeleton]; unfold cc0__sage_ln_kernel_noresid_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

/-- The pipeline's proof data on core `c`: the arrays as found on entry; after the body each input buffer still holds its
    block and the output buffer holds `out` of the input blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = out (iblk V c 0 t) (iblk V c 1 t) (iblk V c 2 t) (iblk V c 3 t) (iblk V c 4 t) (iblk V c 5 t) (iblk V c 6 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

/-- Every window but the last is an input, and reads an array other than the output's. -/
theorem window_facts : ∀ w : Fin 8, w ≠ 7 → (cfg0.win w).isOut = false ∧ Pipeline.arrRef spec0 w ≠ main_v29 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v29 = (dat V c).arrAt 7 cfg0.N) (hother : ∀ b : Ref sig .tc, b ≠ main_v29 → V' b = V c b) :
    ∀ w : Fin cfg0.W, (dat V c).arrAt w cfg0.N = V' (Pipeline.arrRef spec0 w) := by
  intro w
  by_cases h : w = (7 : Fin 8)
  · subst h; exact hout.symm
  · obtain ⟨hin, hne⟩ := window_facts w h
    exact ((dat V c).arrAt_in w hin cfg0.N).trans ((A_eq V c w).trans (hother _ hne).symm)

theorem out_mem : main_v29 ∈ Finset.univ.image (Pipeline.arrRef spec0) := by decide

end Cert.Kernel.Region0

end
-- ==== Proof.KRegion3.lean ====
/-
  Region 3 of the program as the pipeline runs it: the read-out: the pooled features times the classifier's weights plus its bias, one grid point.
-/
import proofs.«159482_j24764781429188_2_alg».proof.Proof.Gen.Kernel.Launch
import proofs.«159482_j24764781429188_2_alg».proof.Proof.Gen.Kernel.Skeleton
import proofs.«159482_j24764781429188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, fetched there or kept from the point before. -/
theorem before_of_0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev rS512x128 : Rect S512x128 := Rect.unit (s := S512x128) ![0, 0] S512x128.size inb_S512x128_S512x128_0_0
abbrev rS128x2 : Rect S128x2 := Rect.unit (s := S128x2) ![0, 0] S128x2.size inb_S128x2_S128x2_0_0
abbrev rS1x2 : Rect S1x2 := Rect.unit (s := S1x2) ![0, 0] S1x2.size inb_S1x2_S1x2_0_0
abbrev rS512x2 : Rect S512x2 := Rect.unit (s := S512x2) ![0, 0] S512x2.size inb_S512x2_S512x2_0_0

/-- What the body leaves in the output window's buffer: its one store, of the body's arithmetic on the loaded blocks. -/
def out (x0 : Vec F S512x128 .f32) (x1 : Vec F S128x2 .f32) (x2 : Vec F S1x2 .f32) : Vec F S512x2 .f32 :=
  View.canon [⟨rS512x2, k3_pay1 (View.ld x0 rS512x128) (View.ld x1 rS128x2) (View.ld x2 rS1x2)⟩]

theorem cover (p0 : Vec F S512x2 .f32) (y : S512x2.Idx) :
    ∃ pc ∈ ([⟨rS512x2, p0⟩] : List (View.Piece (Elt F) S512x2 .f32)), y ∈ pc.1.set :=
  View.cover_of_tiled [⟨rS512x2, p0⟩] S512x2.size (by rfl) y

set_option maxHeartbeats 4000000 in
/-- The body on whole staging buffers: the inputs are read and left as they were, the output buffer ends at `out` of them. -/
theorem sound_kernel (c : Dev nD) (E : Set ℕ) (i : grid3.Coords) (a0 : Memref sig .tc .vmem S512x128 .f32) (h0 : a0.IsWhole) (a1 : Memref sig .tc .vmem S128x2 .f32) (h1 : a1.IsWhole) (a2 : Memref sig .tc .vmem S1x2 .f32) (h2 : a2.IsWhole) (a3 : Memref sig .tc .vmem S512x2 .f32) (h3 : a3.IsWhole)
    (x0 : Vec F S512x128 .f32) (x1 : Vec F S128x2 .f32) (x2 : Vec F S1x2 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out x0 x1 x2)) -∗ K ⟨⟩))
      ⊢ wp frame (wpE (defs₀ (F := F)) Variants.none c none) E (cc3__final_linear_kernel i a0 h0 a1 h1 a2 h2 a3 h3) K := by
  simp only [cc3__final_linear_kernel_eq_skeleton]; unfold cc3__final_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The pipeline's proof data on core `c`: the arrays as found on entry; after the body each input buffer still holds its
    block and the output buffer holds `out` of the input blocks; nothing owed, full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = out (iblk V c 0 t) (iblk V c 1 t) (iblk V c 2 t) := by dsimp only [dat]

theorem before_0 (c : Dev nD) (t : Fin cfg3.N) (d) : (dat V c).before 0 t d = iblk V c 0 t :=
  before_of_0 V (dat V c) (A_eq V c 0) (after_0 V c) t d
theorem before_1 (c : Dev nD) (t : Fin cfg3.N) (d) : (dat V c).before 1 t d = iblk V c 1 t :=
  before_of_1 V (dat V c) (A_eq V c 1) (after_1 V c) t d
theorem before_2 (c : Dev nD) (t : Fin cfg3.N) (d) : (dat V c).before 2 t d = iblk V c 2 t :=
  before_of_2 V (dat V c) (A_eq V c 2) (after_2 V c) t d

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W3, bigSep_W3]
  exact sound_body V c t

/-- Every window but the last is an input, and reads an array other than the output's. -/
theorem window_facts : ∀ w : Fin 4, w ≠ 3 → (cfg3.win w).isOut = false ∧ Pipeline.arrRef spec3 w ≠ main_v77 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v77 = (dat V c).arrAt 3 cfg3.N) (hother : ∀ b : Ref sig .tc, b ≠ main_v77 → V' b = V c b) :
    ∀ w : Fin cfg3.W, (dat V c).arrAt w cfg3.N = V' (Pipeline.arrRef spec3 w) := by
  intro w
  by_cases h : w = (3 : Fin 4)
  · subst h; exact hout.symm
  · obtain ⟨hin, hne⟩ := window_facts w h
    exact ((dat V c).arrAt_in w hin cfg3.N).trans ((A_eq V c w).trans (hother _ hne).symm)

theorem out_mem : main_v77 ∈ Finset.univ.image (Pipeline.arrRef spec3) := by decide

end Cert.Kernel.Region3

end
-- ==== Proof.KRegion1.lean ====
/-
  Region 1 of the program as the pipeline runs it: the second fused layer (as the first, with the layer's input added back before the row normalisation), one row tile of 2000 nodes per grid point.
-/
import proofs.«159482_j24764781429188_2_alg».proof.Proof.Gen.Kernel.Launch
import proofs.«159482_j24764781429188_2_alg».proof.Proof.Gen.Kernel.Skeleton
import proofs.«159482_j24764781429188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or kept from the point before. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev rS2000x128 : Rect S2000x128 := Rect.unit (s := S2000x128) ![0, 0] S2000x128.size inb_S2000x128_S2000x128_0_0
abbrev rS2000x1 : Rect S2000x1 := Rect.unit (s := S2000x1) ![0, 0] S2000x1.size inb_S2000x1_S2000x1_0_0
abbrev rS256x128 : Rect S256x128 := Rect.unit (s := S256x128) ![0, 0] S256x128.size inb_S256x128_S256x128_0_0
abbrev rS1x128 : Rect S1x128 := Rect.unit (s := S1x128) ![0, 0] S1x128.size inb_S1x128_S1x128_0_0

/-- What the body leaves in the output window's buffer: its one store, of the body's arithmetic on the loaded blocks. -/
def out (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) : Vec F S2000x128 .f32 :=
  View.canon [⟨rS2000x128, k1_pay1 (k1_pay2 (View.ld x0 rS2000x128) (View.ld x3 rS2000x1) (View.ld x1 rS2000x128) (View.ld x4 rS256x128) (View.ld x5 rS1x128) (View.ld x2 rS2000x128)) (View.ld x6 rS1x128) (View.ld x7 rS1x128)⟩]

theorem cover (p0 : Vec F S2000x128 .f32) (y : S2000x128.Idx) :
    ∃ pc ∈ ([⟨rS2000x128, p0⟩] : List (View.Piece (Elt F) S2000x128 .f32)), y ∈ pc.1.set :=
  View.cover_of_tiled [⟨rS2000x128, p0⟩] S2000x128.size (by rfl) y

set_option maxHeartbeats 4000000 in
/-- The body on whole staging buffers: the inputs are read and left as they were, the output buffer ends at `out` of them. -/
theorem sound_kernel (c : Dev nD) (E : Set ℕ) (i : grid1.Coords) (a0 : Memref sig .tc .vmem S2000x128 .f32) (h0 : a0.IsWhole) (a1 : Memref sig .tc .vmem S2000x128 .f32) (h1 : a1.IsWhole) (a2 : Memref sig .tc .vmem S2000x128 .f32) (h2 : a2.IsWhole) (a3 : Memref sig .tc .vmem S2000x1 .f32) (h3 : a3.IsWhole) (a4 : Memref sig .tc .vmem S256x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S2000x128 .f32) (h8 : a8.IsWhole)
    (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out x0 x1 x2 x3 x4 x5 x6 x7)) -∗ K ⟨⟩))
      ⊢ wp frame (wpE (defs₀ (F := F)) Variants.none c none) E (cc1__sage_ln_kernel_resid i a0 h0 a1 h1 a2 h2 a3 h3 a4 h4 a5 h5 a6 h6 a7 h7 a8 h8) K := by
  simp only [cc1__sage_ln_kernel_resid_eq_skeleton]; unfold cc1__sage_ln_kernel_resid_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _)

/-- The pipeline's proof data on core `c`: the arrays as found on entry; after the body each input buffer still holds its
    block and the output buffer holds `out` of the input blocks; nothing owed; the one array two windows read is held half and half, every other array whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (iblk V c 0 t) (iblk V c 1 t) (iblk V c 2 t) (iblk V c 3 t) (iblk V c 4 t) (iblk V c 5 t) (iblk V c 6 t) (iblk V c 7 t)
  Φ _ := Pipeline.ΦA spec1 c
  q w := match w with
    | ⟨1, _⟩ => fullShare.left
    | ⟨2, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out (iblk V c 0 t) (iblk V c 1 t) (iblk V c 2 t) (iblk V c 3 t) (iblk V c 4 t) (iblk V c 5 t) (iblk V c 6 t) (iblk V c 7 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d
theorem before_6 (c : Dev nD) (t : Fin cfg1.N) (d) : (dat V c).before 6 t d = iblk V c 6 t :=
  before_of_6 V (dat V c) (A_eq V c 6) (after_6 V c) t d
theorem before_7 (c : Dev nD) (t : Fin cfg1.N) (d) : (dat V c).before 7 t d = iblk V c 7 t :=
  before_of_7 V (dat V c) (A_eq V c 7) (after_7 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W1, bigSep_W1]
  exact sound_body V c t

/-- Every window but the last is an input, and reads an array other than the output's. -/
theorem window_facts : ∀ w : Fin 9, w ≠ 8 → (cfg1.win w).isOut = false ∧ Pipeline.arrRef spec1 w ≠ main_v46 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v46 = (dat V c).arrAt 8 cfg1.N) (hother : ∀ b : Ref sig .tc, b ≠ main_v46 → V' b = V c b) :
    ∀ w : Fin cfg1.W, (dat V c).arrAt w cfg1.N = V' (Pipeline.arrRef spec1 w) := by
  intro w
  by_cases h : w = (8 : Fin 9)
  · subst h; exact hout.symm
  · obtain ⟨hin, hne⟩ := window_facts w h
    exact ((dat V c).arrAt_in w hin cfg1.N).trans ((A_eq V c w).trans (hother _ hne).symm)

theorem out_mem : main_v46 ∈ Finset.univ.image (Pipeline.arrRef spec1) := by decide

end Cert.Kernel.Region1

end
-- ==== Proof.KShare1.lean ====
/-
  Region 1 reads the first layer's output through two windows (as the layer's input and as the term added back). The array's one full share is dealt between the two windows, half and half, and nothing is lost by it.
-/
import proofs.«159482_j24764781429188_2_alg».proof.Proof.KRegion1

set_option maxRecDepth 16384

noncomputable section

namespace Cert.Kernel.Share1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.Kernel.Region1

theorem share_1 (c : Dev nD) : (dat V c).share 1 = fullShare.left := rfl
theorem share_2 (c : Dev nD) : (dat V c).share 2 = fullShare.right := rfl
theorem share_other (c : Dev nD) (w : Fin cfg1.W) (h1 : w ≠ 1) (h2 : w ≠ 2) : (dat V c).share w = fullShare := by
  match w, h1, h2 with
  | ⟨0, _⟩, _, _ => rfl
  | ⟨1, _⟩, h, _ => exact absurd rfl h
  | ⟨2, _⟩, _, h => exact absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

/-- The windows other than the two that read one array. -/
abbrev others : Finset (Fin 9) := {0, 3, 4, 5, 6, 7, 8}
theorem univ_eq : (Finset.univ : Finset (Fin 9)) = insert 2 (insert 1 others) := by decide
theorem erase_eq : (Finset.univ : Finset (Fin 9)).erase 2 = insert 1 others := by decide
theorem others_ne : ∀ w ∈ others, w ≠ 1 ∧ w ≠ 2 := by decide

/-- Away from window 2 no two windows read the same array. -/
theorem arr_inj_but : ∀ x y : Fin 9, x ≠ 2 → y ≠ 2 → Pipeline.arrRef spec1 x = Pipeline.arrRef spec1 y → x = y := by decide

theorem image_eq : (Finset.univ : Finset (Fin 9)).image (Pipeline.arrRef spec1) = ((Finset.univ : Finset (Fin 9)).erase 2).image (Pipeline.arrRef spec1) := by decide

/-- The distinct buffers behind the windows' arrays, one per window other than window 2. -/
theorem arrBufs_eq (c : Dev nD) (V' : (b : Ref sig .tc) → Buf (Elt F) ((c.tc : Thread nD τ).loc b)) :
    (Pipeline.arrBufs spec1 c V' : sProp 𝕄) = bigSep ((Finset.univ : Finset (Fin 9)).erase 2) (fun w : Fin 9 => (((c.tc : Thread nD τ).loc (Pipeline.arrRef spec1 w)) ↦{fullShare} V' (Pipeline.arrRef spec1 w) : sProp 𝕄)) := by
  unfold Pipeline.arrBufs
  rw [image_eq]
  exact bigSep_image_of_injOn (fun x hx y hy e => arr_inj_but x y (Finset.ne_of_mem_erase (Finset.mem_coe.mp hx)) (Finset.ne_of_mem_erase (Finset.mem_coe.mp hy)) e) _

/-- The windows' arrays at their shares are exactly the distinct buffers behind them, each whole at the full share:
    the shared buffer's full share is its two halves. -/
theorem arrays_eq_arrBufs (c : Dev nD) (V' : (b : Ref sig .tc) → Buf (Elt F) ((c.tc : Thread nD τ).loc b))
    (G : (w : Fin cfg1.W) → Buf (Elt F) ((cfg1.win w).arr.view.loc (c.tc : Thread nD τ)))
    (hG : ∀ w, G w = V' (Pipeline.arrRef spec1 w)) :
    (dat V c).arrays G = (Pipeline.arrBufs spec1 c V' : sProp 𝕄) := by
  rw [arrBufs_eq]
  unfold Dat.arrays
  have hrest : bigSep others (fun w : Fin cfg1.W => ((cfg1.win w).arr.view.loc (c.tc : Thread nD τ) ↦[(cfg1.win w).arr.view.set]{(dat V c).share w} G w : sProp 𝕄)) = bigSep others (fun w : Fin 9 => (((c.tc : Thread nD τ).loc (Pipeline.arrRef spec1 w)) ↦{fullShare} V' (Pipeline.arrRef spec1 w) : sProp 𝕄)) :=
    bigSep_congr fun w hw => by
      obtain ⟨h1, h2⟩ := others_ne w hw
      show ((cfg1.win w).arr.view.loc (c.tc : Thread nD τ) ↦[(cfg1.win w).arr.view.set]{(dat V c).share w} G w : sProp 𝕄) = _
      rw [share_other V c w h1 h2, (arr_whole1 w).set_eq_univ, hG w]
  have hpair : (iprop(((cfg1.win 2).arr.view.loc (c.tc : Thread nD τ) ↦[(cfg1.win 2).arr.view.set]{(dat V c).share 2} G 2 : sProp 𝕄) ∗ ((cfg1.win 1).arr.view.loc (c.tc : Thread nD τ) ↦[(cfg1.win 1).arr.view.set]{(dat V c).share 1} G 1 : sProp 𝕄)) : sProp 𝕄) = (((c.tc : Thread nD τ).loc (Pipeline.arrRef spec1 1)) ↦{fullShare} V' (Pipeline.arrRef spec1 1) : sProp 𝕄) := by
    rw [share_1, share_2, (arr_whole1 1).set_eq_univ, hG 1, hG 2]
    exact (Idealize.SL.BI.Entails.antisymm Idealize.SL.BI.sep_comm Idealize.SL.BI.sep_comm).trans
      (Idealize.SL.BI.Entails.antisymm (pointsTo_share (PosShare.mem_left_op_right fullShare)).1 (pointsTo_share (PosShare.mem_left_op_right fullShare)).2).symm
  calc bigSep (Finset.univ : Finset (Fin cfg1.W)) (fun w : Fin cfg1.W => ((cfg1.win w).arr.view.loc (c.tc : Thread nD τ) ↦[(cfg1.win w).arr.view.set]{(dat V c).share w} G w : sProp 𝕄))
      = bigSep (insert (2 : Fin 9) (insert 1 others)) (fun w : Fin cfg1.W => ((cfg1.win w).arr.view.loc (c.tc : Thread nD τ) ↦[(cfg1.win w).arr.view.set]{(dat V c).share w} G w : sProp 𝕄)) := congrArg (fun s => bigSep s (fun w : Fin cfg1.W => ((cfg1.win w).arr.view.loc (c.tc : Thread nD τ) ↦[(cfg1.win w).arr.view.set]{(dat V c).share w} G w : sProp 𝕄))) univ_eq
    _ = iprop(((cfg1.win 2).arr.view.loc (c.tc : Thread nD τ) ↦[(cfg1.win 2).arr.view.set]{(dat V c).share 2} G 2 : sProp 𝕄) ∗ ((cfg1.win 1).arr.view.loc (c.tc : Thread nD τ) ↦[(cfg1.win 1).arr.view.set]{(dat V c).share 1} G 1 : sProp 𝕄) ∗ bigSep others (fun w : Fin cfg1.W => ((cfg1.win w).arr.view.loc (c.tc : Thread nD τ) ↦[(cfg1.win w).arr.view.set]{(dat V c).share w} G w : sProp 𝕄))) := by
        rw [bigSep_insert (s := insert (1 : Fin 9) others) (i := (2 : Fin 9)) (by decide), bigSep_insert (s := others) (i := (1 : Fin 9)) (by decide)]
        rfl
    _ = iprop((((cfg1.win 2).arr.view.loc (c.tc : Thread nD τ) ↦[(cfg1.win 2).arr.view.set]{(dat V c).share 2} G 2 : sProp 𝕄) ∗ ((cfg1.win 1).arr.view.loc (c.tc : Thread nD τ) ↦[(cfg1.win 1).arr.view.set]{(dat V c).share 1} G 1 : sProp 𝕄)) ∗ bigSep others (fun w : Fin cfg1.W => ((cfg1.win w).arr.view.loc (c.tc : Thread nD τ) ↦[(cfg1.win w).arr.view.set]{(dat V c).share w} G w : sProp 𝕄))) := (Idealize.SL.BI.Entails.antisymm Idealize.SL.BI.sep_assoc Idealize.SL.BI.sep_assoc').symm
    _ = iprop((((c.tc : Thread nD τ).loc (Pipeline.arrRef spec1 1)) ↦{fullShare} V' (Pipeline.arrRef spec1 1) : sProp 𝕄) ∗ bigSep others (fun w : Fin 9 => (((c.tc : Thread nD τ).loc (Pipeline.arrRef spec1 w)) ↦{fullShare} V' (Pipeline.arrRef spec1 w) : sProp 𝕄))) := by rw [hpair, hrest]
    _ = bigSep (insert (1 : Fin 9) others) (fun w : Fin 9 => (((c.tc : Thread nD τ).loc (Pipeline.arrRef spec1 w)) ↦{fullShare} V' (Pipeline.arrRef spec1 w) : sProp 𝕄)) := (bigSep_insert (s := others) (i := (1 : Fin 9)) (Φ := (fun w : Fin 9 => (((c.tc : Thread nD τ).loc (Pipeline.arrRef spec1 w)) ↦{fullShare} V' (Pipeline.arrRef spec1 w) : sProp 𝕄))) (by decide)).symm
    _ = bigSep ((Finset.univ : Finset (Fin 9)).erase 2) (fun w : Fin 9 => (((c.tc : Thread nD τ).loc (Pipeline.arrRef spec1 w)) ↦{fullShare} V' (Pipeline.arrRef spec1 w) : sProp 𝕄)) := congrArg (fun s => bigSep s (fun w : Fin 9 => (((c.tc : Thread nD τ).loc (Pipeline.arrRef spec1 w)) ↦{fullShare} V' (Pipeline.arrRef spec1 w) : sProp 𝕄))) erase_eq.symm

/-- A core's unscoped buffers are the distinct buffers behind the windows' arrays and the rest. -/
theorem unscoped_split (c : Dev nD) (V' : (b : Ref sig .tc) → Buf (Elt F) ((c.tc : Thread nD τ).loc b)) :
    (unscopedBufs c V' : sProp 𝕄) = iprop((Pipeline.arrBufs spec1 c V' : sProp 𝕄) ∗ Pipeline.unscopedRest spec1 c V') := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- ENTRY: the unscoped buffers at the entry contents give the windows' arrays at their shares, and the rest. -/
theorem entry (c : Dev nD) :
    (unscopedBufs c (V c) : sProp 𝕄) ⊢ iprop((dat V c).arrays ((dat V c).arrAt · 0) ∗ Pipeline.unscopedRest spec1 c (V c)) := by
  rw [unscoped_split]
  exact sep_mono (Entails.of_eq (arrays_eq_arrBufs V c (V c) _ (fun w => rfl)).symm) .rfl

/-- EXIT: the windows' arrays at their final contents and the rest are the unscoped buffers at any contents that
    hold the arrays there and agree with the entry contents off them. -/
theorem exit (c : Dev nD) (V' : (b : Ref sig .tc) → Buf (Elt F) ((c.tc : Thread nD τ).loc b))
    (hF : ∀ w, (dat V c).arrAt w cfg1.N = V' (Pipeline.arrRef spec1 w))
    (hrest : ∀ b, b ∉ Finset.univ.image (Pipeline.arrRef spec1) → V' b = V c b) :
    iprop((dat V c).arrays ((dat V c).arrAt · cfg1.N) ∗ Pipeline.unscopedRest spec1 c (V c)) ⊢ (unscopedBufs c V' : sProp 𝕄) := by
  rw [unscoped_split, arrays_eq_arrBufs V c V' _ hF]
  refine sep_mono .rfl (Entails.of_eq ?_)
  unfold Pipeline.unscopedRest
  exact bigSep_congr fun b hb => by rw [hrest b (Finset.mem_sdiff.mp hb).2]

end Cert.Kernel.Share1

end
-- ==== Proof.KRegion2.lean ====
/-
  Region 2 of the program as the pipeline runs it: the third fused layer (as the second), one row tile of 2000 nodes per grid point.
-/
import proofs.«159482_j24764781429188_2_alg».proof.Proof.Gen.Kernel.Launch
import proofs.«159482_j24764781429188_2_alg».proof.Proof.Gen.Kernel.Skeleton
import proofs.«159482_j24764781429188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or kept from the point before. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_7 {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev rS2000x128 : Rect S2000x128 := Rect.unit (s := S2000x128) ![0, 0] S2000x128.size inb_S2000x128_S2000x128_0_0
abbrev rS2000x1 : Rect S2000x1 := Rect.unit (s := S2000x1) ![0, 0] S2000x1.size inb_S2000x1_S2000x1_0_0
abbrev rS256x128 : Rect S256x128 := Rect.unit (s := S256x128) ![0, 0] S256x128.size inb_S256x128_S256x128_0_0
abbrev rS1x128 : Rect S1x128 := Rect.unit (s := S1x128) ![0, 0] S1x128.size inb_S1x128_S1x128_0_0

/-- What the body leaves in the output window's buffer: its one store, of the body's arithmetic on the loaded blocks. -/
def out (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) : Vec F S2000x128 .f32 :=
  View.canon [⟨rS2000x128, k2_pay1 (k2_pay2 (View.ld x0 rS2000x128) (View.ld x3 rS2000x1) (View.ld x1 rS2000x128) (View.ld x4 rS256x128) (View.ld x5 rS1x128) (View.ld x2 rS2000x128)) (View.ld x6 rS1x128) (View.ld x7 rS1x128)⟩]

theorem cover (p0 : Vec F S2000x128 .f32) (y : S2000x128.Idx) :
    ∃ pc ∈ ([⟨rS2000x128, p0⟩] : List (View.Piece (Elt F) S2000x128 .f32)), y ∈ pc.1.set :=
  View.cover_of_tiled [⟨rS2000x128, p0⟩] S2000x128.size (by rfl) y

set_option maxHeartbeats 4000000 in
/-- The body on whole staging buffers: the inputs are read and left as they were, the output buffer ends at `out` of them. -/
theorem sound_kernel (c : Dev nD) (E : Set ℕ) (i : grid2.Coords) (a0 : Memref sig .tc .vmem S2000x128 .f32) (h0 : a0.IsWhole) (a1 : Memref sig .tc .vmem S2000x128 .f32) (h1 : a1.IsWhole) (a2 : Memref sig .tc .vmem S2000x128 .f32) (h2 : a2.IsWhole) (a3 : Memref sig .tc .vmem S2000x1 .f32) (h3 : a3.IsWhole) (a4 : Memref sig .tc .vmem S256x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S2000x128 .f32) (h8 : a8.IsWhole)
    (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out x0 x1 x2 x3 x4 x5 x6 x7)) -∗ K ⟨⟩))
      ⊢ wp frame (wpE (defs₀ (F := F)) Variants.none c none) E (cc2__sage_ln_kernel_resid i a0 h0 a1 h1 a2 h2 a3 h3 a4 h4 a5 h5 a6 h6 a7 h7 a8 h8) K := by
  simp only [cc2__sage_ln_kernel_resid_eq_skeleton]; unfold cc2__sage_ln_kernel_resid_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _)

/-- The pipeline's proof data on core `c`: the arrays as found on entry; after the body each input buffer still holds its
    block and the output buffer holds `out` of the input blocks; nothing owed; the one array two windows read is held half and half, every other array whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (iblk V c 0 t) (iblk V c 1 t) (iblk V c 2 t) (iblk V c 3 t) (iblk V c 4 t) (iblk V c 5 t) (iblk V c 6 t) (iblk V c 7 t)
  Φ _ := Pipeline.ΦA spec2 c
  q w := match w with
    | ⟨1, _⟩ => fullShare.left
    | ⟨2, _⟩ => fullShare.right
    | _ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = out (iblk V c 0 t) (iblk V c 1 t) (iblk V c 2 t) (iblk V c 3 t) (iblk V c 4 t) (iblk V c 5 t) (iblk V c 6 t) (iblk V c 7 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d
theorem before_5 (c : Dev nD) (t : Fin cfg2.N) (d) : (dat V c).before 5 t d = iblk V c 5 t :=
  before_of_5 V (dat V c) (A_eq V c 5) (after_5 V c) t d
theorem before_6 (c : Dev nD) (t : Fin cfg2.N) (d) : (dat V c).before 6 t d = iblk V c 6 t :=
  before_of_6 V (dat V c) (A_eq V c 6) (after_6 V c) t d
theorem before_7 (c : Dev nD) (t : Fin cfg2.N) (d) : (dat V c).before 7 t d = iblk V c 7 t :=
  before_of_7 V (dat V c) (A_eq V c 7) (after_7 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W2, bigSep_W2]
  exact sound_body V c t

/-- Every window but the last is an input, and reads an array other than the output's. -/
theorem window_facts : ∀ w : Fin 9, w ≠ 8 → (cfg2.win w).isOut = false ∧ Pipeline.arrRef spec2 w ≠ main_v63 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v63 = (dat V c).arrAt 8 cfg2.N) (hother : ∀ b : Ref sig .tc, b ≠ main_v63 → V' b = V c b) :
    ∀ w : Fin cfg2.W, (dat V c).arrAt w cfg2.N = V' (Pipeline.arrRef spec2 w) := by
  intro w
  by_cases h : w = (8 : Fin 9)
  · subst h; exact hout.symm
  · obtain ⟨hin, hne⟩ := window_facts w h
    exact ((dat V c).arrAt_in w hin cfg2.N).trans ((A_eq V c w).trans (hother _ hne).symm)

theorem out_mem : main_v63 ∈ Finset.univ.image (Pipeline.arrRef spec2) := by decide

end Cert.Kernel.Region2

end
-- ==== Proof.KShare2.lean ====
/-
  Region 2 reads the second layer's output through two windows (as the layer's input and as the term added back). The array's one full share is dealt between the two windows, half and half, and nothing is lost by it.
-/
import proofs.«159482_j24764781429188_2_alg».proof.Proof.KRegion2

set_option maxRecDepth 16384

noncomputable section

namespace Cert.Kernel.Share2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.Kernel.Region2

theorem share_1 (c : Dev nD) : (dat V c).share 1 = fullShare.left := rfl
theorem share_2 (c : Dev nD) : (dat V c).share 2 = fullShare.right := rfl
theorem share_other (c : Dev nD) (w : Fin cfg2.W) (h1 : w ≠ 1) (h2 : w ≠ 2) : (dat V c).share w = fullShare := by
  match w, h1, h2 with
  | ⟨0, _⟩, _, _ => rfl
  | ⟨1, _⟩, h, _ => exact absurd rfl h
  | ⟨2, _⟩, _, h => exact absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

/-- The windows other than the two that read one array. -/
abbrev others : Finset (Fin 9) := {0, 3, 4, 5, 6, 7, 8}
theorem univ_eq : (Finset.univ : Finset (Fin 9)) = insert 2 (insert 1 others) := by decide
theorem erase_eq : (Finset.univ : Finset (Fin 9)).erase 2 = insert 1 others := by decide
theorem others_ne : ∀ w ∈ others, w ≠ 1 ∧ w ≠ 2 := by decide

/-- Away from window 2 no two windows read the same array. -/
theorem arr_inj_but : ∀ x y : Fin 9, x ≠ 2 → y ≠ 2 → Pipeline.arrRef spec2 x = Pipeline.arrRef spec2 y → x = y := by decide

theorem image_eq : (Finset.univ : Finset (Fin 9)).image (Pipeline.arrRef spec2) = ((Finset.univ : Finset (Fin 9)).erase 2).image (Pipeline.arrRef spec2) := by decide

/-- The distinct buffers behind the windows' arrays, one per window other than window 2. -/
theorem arrBufs_eq (c : Dev nD) (V' : (b : Ref sig .tc) → Buf (Elt F) ((c.tc : Thread nD τ).loc b)) :
    (Pipeline.arrBufs spec2 c V' : sProp 𝕄) = bigSep ((Finset.univ : Finset (Fin 9)).erase 2) (fun w : Fin 9 => (((c.tc : Thread nD τ).loc (Pipeline.arrRef spec2 w)) ↦{fullShare} V' (Pipeline.arrRef spec2 w) : sProp 𝕄)) := by
  unfold Pipeline.arrBufs
  rw [image_eq]
  exact bigSep_image_of_injOn (fun x hx y hy e => arr_inj_but x y (Finset.ne_of_mem_erase (Finset.mem_coe.mp hx)) (Finset.ne_of_mem_erase (Finset.mem_coe.mp hy)) e) _

/-- The windows' arrays at their shares are exactly the distinct buffers behind them, each whole at the full share:
    the shared buffer's full share is its two halves. -/
theorem arrays_eq_arrBufs (c : Dev nD) (V' : (b : Ref sig .tc) → Buf (Elt F) ((c.tc : Thread nD τ).loc b))
    (G : (w : Fin cfg2.W) → Buf (Elt F) ((cfg2.win w).arr.view.loc (c.tc : Thread nD τ)))
    (hG : ∀ w, G w = V' (Pipeline.arrRef spec2 w)) :
    (dat V c).arrays G = (Pipeline.arrBufs spec2 c V' : sProp 𝕄) := by
  rw [arrBufs_eq]
  unfold Dat.arrays
  have hrest : bigSep others (fun w : Fin cfg2.W => ((cfg2.win w).arr.view.loc (c.tc : Thread nD τ) ↦[(cfg2.win w).arr.view.set]{(dat V c).share w} G w : sProp 𝕄)) = bigSep others (fun w : Fin 9 => (((c.tc : Thread nD τ).loc (Pipeline.arrRef spec2 w)) ↦{fullShare} V' (Pipeline.arrRef spec2 w) : sProp 𝕄)) :=
    bigSep_congr fun w hw => by
      obtain ⟨h1, h2⟩ := others_ne w hw
      show ((cfg2.win w).arr.view.loc (c.tc : Thread nD τ) ↦[(cfg2.win w).arr.view.set]{(dat V c).share w} G w : sProp 𝕄) = _
      rw [share_other V c w h1 h2, (arr_whole2 w).set_eq_univ, hG w]
  have hpair : (iprop(((cfg2.win 2).arr.view.loc (c.tc : Thread nD τ) ↦[(cfg2.win 2).arr.view.set]{(dat V c).share 2} G 2 : sProp 𝕄) ∗ ((cfg2.win 1).arr.view.loc (c.tc : Thread nD τ) ↦[(cfg2.win 1).arr.view.set]{(dat V c).share 1} G 1 : sProp 𝕄)) : sProp 𝕄) = (((c.tc : Thread nD τ).loc (Pipeline.arrRef spec2 1)) ↦{fullShare} V' (Pipeline.arrRef spec2 1) : sProp 𝕄) := by
    rw [share_1, share_2, (arr_whole2 1).set_eq_univ, hG 1, hG 2]
    exact (Idealize.SL.BI.Entails.antisymm Idealize.SL.BI.sep_comm Idealize.SL.BI.sep_comm).trans
      (Idealize.SL.BI.Entails.antisymm (pointsTo_share (PosShare.mem_left_op_right fullShare)).1 (pointsTo_share (PosShare.mem_left_op_right fullShare)).2).symm
  calc bigSep (Finset.univ : Finset (Fin cfg2.W)) (fun w : Fin cfg2.W => ((cfg2.win w).arr.view.loc (c.tc : Thread nD τ) ↦[(cfg2.win w).arr.view.set]{(dat V c).share w} G w : sProp 𝕄))
      = bigSep (insert (2 : Fin 9) (insert 1 others)) (fun w : Fin cfg2.W => ((cfg2.win w).arr.view.loc (c.tc : Thread nD τ) ↦[(cfg2.win w).arr.view.set]{(dat V c).share w} G w : sProp 𝕄)) := congrArg (fun s => bigSep s (fun w : Fin cfg2.W => ((cfg2.win w).arr.view.loc (c.tc : Thread nD τ) ↦[(cfg2.win w).arr.view.set]{(dat V c).share w} G w : sProp 𝕄))) univ_eq
    _ = iprop(((cfg2.win 2).arr.view.loc (c.tc : Thread nD τ) ↦[(cfg2.win 2).arr.view.set]{(dat V c).share 2} G 2 : sProp 𝕄) ∗ ((cfg2.win 1).arr.view.loc (c.tc : Thread nD τ) ↦[(cfg2.win 1).arr.view.set]{(dat V c).share 1} G 1 : sProp 𝕄) ∗ bigSep others (fun w : Fin cfg2.W => ((cfg2.win w).arr.view.loc (c.tc : Thread nD τ) ↦[(cfg2.win w).arr.view.set]{(dat V c).share w} G w : sProp 𝕄))) := by
        rw [bigSep_insert (s := insert (1 : Fin 9) others) (i := (2 : Fin 9)) (by decide), bigSep_insert (s := others) (i := (1 : Fin 9)) (by decide)]
        rfl
    _ = iprop((((cfg2.win 2).arr.view.loc (c.tc : Thread nD τ) ↦[(cfg2.win 2).arr.view.set]{(dat V c).share 2} G 2 : sProp 𝕄) ∗ ((cfg2.win 1).arr.view.loc (c.tc : Thread nD τ) ↦[(cfg2.win 1).arr.view.set]{(dat V c).share 1} G 1 : sProp 𝕄)) ∗ bigSep others (fun w : Fin cfg2.W => ((cfg2.win w).arr.view.loc (c.tc : Thread nD τ) ↦[(cfg2.win w).arr.view.set]{(dat V c).share w} G w : sProp 𝕄))) := (Idealize.SL.BI.Entails.antisymm Idealize.SL.BI.sep_assoc Idealize.SL.BI.sep_assoc').symm
    _ = iprop((((c.tc : Thread nD τ).loc (Pipeline.arrRef spec2 1)) ↦{fullShare} V' (Pipeline.arrRef spec2 1) : sProp 𝕄) ∗ bigSep others (fun w : Fin 9 => (((c.tc : Thread nD τ).loc (Pipeline.arrRef spec2 w)) ↦{fullShare} V' (Pipeline.arrRef spec2 w) : sProp 𝕄))) := by rw [hpair, hrest]
    _ = bigSep (insert (1 : Fin 9) others) (fun w : Fin 9 => (((c.tc : Thread nD τ).loc (Pipeline.arrRef spec2 w)) ↦{fullShare} V' (Pipeline.arrRef spec2 w) : sProp 𝕄)) := (bigSep_insert (s := others) (i := (1 : Fin 9)) (Φ := (fun w : Fin 9 => (((c.tc : Thread nD τ).loc (Pipeline.arrRef spec2 w)) ↦{fullShare} V' (Pipeline.arrRef spec2 w) : sProp 𝕄))) (by decide)).symm
    _ = bigSep ((Finset.univ : Finset (Fin 9)).erase 2) (fun w : Fin 9 => (((c.tc : Thread nD τ).loc (Pipeline.arrRef spec2 w)) ↦{fullShare} V' (Pipeline.arrRef spec2 w) : sProp 𝕄)) := congrArg (fun s => bigSep s (fun w : Fin 9 => (((c.tc : Thread nD τ).loc (Pipeline.arrRef spec2 w)) ↦{fullShare} V' (Pipeline.arrRef spec2 w) : sProp 𝕄))) erase_eq.symm

/-- A core's unscoped buffers are the distinct buffers behind the windows' arrays and the rest. -/
theorem unscoped_split (c : Dev nD) (V' : (b : Ref sig .tc) → Buf (Elt F) ((c.tc : Thread nD τ).loc b)) :
    (unscopedBufs c V' : sProp 𝕄) = iprop((Pipeline.arrBufs spec2 c V' : sProp 𝕄) ∗ Pipeline.unscopedRest spec2 c V') := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

/-- ENTRY: the unscoped buffers at the entry contents give the windows' arrays at their shares, and the rest. -/
theorem entry (c : Dev nD) :
    (unscopedBufs c (V c) : sProp 𝕄) ⊢ iprop((dat V c).arrays ((dat V c).arrAt · 0) ∗ Pipeline.unscopedRest spec2 c (V c)) := by
  rw [unscoped_split]
  exact sep_mono (Entails.of_eq (arrays_eq_arrBufs V c (V c) _ (fun w => rfl)).symm) .rfl

/-- EXIT: the windows' arrays at their final contents and the rest are the unscoped buffers at any contents that
    hold the arrays there and agree with the entry contents off them. -/
theorem exit (c : Dev nD) (V' : (b : Ref sig .tc) → Buf (Elt F) ((c.tc : Thread nD τ).loc b))
    (hF : ∀ w, (dat V c).arrAt w cfg2.N = V' (Pipeline.arrRef spec2 w))
    (hrest : ∀ b, b ∉ Finset.univ.image (Pipeline.arrRef spec2) → V' b = V c b) :
    iprop((dat V c).arrays ((dat V c).arrAt · cfg2.N) ∗ Pipeline.unscopedRest spec2 c (V c)) ⊢ (unscopedBufs c V' : sProp 𝕄) := by
  rw [unscoped_split, arrays_eq_arrBufs V c V' _ hF]
  refine sep_mono .rfl (Entails.of_eq ?_)
  unfold Pipeline.unscopedRest
  exact bigSep_congr fun b hb => by rw [hrest b (Finset.mem_sdiff.mp hb).2]

end Cert.Kernel.Share2

end
-- ==== Proof.KRun.lean ====
/-
  The whole run of the program: the buffers' contents between its segments (a stretch of host operations folds them
  forward; a region replaces its output array by what its grid points wrote), every region as a segment of the
  pipeline library over "every unscoped buffer at the boundary's contents", and the run itself: every weakly fair
  execution ends, nothing faults, and every unscoped buffer ends at the last boundary's contents.
-/
import proofs.«159482_j24764781429188_2_alg».proof.Proof.KRegion0
import proofs.«159482_j24764781429188_2_alg».proof.Proof.KRegion3
import proofs.«159482_j24764781429188_2_alg».proof.Proof.KShare1
import proofs.«159482_j24764781429188_2_alg».proof.Proof.KShare2
import proofs.«159482_j24764781429188_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its output array at what the grid points wrote, every other buffer as entered. -/
def W2 (c : Dev nD) : Valuation τ sig (Elt F) :=
  Function.update (W1 m ρ c) (Proc.devRef .tc main_v29) ((Region0.dat (V1 m ρ) c).arrAt 7 cfg0.N)
abbrev V2 : (c : Dev nD) → (b : Ref sig .tc) → Buf (Elt F) ((c : Thread nD τ).loc b) := fun c b => W2 m ρ c b
theorem hF0 (c : Dev nD) : ∀ w : Fin cfg0.W, (Region0.dat (V1 m ρ) c).arrAt w cfg0.N = V2 m ρ c (Pipeline.arrRef spec0 w) :=
  Region0.arrAt_exit (V1 m ρ) c (V2 m ρ c)
    (Function.update_self (β := fun b : DevRef τ sig => b.ty.Contents (Elt F)) (Proc.devRef .tc main_v29) _ (W1 m ρ c))
    (fun b hb => Function.update_of_ne (β := fun b : DevRef τ sig => b.ty.Contents (Elt F))
      (StableHlo.devRef_ne_of_ne hb : (Proc.devRef .tc b : DevRef τ sig) ≠ Proc.devRef .tc main_v29) _ (W1 m ρ c))
theorem hrest0 (c : Dev nD) : ∀ b, b ∉ Finset.univ.image (Pipeline.arrRef spec0) → V2 m ρ c b = V1 m ρ c b :=
  fun b hb => Function.update_of_ne (β := fun b : DevRef τ sig => b.ty.Contents (Elt F))
    (StableHlo.devRef_ne_of_ne (fun e => hb (e ▸ Region0.out_mem)) : (Proc.devRef .tc b : DevRef τ sig) ≠ Proc.devRef .tc main_v29) _ (W1 m ρ c)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its output array at what the grid points wrote, every other buffer as entered. -/
def W4 (c : Dev nD) : Valuation τ sig (Elt F) :=
  Function.update (W3 m ρ c) (Proc.devRef .tc main_v46) ((Region1.dat (V3 m ρ) c).arrAt 8 cfg1.N)
abbrev V4 : (c : Dev nD) → (b : Ref sig .tc) → Buf (Elt F) ((c : Thread nD τ).loc b) := fun c b => W4 m ρ c b
theorem hF1 (c : Dev nD) : ∀ w : Fin cfg1.W, (Region1.dat (V3 m ρ) c).arrAt w cfg1.N = V4 m ρ c (Pipeline.arrRef spec1 w) :=
  Region1.arrAt_exit (V3 m ρ) c (V4 m ρ c)
    (Function.update_self (β := fun b : DevRef τ sig => b.ty.Contents (Elt F)) (Proc.devRef .tc main_v46) _ (W3 m ρ c))
    (fun b hb => Function.update_of_ne (β := fun b : DevRef τ sig => b.ty.Contents (Elt F))
      (StableHlo.devRef_ne_of_ne hb : (Proc.devRef .tc b : DevRef τ sig) ≠ Proc.devRef .tc main_v46) _ (W3 m ρ c))
theorem hrest1 (c : Dev nD) : ∀ b, b ∉ Finset.univ.image (Pipeline.arrRef spec1) → V4 m ρ c b = V3 m ρ c b :=
  fun b hb => Function.update_of_ne (β := fun b : DevRef τ sig => b.ty.Contents (Elt F))
    (StableHlo.devRef_ne_of_ne (fun e => hb (e ▸ Region1.out_mem)) : (Proc.devRef .tc b : DevRef τ sig) ≠ Proc.devRef .tc main_v46) _ (W3 m ρ c)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its output array at what the grid points wrote, every other buffer as entered. -/
def W6 (c : Dev nD) : Valuation τ sig (Elt F) :=
  Function.update (W5 m ρ c) (Proc.devRef .tc main_v63) ((Region2.dat (V5 m ρ) c).arrAt 8 cfg2.N)
abbrev V6 : (c : Dev nD) → (b : Ref sig .tc) → Buf (Elt F) ((c : Thread nD τ).loc b) := fun c b => W6 m ρ c b
theorem hF2 (c : Dev nD) : ∀ w : Fin cfg2.W, (Region2.dat (V5 m ρ) c).arrAt w cfg2.N = V6 m ρ c (Pipeline.arrRef spec2 w) :=
  Region2.arrAt_exit (V5 m ρ) c (V6 m ρ c)
    (Function.update_self (β := fun b : DevRef τ sig => b.ty.Contents (Elt F)) (Proc.devRef .tc main_v63) _ (W5 m ρ c))
    (fun b hb => Function.update_of_ne (β := fun b : DevRef τ sig => b.ty.Contents (Elt F))
      (StableHlo.devRef_ne_of_ne hb : (Proc.devRef .tc b : DevRef τ sig) ≠ Proc.devRef .tc main_v63) _ (W5 m ρ c))
theorem hrest2 (c : Dev nD) : ∀ b, b ∉ Finset.univ.image (Pipeline.arrRef spec2) → V6 m ρ c b = V5 m ρ c b :=
  fun b hb => Function.update_of_ne (β := fun b : DevRef τ sig => b.ty.Contents (Elt F))
    (StableHlo.devRef_ne_of_ne (fun e => hb (e ▸ Region2.out_mem)) : (Proc.devRef .tc b : DevRef τ sig) ≠ Proc.devRef .tc main_v63) _ (W5 m ρ c)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After region 3: its output array at what the grid points wrote, every other buffer as entered. -/
def W8 (c : Dev nD) : Valuation τ sig (Elt F) :=
  Function.update (W7 m ρ c) (Proc.devRef .tc main_v77) ((Region3.dat (V7 m ρ) c).arrAt 3 cfg3.N)
abbrev V8 : (c : Dev nD) → (b : Ref sig .tc) → Buf (Elt F) ((c : Thread nD τ).loc b) := fun c b => W8 m ρ c b
theorem hF3 (c : Dev nD) : ∀ w : Fin cfg3.W, (Region3.dat (V7 m ρ) c).arrAt w cfg3.N = V8 m ρ c (Pipeline.arrRef spec3 w) :=
  Region3.arrAt_exit (V7 m ρ) c (V8 m ρ c)
    (Function.update_self (β := fun b : DevRef τ sig => b.ty.Contents (Elt F)) (Proc.devRef .tc main_v77) _ (W7 m ρ c))
    (fun b hb => Function.update_of_ne (β := fun b : DevRef τ sig => b.ty.Contents (Elt F))
      (StableHlo.devRef_ne_of_ne hb : (Proc.devRef .tc b : DevRef τ sig) ≠ Proc.devRef .tc main_v77) _ (W7 m ρ c))
theorem hrest3 (c : Dev nD) : ∀ b, b ∉ Finset.univ.image (Pipeline.arrRef spec3) → V8 m ρ c b = V7 m ρ c b :=
  fun b hb => Function.update_of_ne (β := fun b : DevRef τ sig => b.ty.Contents (Elt F))
    (StableHlo.devRef_ne_of_ne (fun e => hb (e ▸ Region3.out_mem)) : (Proc.devRef .tc b : DevRef τ sig) ≠ Proc.devRef .tc main_v77) _ (W7 m ρ c)

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V3 m ρ) c
  | ⟨2, _⟩ => fun c => Region2.dat (V5 m ρ) c
  | ⟨3, _⟩ => fun c => Region3.dat (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Region1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V3 m ρ c)) :=
      Share1.entry (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs c (V4 m ρ c) : sProp 𝕄) :=
      Share1.exit (V3 m ρ) c (V4 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Region2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit : (unscopedBufs c (V5 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (V5 m ρ c)) :=
      Share2.entry (V5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V5 m ρ c))
        ⊢ (unscopedBufs c (V6 m ρ c) : sProp 𝕄) :=
      Share2.exit (V5 m ρ) c (V6 m ρ c) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- THE RUN: from any memory with zero counters every weakly fair execution of the program on the TensorCores ends,
    nothing faults, and every unscoped buffer ends at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Seg.run_eq_chain,
        show (segs m ρ).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Run

end
-- ==== Proof.KFrame.lean ====
/-
  The frame of the program: every argument array ends holding its launch contents. No stretch of host operations
  writes an argument and no region's output array is one, so the last boundary's contents at an argument are the
  launch's.
-/
import proofs.«159482_j24764781429188_2_alg».proof.Proof.KRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Run

variable (m : (ℓ : Loc nD τ sig) → Buf (Elt F) ℓ) (ρ : Dev nD → PrngReg)

/-- A buffer that no host operation writes and that is no region's output ends as launched. -/
theorem W8_of (c : Dev nD) (r : Ref sig .tc) (h0 : r ∉ hostOps0_W) (h1 : r ∉ hostOps1_W) (h2 : r ∉ hostOps2_W) (h3 : r ∉ hostOps3_W)
    (n0 : r ≠ main_v29) (n1 : r ≠ main_v46) (n2 : r ≠ main_v63) (n3 : r ≠ main_v77) :
    W8 m ρ c (Proc.devRef .tc r) = m ((c : Thread nD τ).loc r) := by
  have e8 : W8 m ρ c (Proc.devRef .tc r) = W7 m ρ c (Proc.devRef .tc r) :=
    Function.update_of_ne (β := fun b : DevRef τ sig => b.ty.Contents (Elt F)) (StableHlo.devRef_ne_of_ne n3 : (Proc.devRef .tc r : DevRef τ sig) ≠ Proc.devRef .tc main_v77) _ (W7 m ρ c)
  have e7 : W7 m ρ c (Proc.devRef .tc r) = W6 m ρ c (Proc.devRef .tc r) := StableHlo.after_of_writes_sub hostOps3 _ hostOps3_writes h3
  have e6 : W6 m ρ c (Proc.devRef .tc r) = W5 m ρ c (Proc.devRef .tc r) :=
    Function.update_of_ne (β := fun b : DevRef τ sig => b.ty.Contents (Elt F)) (StableHlo.devRef_ne_of_ne n2 : (Proc.devRef .tc r : DevRef τ sig) ≠ Proc.devRef .tc main_v63) _ (W5 m ρ c)
  have e5 : W5 m ρ c (Proc.devRef .tc r) = W4 m ρ c (Proc.devRef .tc r) := StableHlo.after_of_writes_sub hostOps2 _ hostOps2_writes h2
  have e4 : W4 m ρ c (Proc.devRef .tc r) = W3 m ρ c (Proc.devRef .tc r) :=
    Function.update_of_ne (β := fun b : DevRef τ sig => b.ty.Contents (Elt F)) (StableHlo.devRef_ne_of_ne n1 : (Proc.devRef .tc r : DevRef τ sig) ≠ Proc.devRef .tc main_v46) _ (W3 m ρ c)
  have e3 : W3 m ρ c (Proc.devRef .tc r) = W2 m ρ c (Proc.devRef .tc r) := StableHlo.after_of_writes_sub hostOps1 _ hostOps1_writes h1
  have e2 : W2 m ρ c (Proc.devRef .tc r) = W1 m ρ c (Proc.devRef .tc r) :=
    Function.update_of_ne (β := fun b : DevRef τ sig => b.ty.Contents (Elt F)) (StableHlo.devRef_ne_of_ne n0 : (Proc.devRef .tc r : DevRef τ sig) ≠ Proc.devRef .tc main_v29) _ (W1 m ρ c)
  have e1 : W1 m ρ c (Proc.devRef .tc r) = W0 m ρ c (Proc.devRef .tc r) := StableHlo.after_of_writes_sub hostOps0 _ hostOps0_writes h0
  exact e8.trans (e7.trans (e6.trans (e5.trans (e4.trans (e3.trans (e2.trans e1))))))

theorem W8_main_arg0 (c : Dev nD) : W8 m ρ c (Proc.devRef .tc main_arg0) = m ((c : Thread nD τ).loc main_arg0) :=
  W8_of m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_of m ρ c main_arg15 (by decide) (by decide) (by decide) (by decide) (by decide) (by decide) (by decide) (by decide)
theorem W8_main_arg16 (c : Dev nD) : W8 m ρ c (Proc.devRef .tc main_arg16) = m ((c : Thread nD τ).loc main_arg16) :=
  W8_of m ρ c main_arg16 (by decide) (by decide) (by decide) (by decide) (by decide) (by decide) (by decide) (by decide)
theorem W8_main_arg17 (c : Dev nD) : W8 m ρ c (Proc.devRef .tc main_arg17) = m ((c : Thread nD τ).loc main_arg17) :=
  W8_of m ρ c main_arg17 (by decide) (by decide) (by decide) (by decide) (by decide) (by decide) (by decide) (by decide)
theorem W8_main_arg18 (c : Dev nD) : W8 m ρ c (Proc.devRef .tc main_arg18) = m ((c : Thread nD τ).loc main_arg18) :=
  W8_of m ρ c main_arg18 (by decide) (by decide) (by decide) (by decide) (by decide) (by decide) (by decide) (by decide)
theorem W8_main_arg19 (c : Dev nD) : W8 m ρ c (Proc.devRef .tc main_arg19) = m ((c : Thread nD τ).loc main_arg19) :=
  W8_of m ρ c main_arg19 (by decide) (by decide) (by decide) (by decide) (by decide) (by decide) (by decide) (by decide)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c)⟩)
    (run_all m ρ)

end Cert.Kernel.Frame

end
-- ==== Proof.KIRegion0.lean ====
/-
  Region 0 of the program as the pipeline runs it: the first fused layer (neighbour mean, one product with the stacked weights, bias, rectifier, row normalisation), one row tile of 2000 nodes per grid point.
-/
import proofs.«159482_j24764781429188_2_alg».proof.Proof.Gen.KernelIdeal.Launch
import proofs.«159482_j24764781429188_2_alg».proof.Proof.Gen.KernelIdeal.Skeleton
import proofs.«159482_j24764781429188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or kept from the point before. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev rS2000x128 : Rect S2000x128 := Rect.unit (s := S2000x128) ![0, 0] S2000x128.size inb_S2000x128_S2000x128_0_0
abbrev rS2000x1 : Rect S2000x1 := Rect.unit (s := S2000x1) ![0, 0] S2000x1.size inb_S2000x1_S2000x1_0_0
abbrev rS256x128 : Rect S256x128 := Rect.unit (s := S256x128) ![0, 0] S256x128.size inb_S256x128_S256x128_0_0
abbrev rS1x128 : Rect S1x128 := Rect.unit (s := S1x128) ![0, 0] S1x128.size inb_S1x128_S1x128_0_0

/-- What the body leaves in the output window's buffer: its one store, of the body's arithmetic on the loaded blocks. -/
def out (x0 : Vec F S2000x128 .f32) (x1 : Vec F S2000x128 .f32) (x2 : Vec F S2000x1 .f32) (x3 : Vec F S256x128 .f32) (x4 : Vec F S1x128 .f32) (x5 : Vec F S1x128 .f32) (x6 : Vec F S1x128 .f32) : Vec F S2000x128 .f32 :=
  View.canon [⟨rS2000x128, k0_pay1 (k0_pay2 (View.ld x0 rS2000x128) (View.ld x2 rS2000x1) (View.ld x1 rS2000x128) (View.ld x3 rS256x128) (View.ld x4 rS1x128) (View.ld x5 rS1x128)) (View.ld x6 rS1x128)⟩]

theorem cover (p0 : Vec F S2000x128 .f32) (y : S2000x128.Idx) :
    ∃ pc ∈ ([⟨rS2000x128, p0⟩] : List (View.Piece (Elt F) S2000x128 .f32)), y ∈ pc.1.set :=
  View.cover_of_tiled [⟨rS2000x128, p0⟩] S2000x128.size (by rfl) y

set_option maxHeartbeats 4000000 in
/-- The body on whole staging buffers: the inputs are read and left as they were, the output buffer ends at `out` of them. -/
theorem sound_kernel (c : Dev nD) (E : Set ℕ) (i : grid0.Coords) (a0 : Memref sig .tc .vmem S2000x128 .f32) (h0 : a0.IsWhole) (a1 : Memref sig .tc .vmem S2000x128 .f32) (h1 : a1.IsWhole) (a2 : Memref sig .tc .vmem S2000x1 .f32) (h2 : a2.IsWhole) (a3 : Memref sig .tc .vmem S256x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S2000x128 .f32) (h7 : a7.IsWhole)
    (x0 : Vec F S2000x128 .f32) (x1 : Vec F S2000x128 .f32) (x2 : Vec F S2000x1 .f32) (x3 : Vec F S256x128 .f32) (x4 : Vec F S1x128 .f32) (x5 : Vec F S1x128 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out x0 x1 x2 x3 x4 x5 x6)) -∗ K ⟨⟩))
      ⊢ wp frame (wpE (defs₀ (F := F)) Variants.none c none) E (cc0__sage_ln_kernel_noresid i a0 h0 a1 h1 a2 h2 a3 h3 a4 h4 a5 h5 a6 h6 a7 h7) K := by
  simp only [cc0__sage_ln_kernel_noresid_eq_skeleton]; unfold cc0__sage_ln_kernel_noresid_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

/-- The pipeline's proof data on core `c`: the arrays as found on entry; after the body each input buffer still holds its
    block and the output buffer holds `out` of the input blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = out (iblk V c 0 t) (iblk V c 1 t) (iblk V c 2 t) (iblk V c 3 t) (iblk V c 4 t) (iblk V c 5 t) (iblk V c 6 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

/-- Every window but the last is an input, and reads an array other than the output's. -/
theorem window_facts : ∀ w : Fin 8, w ≠ 7 → (cfg0.win w).isOut = false ∧ Pipeline.arrRef spec0 w ≠ main_v29 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v29 = (dat V c).arrAt 7 cfg0.N) (hother : ∀ b : Ref sig .tc, b ≠ main_v29 → V' b = V c b) :
    ∀ w : Fin cfg0.W, (dat V c).arrAt w cfg0.N = V' (Pipeline.arrRef spec0 w) := by
  intro w
  by_cases h : w = (7 : Fin 8)
  · subst h; exact hout.symm
  · obtain ⟨hin, hne⟩ := window_facts w h
    exact ((dat V c).arrAt_in w hin cfg0.N).trans ((A_eq V c w).trans (hother _ hne).symm)

theorem out_mem : main_v29 ∈ Finset.univ.image (Pipeline.arrRef spec0) := by decide

end Cert.KernelIdeal.Region0

end
-- ==== Proof.KIRegion3.lean ====
/-
  Region 3 of the program as the pipeline runs it: the read-out: the pooled features times the classifier's weights plus its bias, one grid point.
-/
import proofs.«159482_j24764781429188_2_alg».proof.Proof.Gen.KernelIdeal.Launch
import proofs.«159482_j24764781429188_2_alg».proof.Proof.Gen.KernelIdeal.Skeleton
import proofs.«159482_j24764781429188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, fetched there or kept from the point before. -/
theorem before_of_0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev rS512x128 : Rect S512x128 := Rect.unit (s := S512x128) ![0, 0] S512x128.size inb_S512x128_S512x128_0_0
abbrev rS128x2 : Rect S128x2 := Rect.unit (s := S128x2) ![0, 0] S128x2.size inb_S128x2_S128x2_0_0
abbrev rS1x2 : Rect S1x2 := Rect.unit (s := S1x2) ![0, 0] S1x2.size inb_S1x2_S1x2_0_0
abbrev rS512x2 : Rect S512x2 := Rect.unit (s := S512x2) ![0, 0] S512x2.size inb_S512x2_S512x2_0_0

/-- What the body leaves in the output window's buffer: its one store, of the body's arithmetic on the loaded blocks. -/
def out (x0 : Vec F S512x128 .f32) (x1 : Vec F S128x2 .f32) (x2 : Vec F S1x2 .f32) : Vec F S512x2 .f32 :=
  View.canon [⟨rS512x2, k3_pay1 (View.ld x0 rS512x128) (View.ld x1 rS128x2) (View.ld x2 rS1x2)⟩]

theorem cover (p0 : Vec F S512x2 .f32) (y : S512x2.Idx) :
    ∃ pc ∈ ([⟨rS512x2, p0⟩] : List (View.Piece (Elt F) S512x2 .f32)), y ∈ pc.1.set :=
  View.cover_of_tiled [⟨rS512x2, p0⟩] S512x2.size (by rfl) y

set_option maxHeartbeats 4000000 in
/-- The body on whole staging buffers: the inputs are read and left as they were, the output buffer ends at `out` of them. -/
theorem sound_kernel (c : Dev nD) (E : Set ℕ) (i : grid3.Coords) (a0 : Memref sig .tc .vmem S512x128 .f32) (h0 : a0.IsWhole) (a1 : Memref sig .tc .vmem S128x2 .f32) (h1 : a1.IsWhole) (a2 : Memref sig .tc .vmem S1x2 .f32) (h2 : a2.IsWhole) (a3 : Memref sig .tc .vmem S512x2 .f32) (h3 : a3.IsWhole)
    (x0 : Vec F S512x128 .f32) (x1 : Vec F S128x2 .f32) (x2 : Vec F S1x2 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out x0 x1 x2)) -∗ K ⟨⟩))
      ⊢ wp frame (wpE (defs₀ (F := F)) Variants.none c none) E (cc3__final_linear_kernel i a0 h0 a1 h1 a2 h2 a3 h3) K := by
  simp only [cc3__final_linear_kernel_eq_skeleton]; unfold cc3__final_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The pipeline's proof data on core `c`: the arrays as found on entry; after the body each input buffer still holds its
    block and the output buffer holds `out` of the input blocks; nothing owed, full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = out (iblk V c 0 t) (iblk V c 1 t) (iblk V c 2 t) := by dsimp only [dat]

theorem before_0 (c : Dev nD) (t : Fin cfg3.N) (d) : (dat V c).before 0 t d = iblk V c 0 t :=
  before_of_0 V (dat V c) (A_eq V c 0) (after_0 V c) t d
theorem before_1 (c : Dev nD) (t : Fin cfg3.N) (d) : (dat V c).before 1 t d = iblk V c 1 t :=
  before_of_1 V (dat V c) (A_eq V c 1) (after_1 V c) t d
theorem before_2 (c : Dev nD) (t : Fin cfg3.N) (d) : (dat V c).before 2 t d = iblk V c 2 t :=
  before_of_2 V (dat V c) (A_eq V c 2) (after_2 V c) t d

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W3, bigSep_W3]
  exact sound_body V c t

/-- Every window but the last is an input, and reads an array other than the output's. -/
theorem window_facts : ∀ w : Fin 4, w ≠ 3 → (cfg3.win w).isOut = false ∧ Pipeline.arrRef spec3 w ≠ main_v77 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v77 = (dat V c).arrAt 3 cfg3.N) (hother : ∀ b : Ref sig .tc, b ≠ main_v77 → V' b = V c b) :
    ∀ w : Fin cfg3.W, (dat V c).arrAt w cfg3.N = V' (Pipeline.arrRef spec3 w) := by
  intro w
  by_cases h : w = (3 : Fin 4)
  · subst h; exact hout.symm
  · obtain ⟨hin, hne⟩ := window_facts w h
    exact ((dat V c).arrAt_in w hin cfg3.N).trans ((A_eq V c w).trans (hother _ hne).symm)

theorem out_mem : main_v77 ∈ Finset.univ.image (Pipeline.arrRef spec3) := by decide

end Cert.KernelIdeal.Region3

end
-- ==== Proof.KIRegion1.lean ====
/-
  Region 1 of the program as the pipeline runs it: the second fused layer (as the first, with the layer's input added back before the row normalisation), one row tile of 2000 nodes per grid point.
-/
import proofs.«159482_j24764781429188_2_alg».proof.Proof.Gen.KernelIdeal.Launch
import proofs.«159482_j24764781429188_2_alg».proof.Proof.Gen.KernelIdeal.Skeleton
import proofs.«159482_j24764781429188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or kept from the point before. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_7 {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev rS2000x128 : Rect S2000x128 := Rect.unit (s := S2000x128) ![0, 0] S2000x128.size inb_S2000x128_S2000x128_0_0
abbrev rS2000x1 : Rect S2000x1 := Rect.unit (s := S2000x1) ![0, 0] S2000x1.size inb_S2000x1_S2000x1_0_0
abbrev rS256x128 : Rect S256x128 := Rect.unit (s := S256x128) ![0, 0] S256x128.size inb_S256x128_S256x128_0_0
abbrev rS1x128 : Rect S1x128 := Rect.unit (s := S1x128) ![0, 0] S1x128.size inb_S1x128_S1x128_0_0

/-- What the body leaves in the output window's buffer: its one store, of the body's arithmetic on the loaded blocks. -/
def out (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) : Vec F S2000x128 .f32 :=
  View.canon [⟨rS2000x128, k1_pay1 (k1_pay2 (View.ld x0 rS2000x128) (View.ld x3 rS2000x1) (View.ld x1 rS2000x128) (View.ld x4 rS256x128) (View.ld x5 rS1x128) (View.ld x2 rS2000x128)) (View.ld x6 rS1x128) (View.ld x7 rS1x128)⟩]

theorem cover (p0 : Vec F S2000x128 .f32) (y : S2000x128.Idx) :
    ∃ pc ∈ ([⟨rS2000x128, p0⟩] : List (View.Piece (Elt F) S2000x128 .f32)), y ∈ pc.1.set :=
  View.cover_of_tiled [⟨rS2000x128, p0⟩] S2000x128.size (by rfl) y

set_option maxHeartbeats 4000000 in
/-- The body on whole staging buffers: the inputs are read and left as they were, the output buffer ends at `out` of them. -/
theorem sound_kernel (c : Dev nD) (E : Set ℕ) (i : grid1.Coords) (a0 : Memref sig .tc .vmem S2000x128 .f32) (h0 : a0.IsWhole) (a1 : Memref sig .tc .vmem S2000x128 .f32) (h1 : a1.IsWhole) (a2 : Memref sig .tc .vmem S2000x128 .f32) (h2 : a2.IsWhole) (a3 : Memref sig .tc .vmem S2000x1 .f32) (h3 : a3.IsWhole) (a4 : Memref sig .tc .vmem S256x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S2000x128 .f32) (h8 : a8.IsWhole)
    (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out x0 x1 x2 x3 x4 x5 x6 x7)) -∗ K ⟨⟩))
      ⊢ wp frame (wpE (defs₀ (F := F)) Variants.none c none) E (cc1__sage_ln_kernel_resid i a0 h0 a1 h1 a2 h2 a3 h3 a4 h4 a5 h5 a6 h6 a7 h7 a8 h8) K := by
  simp only [cc1__sage_ln_kernel_resid_eq_skeleton]; unfold cc1__sage_ln_kernel_resid_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _)

/-- The pipeline's proof data on core `c`: the arrays as found on entry; after the body each input buffer still holds its
    block and the output buffer holds `out` of the input blocks; nothing owed; the one array two windows read is held half and half, every other array whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (iblk V c 0 t) (iblk V c 1 t) (iblk V c 2 t) (iblk V c 3 t) (iblk V c 4 t) (iblk V c 5 t) (iblk V c 6 t) (iblk V c 7 t)
  Φ _ := Pipeline.ΦA spec1 c
  q w := match w with
    | ⟨1, _⟩ => fullShare.left
    | ⟨2, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out (iblk V c 0 t) (iblk V c 1 t) (iblk V c 2 t) (iblk V c 3 t) (iblk V c 4 t) (iblk V c 5 t) (iblk V c 6 t) (iblk V c 7 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d
theorem before_6 (c : Dev nD) (t : Fin cfg1.N) (d) : (dat V c).before 6 t d = iblk V c 6 t :=
  before_of_6 V (dat V c) (A_eq V c 6) (after_6 V c) t d
theorem before_7 (c : Dev nD) (t : Fin cfg1.N) (d) : (dat V c).before 7 t d = iblk V c 7 t :=
  before_of_7 V (dat V c) (A_eq V c 7) (after_7 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W1, bigSep_W1]
  exact sound_body V c t

/-- Every window but the last is an input, and reads an array other than the output's. -/
theorem window_facts : ∀ w : Fin 9, w ≠ 8 → (cfg1.win w).isOut = false ∧ Pipeline.arrRef spec1 w ≠ main_v46 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v46 = (dat V c).arrAt 8 cfg1.N) (hother : ∀ b : Ref sig .tc, b ≠ main_v46 → V' b = V c b) :
    ∀ w : Fin cfg1.W, (dat V c).arrAt w cfg1.N = V' (Pipeline.arrRef spec1 w) := by
  intro w
  by_cases h : w = (8 : Fin 9)
  · subst h; exact hout.symm
  · obtain ⟨hin, hne⟩ := window_facts w h
    exact ((dat V c).arrAt_in w hin cfg1.N).trans ((A_eq V c w).trans (hother _ hne).symm)

theorem out_mem : main_v46 ∈ Finset.univ.image (Pipeline.arrRef spec1) := by decide

end Cert.KernelIdeal.Region1

end
-- ==== Proof.KIShare1.lean ====
/-
  Region 1 reads the first layer's output through two windows (as the layer's input and as the term added back). The array's one full share is dealt between the two windows, half and half, and nothing is lost by it.
-/
import proofs.«159482_j24764781429188_2_alg».proof.Proof.KIRegion1

set_option maxRecDepth 16384

noncomputable section

namespace Cert.KernelIdeal.Share1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.Region1

theorem share_1 (c : Dev nD) : (dat V c).share 1 = fullShare.left := rfl
theorem share_2 (c : Dev nD) : (dat V c).share 2 = fullShare.right := rfl
theorem share_other (c : Dev nD) (w : Fin cfg1.W) (h1 : w ≠ 1) (h2 : w ≠ 2) : (dat V c).share w = fullShare := by
  match w, h1, h2 with
  | ⟨0, _⟩, _, _ => rfl
  | ⟨1, _⟩, h, _ => exact absurd rfl h
  | ⟨2, _⟩, _, h => exact absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

/-- The windows other than the two that read one array. -/
abbrev others : Finset (Fin 9) := {0, 3, 4, 5, 6, 7, 8}
theorem univ_eq : (Finset.univ : Finset (Fin 9)) = insert 2 (insert 1 others) := by decide
theorem erase_eq : (Finset.univ : Finset (Fin 9)).erase 2 = insert 1 others := by decide
theorem others_ne : ∀ w ∈ others, w ≠ 1 ∧ w ≠ 2 := by decide

/-- Away from window 2 no two windows read the same array. -/
theorem arr_inj_but : ∀ x y : Fin 9, x ≠ 2 → y ≠ 2 → Pipeline.arrRef spec1 x = Pipeline.arrRef spec1 y → x = y := by decide

theorem image_eq : (Finset.univ : Finset (Fin 9)).image (Pipeline.arrRef spec1) = ((Finset.univ : Finset (Fin 9)).erase 2).image (Pipeline.arrRef spec1) := by decide

/-- The distinct buffers behind the windows' arrays, one per window other than window 2. -/
theorem arrBufs_eq (c : Dev nD) (V' : (b : Ref sig .tc) → Buf (Elt F) ((c.tc : Thread nD τ).loc b)) :
    (Pipeline.arrBufs spec1 c V' : sProp 𝕄) = bigSep ((Finset.univ : Finset (Fin 9)).erase 2) (fun w : Fin 9 => (((c.tc : Thread nD τ).loc (Pipeline.arrRef spec1 w)) ↦{fullShare} V' (Pipeline.arrRef spec1 w) : sProp 𝕄)) := by
  unfold Pipeline.arrBufs
  rw [image_eq]
  exact bigSep_image_of_injOn (fun x hx y hy e => arr_inj_but x y (Finset.ne_of_mem_erase (Finset.mem_coe.mp hx)) (Finset.ne_of_mem_erase (Finset.mem_coe.mp hy)) e) _

/-- The windows' arrays at their shares are exactly the distinct buffers behind them, each whole at the full share:
    the shared buffer's full share is its two halves. -/
theorem arrays_eq_arrBufs (c : Dev nD) (V' : (b : Ref sig .tc) → Buf (Elt F) ((c.tc : Thread nD τ).loc b))
    (G : (w : Fin cfg1.W) → Buf (Elt F) ((cfg1.win w).arr.view.loc (c.tc : Thread nD τ)))
    (hG : ∀ w, G w = V' (Pipeline.arrRef spec1 w)) :
    (dat V c).arrays G = (Pipeline.arrBufs spec1 c V' : sProp 𝕄) := by
  rw [arrBufs_eq]
  unfold Dat.arrays
  have hrest : bigSep others (fun w : Fin cfg1.W => ((cfg1.win w).arr.view.loc (c.tc : Thread nD τ) ↦[(cfg1.win w).arr.view.set]{(dat V c).share w} G w : sProp 𝕄)) = bigSep others (fun w : Fin 9 => (((c.tc : Thread nD τ).loc (Pipeline.arrRef spec1 w)) ↦{fullShare} V' (Pipeline.arrRef spec1 w) : sProp 𝕄)) :=
    bigSep_congr fun w hw => by
      obtain ⟨h1, h2⟩ := others_ne w hw
      show ((cfg1.win w).arr.view.loc (c.tc : Thread nD τ) ↦[(cfg1.win w).arr.view.set]{(dat V c).share w} G w : sProp 𝕄) = _
      rw [share_other V c w h1 h2, (arr_whole1 w).set_eq_univ, hG w]
  have hpair : (iprop(((cfg1.win 2).arr.view.loc (c.tc : Thread nD τ) ↦[(cfg1.win 2).arr.view.set]{(dat V c).share 2} G 2 : sProp 𝕄) ∗ ((cfg1.win 1).arr.view.loc (c.tc : Thread nD τ) ↦[(cfg1.win 1).arr.view.set]{(dat V c).share 1} G 1 : sProp 𝕄)) : sProp 𝕄) = (((c.tc : Thread nD τ).loc (Pipeline.arrRef spec1 1)) ↦{fullShare} V' (Pipeline.arrRef spec1 1) : sProp 𝕄) := by
    rw [share_1, share_2, (arr_whole1 1).set_eq_univ, hG 1, hG 2]
    exact (Idealize.SL.BI.Entails.antisymm Idealize.SL.BI.sep_comm Idealize.SL.BI.sep_comm).trans
      (Idealize.SL.BI.Entails.antisymm (pointsTo_share (PosShare.mem_left_op_right fullShare)).1 (pointsTo_share (PosShare.mem_left_op_right fullShare)).2).symm
  calc bigSep (Finset.univ : Finset (Fin cfg1.W)) (fun w : Fin cfg1.W => ((cfg1.win w).arr.view.loc (c.tc : Thread nD τ) ↦[(cfg1.win w).arr.view.set]{(dat V c).share w} G w : sProp 𝕄))
      = bigSep (insert (2 : Fin 9) (insert 1 others)) (fun w : Fin cfg1.W => ((cfg1.win w).arr.view.loc (c.tc : Thread nD τ) ↦[(cfg1.win w).arr.view.set]{(dat V c).share w} G w : sProp 𝕄)) := congrArg (fun s => bigSep s (fun w : Fin cfg1.W => ((cfg1.win w).arr.view.loc (c.tc : Thread nD τ) ↦[(cfg1.win w).arr.view.set]{(dat V c).share w} G w : sProp 𝕄))) univ_eq
    _ = iprop(((cfg1.win 2).arr.view.loc (c.tc : Thread nD τ) ↦[(cfg1.win 2).arr.view.set]{(dat V c).share 2} G 2 : sProp 𝕄) ∗ ((cfg1.win 1).arr.view.loc (c.tc : Thread nD τ) ↦[(cfg1.win 1).arr.view.set]{(dat V c).share 1} G 1 : sProp 𝕄) ∗ bigSep others (fun w : Fin cfg1.W => ((cfg1.win w).arr.view.loc (c.tc : Thread nD τ) ↦[(cfg1.win w).arr.view.set]{(dat V c).share w} G w : sProp 𝕄))) := by
        rw [bigSep_insert (s := insert (1 : Fin 9) others) (i := (2 : Fin 9)) (by decide), bigSep_insert (s := others) (i := (1 : Fin 9)) (by decide)]
        rfl
    _ = iprop((((cfg1.win 2).arr.view.loc (c.tc : Thread nD τ) ↦[(cfg1.win 2).arr.view.set]{(dat V c).share 2} G 2 : sProp 𝕄) ∗ ((cfg1.win 1).arr.view.loc (c.tc : Thread nD τ) ↦[(cfg1.win 1).arr.view.set]{(dat V c).share 1} G 1 : sProp 𝕄)) ∗ bigSep others (fun w : Fin cfg1.W => ((cfg1.win w).arr.view.loc (c.tc : Thread nD τ) ↦[(cfg1.win w).arr.view.set]{(dat V c).share w} G w : sProp 𝕄))) := (Idealize.SL.BI.Entails.antisymm Idealize.SL.BI.sep_assoc Idealize.SL.BI.sep_assoc').symm
    _ = iprop((((c.tc : Thread nD τ).loc (Pipeline.arrRef spec1 1)) ↦{fullShare} V' (Pipeline.arrRef spec1 1) : sProp 𝕄) ∗ bigSep others (fun w : Fin 9 => (((c.tc : Thread nD τ).loc (Pipeline.arrRef spec1 w)) ↦{fullShare} V' (Pipeline.arrRef spec1 w) : sProp 𝕄))) := by rw [hpair, hrest]
    _ = bigSep (insert (1 : Fin 9) others) (fun w : Fin 9 => (((c.tc : Thread nD τ).loc (Pipeline.arrRef spec1 w)) ↦{fullShare} V' (Pipeline.arrRef spec1 w) : sProp 𝕄)) := (bigSep_insert (s := others) (i := (1 : Fin 9)) (Φ := (fun w : Fin 9 => (((c.tc : Thread nD τ).loc (Pipeline.arrRef spec1 w)) ↦{fullShare} V' (Pipeline.arrRef spec1 w) : sProp 𝕄))) (by decide)).symm
    _ = bigSep ((Finset.univ : Finset (Fin 9)).erase 2) (fun w : Fin 9 => (((c.tc : Thread nD τ).loc (Pipeline.arrRef spec1 w)) ↦{fullShare} V' (Pipeline.arrRef spec1 w) : sProp 𝕄)) := congrArg (fun s => bigSep s (fun w : Fin 9 => (((c.tc : Thread nD τ).loc (Pipeline.arrRef spec1 w)) ↦{fullShare} V' (Pipeline.arrRef spec1 w) : sProp 𝕄))) erase_eq.symm

/-- A core's unscoped buffers are the distinct buffers behind the windows' arrays and the rest. -/
theorem unscoped_split (c : Dev nD) (V' : (b : Ref sig .tc) → Buf (Elt F) ((c.tc : Thread nD τ).loc b)) :
    (unscopedBufs c V' : sProp 𝕄) = iprop((Pipeline.arrBufs spec1 c V' : sProp 𝕄) ∗ Pipeline.unscopedRest spec1 c V') := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- ENTRY: the unscoped buffers at the entry contents give the windows' arrays at their shares, and the rest. -/
theorem entry (c : Dev nD) :
    (unscopedBufs c (V c) : sProp 𝕄) ⊢ iprop((dat V c).arrays ((dat V c).arrAt · 0) ∗ Pipeline.unscopedRest spec1 c (V c)) := by
  rw [unscoped_split]
  exact sep_mono (Entails.of_eq (arrays_eq_arrBufs V c (V c) _ (fun w => rfl)).symm) .rfl

/-- EXIT: the windows' arrays at their final contents and the rest are the unscoped buffers at any contents that
    hold the arrays there and agree with the entry contents off them. -/
theorem exit (c : Dev nD) (V' : (b : Ref sig .tc) → Buf (Elt F) ((c.tc : Thread nD τ).loc b))
    (hF : ∀ w, (dat V c).arrAt w cfg1.N = V' (Pipeline.arrRef spec1 w))
    (hrest : ∀ b, b ∉ Finset.univ.image (Pipeline.arrRef spec1) → V' b = V c b) :
    iprop((dat V c).arrays ((dat V c).arrAt · cfg1.N) ∗ Pipeline.unscopedRest spec1 c (V c)) ⊢ (unscopedBufs c V' : sProp 𝕄) := by
  rw [unscoped_split, arrays_eq_arrBufs V c V' _ hF]
  refine sep_mono .rfl (Entails.of_eq ?_)
  unfold Pipeline.unscopedRest
  exact bigSep_congr fun b hb => by rw [hrest b (Finset.mem_sdiff.mp hb).2]

end Cert.KernelIdeal.Share1

end
-- ==== Proof.KIRegion2.lean ====
/-
  Region 2 of the program as the pipeline runs it: the third fused layer (as the second), one row tile of 2000 nodes per grid point.
-/
import proofs.«159482_j24764781429188_2_alg».proof.Proof.Gen.KernelIdeal.Launch
import proofs.«159482_j24764781429188_2_alg».proof.Proof.Gen.KernelIdeal.Skeleton
import proofs.«159482_j24764781429188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds on entry. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or kept from the point before. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_6 {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- An input window's staging buffer holds the window's block at every point, fetched there or kept from the point before. -/
theorem before_of_7 {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev rS2000x128 : Rect S2000x128 := Rect.unit (s := S2000x128) ![0, 0] S2000x128.size inb_S2000x128_S2000x128_0_0
abbrev rS2000x1 : Rect S2000x1 := Rect.unit (s := S2000x1) ![0, 0] S2000x1.size inb_S2000x1_S2000x1_0_0
abbrev rS256x128 : Rect S256x128 := Rect.unit (s := S256x128) ![0, 0] S256x128.size inb_S256x128_S256x128_0_0
abbrev rS1x128 : Rect S1x128 := Rect.unit (s := S1x128) ![0, 0] S1x128.size inb_S1x128_S1x128_0_0

/-- What the body leaves in the output window's buffer: its one store, of the body's arithmetic on the loaded blocks. -/
def out (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) : Vec F S2000x128 .f32 :=
  View.canon [⟨rS2000x128, k2_pay1 (k2_pay2 (View.ld x0 rS2000x128) (View.ld x3 rS2000x1) (View.ld x1 rS2000x128) (View.ld x4 rS256x128) (View.ld x5 rS1x128) (View.ld x2 rS2000x128)) (View.ld x6 rS1x128) (View.ld x7 rS1x128)⟩]

theorem cover (p0 : Vec F S2000x128 .f32) (y : S2000x128.Idx) :
    ∃ pc ∈ ([⟨rS2000x128, p0⟩] : List (View.Piece (Elt F) S2000x128 .f32)), y ∈ pc.1.set :=
  View.cover_of_tiled [⟨rS2000x128, p0⟩] S2000x128.size (by rfl) y

set_option maxHeartbeats 4000000 in
/-- The body on whole staging buffers: the inputs are read and left as they were, the output buffer ends at `out` of them. -/
theorem sound_kernel (c : Dev nD) (E : Set ℕ) (i : grid2.Coords) (a0 : Memref sig .tc .vmem S2000x128 .f32) (h0 : a0.IsWhole) (a1 : Memref sig .tc .vmem S2000x128 .f32) (h1 : a1.IsWhole) (a2 : Memref sig .tc .vmem S2000x128 .f32) (h2 : a2.IsWhole) (a3 : Memref sig .tc .vmem S2000x1 .f32) (h3 : a3.IsWhole) (a4 : Memref sig .tc .vmem S256x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S2000x128 .f32) (h8 : a8.IsWhole)
    (x0 : Vec F S2000x128 .f32) (x1 : Vec F S2000x128 .f32) (x2 : Vec F S2000x128 .f32) (x3 : Vec F S2000x1 .f32) (x4 : Vec F S256x128 .f32) (x5 : Vec F S1x128 .f32) (x6 : Vec F S1x128 .f32) (x7 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out x0 x1 x2 x3 x4 x5 x6 x7)) -∗ K ⟨⟩))
      ⊢ wp frame (wpE (defs₀ (F := F)) Variants.none c none) E (cc2__sage_ln_kernel_resid i a0 h0 a1 h1 a2 h2 a3 h3 a4 h4 a5 h5 a6 h6 a7 h7 a8 h8) K := by
  simp only [cc2__sage_ln_kernel_resid_eq_skeleton]; unfold cc2__sage_ln_kernel_resid_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _)

/-- The pipeline's proof data on core `c`: the arrays as found on entry; after the body each input buffer still holds its
    block and the output buffer holds `out` of the input blocks; nothing owed; the one array two windows read is held half and half, every other array whole. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (iblk V c 0 t) (iblk V c 1 t) (iblk V c 2 t) (iblk V c 3 t) (iblk V c 4 t) (iblk V c 5 t) (iblk V c 6 t) (iblk V c 7 t)
  Φ _ := Pipeline.ΦA spec2 c
  q w := match w with
    | ⟨1, _⟩ => fullShare.left
    | ⟨2, _⟩ => fullShare.right
    | _ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = out (iblk V c 0 t) (iblk V c 1 t) (iblk V c 2 t) (iblk V c 3 t) (iblk V c 4 t) (iblk V c 5 t) (iblk V c 6 t) (iblk V c 7 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d
theorem before_5 (c : Dev nD) (t : Fin cfg2.N) (d) : (dat V c).before 5 t d = iblk V c 5 t :=
  before_of_5 V (dat V c) (A_eq V c 5) (after_5 V c) t d
theorem before_6 (c : Dev nD) (t : Fin cfg2.N) (d) : (dat V c).before 6 t d = iblk V c 6 t :=
  before_of_6 V (dat V c) (A_eq V c 6) (after_6 V c) t d
theorem before_7 (c : Dev nD) (t : Fin cfg2.N) (d) : (dat V c).before 7 t d = iblk V c 7 t :=
  before_of_7 V (dat V c) (A_eq V c 7) (after_7 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W2, bigSep_W2]
  exact sound_body V c t

/-- Every window but the last is an input, and reads an array other than the output's. -/
theorem window_facts : ∀ w : Fin 9, w ≠ 8 → (cfg2.win w).isOut = false ∧ Pipeline.arrRef spec2 w ≠ main_v63 := by decide

/-- After the region each window's array is found in any contents `V'` that hold the output array at what the grid
    points wrote and every other buffer as entered: an input's array is never written. -/
theorem arrAt_exit (c : Dev nD) (V' : (b : Ref sig .tc) → Buf (Elt F) ((c.tc : Thread nD τ).loc b))
    (hout : V' main_v63 = (dat V c).arrAt 8 cfg2.N) (hother : ∀ b : Ref sig .tc, b ≠ main_v63 → V' b = V c b) :
    ∀ w : Fin cfg2.W, (dat V c).arrAt w cfg2.N = V' (Pipeline.arrRef spec2 w) := by
  intro w
  by_cases h : w = (8 : Fin 9)
  · subst h; exact hout.symm
  · obtain ⟨hin, hne⟩ := window_facts w h
    exact ((dat V c).arrAt_in w hin cfg2.N).trans ((A_eq V c w).trans (hother _ hne).symm)

theorem out_mem : main_v63 ∈ Finset.univ.image (Pipeline.arrRef spec2) := by decide

end Cert.KernelIdeal.Region2

end
-- ==== Proof.KIShare2.lean ====
/-
  Region 2 reads the second layer's output through two windows (as the layer's input and as the term added back). The array's one full share is dealt between the two windows, half and half, and nothing is lost by it.
-/
import proofs.«159482_j24764781429188_2_alg».proof.Proof.KIRegion2

set_option maxRecDepth 16384

noncomputable section

namespace Cert.KernelIdeal.Share2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.Region2

theorem share_1 (c : Dev nD) : (dat V c).share 1 = fullShare.left := rfl
theorem share_2 (c : Dev nD) : (dat V c).share 2 = fullShare.right := rfl
theorem share_other (c : Dev nD) (w : Fin cfg2.W) (h1 : w ≠ 1) (h2 : w ≠ 2) : (dat V c).share w = fullShare := by
  match w, h1, h2 with
  | ⟨0, _⟩, _, _ => rfl
  | ⟨1, _⟩, h, _ => exact absurd rfl h
  | ⟨2, _⟩, _, h => exact absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

/-- The windows other than the two that read one array. -/
abbrev others : Finset (Fin 9) := {0, 3, 4, 5, 6, 7, 8}
theorem univ_eq : (Finset.univ : Finset (Fin 9)) = insert 2 (insert 1 others) := by decide
theorem erase_eq : (Finset.univ : Finset (Fin 9)).erase 2 = insert 1 others := by decide
theorem others_ne : ∀ w ∈ others, w ≠ 1 ∧ w ≠ 2 := by decide

/-- Away from window 2 no two windows read the same array. -/
theorem arr_inj_but : ∀ x y : Fin 9, x ≠ 2 → y ≠ 2 → Pipeline.arrRef spec2 x = Pipeline.arrRef spec2 y → x = y := by decide

theorem image_eq : (Finset.univ : Finset (Fin 9)).image (Pipeline.arrRef spec2) = ((Finset.univ : Finset (Fin 9)).erase 2).image (Pipeline.arrRef spec2) := by decide

/-- The distinct buffers behind the windows' arrays, one per window other than window 2. -/
theorem arrBufs_eq (c : Dev nD) (V' : (b : Ref sig .tc) → Buf (Elt F) ((c.tc : Thread nD τ).loc b)) :
    (Pipeline.arrBufs spec2 c V' : sProp 𝕄) = bigSep ((Finset.univ : Finset (Fin 9)).erase 2) (fun w : Fin 9 => (((c.tc : Thread nD τ).loc (Pipeline.arrRef spec2 w)) ↦{fullShare} V' (Pipeline.arrRef spec2 w) : sProp 𝕄)) := by
  unfold Pipeline.arrBufs
  rw [image_eq]
  exact bigSep_image_of_injOn (fun x hx y hy e => arr_inj_but x y (Finset.ne_of_mem_erase (Finset.mem_coe.mp hx)) (Finset.ne_of_mem_erase (Finset.mem_coe.mp hy)) e) _

/-- The windows' arrays at their shares are exactly the distinct buffers behind them, each whole at the full share:
    the shared buffer's full share is its two halves. -/
theorem arrays_eq_arrBufs (c : Dev nD) (V' : (b : Ref sig .tc) → Buf (Elt F) ((c.tc : Thread nD τ).loc b))
    (G : (w : Fin cfg2.W) → Buf (Elt F) ((cfg2.win w).arr.view.loc (c.tc : Thread nD τ)))
    (hG : ∀ w, G w = V' (Pipeline.arrRef spec2 w)) :
    (dat V c).arrays G = (Pipeline.arrBufs spec2 c V' : sProp 𝕄) := by
  rw [arrBufs_eq]
  unfold Dat.arrays
  have hrest : bigSep others (fun w : Fin cfg2.W => ((cfg2.win w).arr.view.loc (c.tc : Thread nD τ) ↦[(cfg2.win w).arr.view.set]{(dat V c).share w} G w : sProp 𝕄)) = bigSep others (fun w : Fin 9 => (((c.tc : Thread nD τ).loc (Pipeline.arrRef spec2 w)) ↦{fullShare} V' (Pipeline.arrRef spec2 w) : sProp 𝕄)) :=
    bigSep_congr fun w hw => by
      obtain ⟨h1, h2⟩ := others_ne w hw
      show ((cfg2.win w).arr.view.loc (c.tc : Thread nD τ) ↦[(cfg2.win w).arr.view.set]{(dat V c).share w} G w : sProp 𝕄) = _
      rw [share_other V c w h1 h2, (arr_whole2 w).set_eq_univ, hG w]
  have hpair : (iprop(((cfg2.win 2).arr.view.loc (c.tc : Thread nD τ) ↦[(cfg2.win 2).arr.view.set]{(dat V c).share 2} G 2 : sProp 𝕄) ∗ ((cfg2.win 1).arr.view.loc (c.tc : Thread nD τ) ↦[(cfg2.win 1).arr.view.set]{(dat V c).share 1} G 1 : sProp 𝕄)) : sProp 𝕄) = (((c.tc : Thread nD τ).loc (Pipeline.arrRef spec2 1)) ↦{fullShare} V' (Pipeline.arrRef spec2 1) : sProp 𝕄) := by
    rw [share_1, share_2, (arr_whole2 1).set_eq_univ, hG 1, hG 2]
    exact (Idealize.SL.BI.Entails.antisymm Idealize.SL.BI.sep_comm Idealize.SL.BI.sep_comm).trans
      (Idealize.SL.BI.Entails.antisymm (pointsTo_share (PosShare.mem_left_op_right fullShare)).1 (pointsTo_share (PosShare.mem_left_op_right fullShare)).2).symm
  calc bigSep (Finset.univ : Finset (Fin cfg2.W)) (fun w : Fin cfg2.W => ((cfg2.win w).arr.view.loc (c.tc : Thread nD τ) ↦[(cfg2.win w).arr.view.set]{(dat V c).share w} G w : sProp 𝕄))
      = bigSep (insert (2 : Fin 9) (insert 1 others)) (fun w : Fin cfg2.W => ((cfg2.win w).arr.view.loc (c.tc : Thread nD τ) ↦[(cfg2.win w).arr.view.set]{(dat V c).share w} G w : sProp 𝕄)) := congrArg (fun s => bigSep s (fun w : Fin cfg2.W => ((cfg2.win w).arr.view.loc (c.tc : Thread nD τ) ↦[(cfg2.win w).arr.view.set]{(dat V c).share w} G w : sProp 𝕄))) univ_eq
    _ = iprop(((cfg2.win 2).arr.view.loc (c.tc : Thread nD τ) ↦[(cfg2.win 2).arr.view.set]{(dat V c).share 2} G 2 : sProp 𝕄) ∗ ((cfg2.win 1).arr.view.loc (c.tc : Thread nD τ) ↦[(cfg2.win 1).arr.view.set]{(dat V c).share 1} G 1 : sProp 𝕄) ∗ bigSep others (fun w : Fin cfg2.W => ((cfg2.win w).arr.view.loc (c.tc : Thread nD τ) ↦[(cfg2.win w).arr.view.set]{(dat V c).share w} G w : sProp 𝕄))) := by
        rw [bigSep_insert (s := insert (1 : Fin 9) others) (i := (2 : Fin 9)) (by decide), bigSep_insert (s := others) (i := (1 : Fin 9)) (by decide)]
        rfl
    _ = iprop((((cfg2.win 2).arr.view.loc (c.tc : Thread nD τ) ↦[(cfg2.win 2).arr.view.set]{(dat V c).share 2} G 2 : sProp 𝕄) ∗ ((cfg2.win 1).arr.view.loc (c.tc : Thread nD τ) ↦[(cfg2.win 1).arr.view.set]{(dat V c).share 1} G 1 : sProp 𝕄)) ∗ bigSep others (fun w : Fin cfg2.W => ((cfg2.win w).arr.view.loc (c.tc : Thread nD τ) ↦[(cfg2.win w).arr.view.set]{(dat V c).share w} G w : sProp 𝕄))) := (Idealize.SL.BI.Entails.antisymm Idealize.SL.BI.sep_assoc Idealize.SL.BI.sep_assoc').symm
    _ = iprop((((c.tc : Thread nD τ).loc (Pipeline.arrRef spec2 1)) ↦{fullShare} V' (Pipeline.arrRef spec2 1) : sProp 𝕄) ∗ bigSep others (fun w : Fin 9 => (((c.tc : Thread nD τ).loc (Pipeline.arrRef spec2 w)) ↦{fullShare} V' (Pipeline.arrRef spec2 w) : sProp 𝕄))) := by rw [hpair, hrest]
    _ = bigSep (insert (1 : Fin 9) others) (fun w : Fin 9 => (((c.tc : Thread nD τ).loc (Pipeline.arrRef spec2 w)) ↦{fullShare} V' (Pipeline.arrRef spec2 w) : sProp 𝕄)) := (bigSep_insert (s := others) (i := (1 : Fin 9)) (Φ := (fun w : Fin 9 => (((c.tc : Thread nD τ).loc (Pipeline.arrRef spec2 w)) ↦{fullShare} V' (Pipeline.arrRef spec2 w) : sProp 𝕄))) (by decide)).symm
    _ = bigSep ((Finset.univ : Finset (Fin 9)).erase 2) (fun w : Fin 9 => (((c.tc : Thread nD τ).loc (Pipeline.arrRef spec2 w)) ↦{fullShare} V' (Pipeline.arrRef spec2 w) : sProp 𝕄)) := congrArg (fun s => bigSep s (fun w : Fin 9 => (((c.tc : Thread nD τ).loc (Pipeline.arrRef spec2 w)) ↦{fullShare} V' (Pipeline.arrRef spec2 w) : sProp 𝕄))) erase_eq.symm

/-- A core's unscoped buffers are the distinct buffers behind the windows' arrays and the rest. -/
theorem unscoped_split (c : Dev nD) (V' : (b : Ref sig .tc) → Buf (Elt F) ((c.tc : Thread nD τ).loc b)) :
    (unscopedBufs c V' : sProp 𝕄) = iprop((Pipeline.arrBufs spec2 c V' : sProp 𝕄) ∗ Pipeline.unscopedRest spec2 c V') := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

/-- ENTRY: the unscoped buffers at the entry contents give the windows' arrays at their shares, and the rest. -/
theorem entry (c : Dev nD) :
    (unscopedBufs c (V c) : sProp 𝕄) ⊢ iprop((dat V c).arrays ((dat V c).arrAt · 0) ∗ Pipeline.unscopedRest spec2 c (V c)) := by
  rw [unscoped_split]
  exact sep_mono (Entails.of_eq (arrays_eq_arrBufs V c (V c) _ (fun w => rfl)).symm) .rfl

/-- EXIT: the windows' arrays at their final contents and the rest are the unscoped buffers at any contents that
    hold the arrays there and agree with the entry contents off them. -/
theorem exit (c : Dev nD) (V' : (b : Ref sig .tc) → Buf (Elt F) ((c.tc : Thread nD τ).loc b))
    (hF : ∀ w, (dat V c).arrAt w cfg2.N = V' (Pipeline.arrRef spec2 w))
    (hrest : ∀ b, b ∉ Finset.univ.image (Pipeline.arrRef spec2) → V' b = V c b) :
    iprop((dat V c).arrays ((dat V c).arrAt · cfg2.N) ∗ Pipeline.unscopedRest spec2 c (V c)) ⊢ (unscopedBufs c V' : sProp 𝕄) := by
  rw [unscoped_split, arrays_eq_arrBufs V c V' _ hF]
  refine sep_mono .rfl (Entails.of_eq ?_)
  unfold Pipeline.unscopedRest
  exact bigSep_congr fun b hb => by rw [hrest b (Finset.mem_sdiff.mp hb).2]

end Cert.KernelIdeal.Share2

end
-- ==== Proof.KIRun.lean ====
/-
  The whole run of the program: the buffers' contents between its segments (a stretch of host operations folds them
  forward; a region replaces its output array by what its grid points wrote), every region as a segment of the
  pipeline library over "every unscoped buffer at the boundary's contents", and the run itself: every weakly fair
  execution ends, nothing faults, and every unscoped buffer ends at the last boundary's contents.
-/
import proofs.«159482_j24764781429188_2_alg».proof.Proof.KIRegion0
import proofs.«159482_j24764781429188_2_alg».proof.Proof.KIRegion3
import proofs.«159482_j24764781429188_2_alg».proof.Proof.KIShare1
import proofs.«159482_j24764781429188_2_alg».proof.Proof.KIShare2
import proofs.«159482_j24764781429188_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its output array at what the grid points wrote, every other buffer as entered. -/
def W2 (c : Dev nD) : Valuation τ sig (Elt F) :=
  Function.update (W1 m ρ c) (Proc.devRef .tc main_v29) ((Region0.dat (V1 m ρ) c).arrAt 7 cfg0.N)
abbrev V2 : (c : Dev nD) → (b : Ref sig .tc) → Buf (Elt F) ((c : Thread nD τ).loc b) := fun c b => W2 m ρ c b
theorem hF0 (c : Dev nD) : ∀ w : Fin cfg0.W, (Region0.dat (V1 m ρ) c).arrAt w cfg0.N = V2 m ρ c (Pipeline.arrRef spec0 w) :=
  Region0.arrAt_exit (V1 m ρ) c (V2 m ρ c)
    (Function.update_self (β := fun b : DevRef τ sig => b.ty.Contents (Elt F)) (Proc.devRef .tc main_v29) _ (W1 m ρ c))
    (fun b hb => Function.update_of_ne (β := fun b : DevRef τ sig => b.ty.Contents (Elt F))
      (StableHlo.devRef_ne_of_ne hb : (Proc.devRef .tc b : DevRef τ sig) ≠ Proc.devRef .tc main_v29) _ (W1 m ρ c))
theorem hrest0 (c : Dev nD) : ∀ b, b ∉ Finset.univ.image (Pipeline.arrRef spec0) → V2 m ρ c b = V1 m ρ c b :=
  fun b hb => Function.update_of_ne (β := fun b : DevRef τ sig => b.ty.Contents (Elt F))
    (StableHlo.devRef_ne_of_ne (fun e => hb (e ▸ Region0.out_mem)) : (Proc.devRef .tc b : DevRef τ sig) ≠ Proc.devRef .tc main_v29) _ (W1 m ρ c)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its output array at what the grid points wrote, every other buffer as entered. -/
def W4 (c : Dev nD) : Valuation τ sig (Elt F) :=
  Function.update (W3 m ρ c) (Proc.devRef .tc main_v46) ((Region1.dat (V3 m ρ) c).arrAt 8 cfg1.N)
abbrev V4 : (c : Dev nD) → (b : Ref sig .tc) → Buf (Elt F) ((c : Thread nD τ).loc b) := fun c b => W4 m ρ c b
theorem hF1 (c : Dev nD) : ∀ w : Fin cfg1.W, (Region1.dat (V3 m ρ) c).arrAt w cfg1.N = V4 m ρ c (Pipeline.arrRef spec1 w) :=
  Region1.arrAt_exit (V3 m ρ) c (V4 m ρ c)
    (Function.update_self (β := fun b : DevRef τ sig => b.ty.Contents (Elt F)) (Proc.devRef .tc main_v46) _ (W3 m ρ c))
    (fun b hb => Function.update_of_ne (β := fun b : DevRef τ sig => b.ty.Contents (Elt F))
      (StableHlo.devRef_ne_of_ne hb : (Proc.devRef .tc b : DevRef τ sig) ≠ Proc.devRef .tc main_v46) _ (W3 m ρ c))
theorem hrest1 (c : Dev nD) : ∀ b, b ∉ Finset.univ.image (Pipeline.arrRef spec1) → V4 m ρ c b = V3 m ρ c b :=
  fun b hb => Function.update_of_ne (β := fun b : DevRef τ sig => b.ty.Contents (Elt F))
    (StableHlo.devRef_ne_of_ne (fun e => hb (e ▸ Region1.out_mem)) : (Proc.devRef .tc b : DevRef τ sig) ≠ Proc.devRef .tc main_v46) _ (W3 m ρ c)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its output array at what the grid points wrote, every other buffer as entered. -/
def W6 (c : Dev nD) : Valuation τ sig (Elt F) :=
  Function.update (W5 m ρ c) (Proc.devRef .tc main_v63) ((Region2.dat (V5 m ρ) c).arrAt 8 cfg2.N)
abbrev V6 : (c : Dev nD) → (b : Ref sig .tc) → Buf (Elt F) ((c : Thread nD τ).loc b) := fun c b => W6 m ρ c b
theorem hF2 (c : Dev nD) : ∀ w : Fin cfg2.W, (Region2.dat (V5 m ρ) c).arrAt w cfg2.N = V6 m ρ c (Pipeline.arrRef spec2 w) :=
  Region2.arrAt_exit (V5 m ρ) c (V6 m ρ c)
    (Function.update_self (β := fun b : DevRef τ sig => b.ty.Contents (Elt F)) (Proc.devRef .tc main_v63) _ (W5 m ρ c))
    (fun b hb => Function.update_of_ne (β := fun b : DevRef τ sig => b.ty.Contents (Elt F))
      (StableHlo.devRef_ne_of_ne hb : (Proc.devRef .tc b : DevRef τ sig) ≠ Proc.devRef .tc main_v63) _ (W5 m ρ c))
theorem hrest2 (c : Dev nD) : ∀ b, b ∉ Finset.univ.image (Pipeline.arrRef spec2) → V6 m ρ c b = V5 m ρ c b :=
  fun b hb => Function.update_of_ne (β := fun b : DevRef τ sig => b.ty.Contents (Elt F))
    (StableHlo.devRef_ne_of_ne (fun e => hb (e ▸ Region2.out_mem)) : (Proc.devRef .tc b : DevRef τ sig) ≠ Proc.devRef .tc main_v63) _ (W5 m ρ c)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After region 3: its output array at what the grid points wrote, every other buffer as entered. -/
def W8 (c : Dev nD) : Valuation τ sig (Elt F) :=
  Function.update (W7 m ρ c) (Proc.devRef .tc main_v77) ((Region3.dat (V7 m ρ) c).arrAt 3 cfg3.N)
abbrev V8 : (c : Dev nD) → (b : Ref sig .tc) → Buf (Elt F) ((c : Thread nD τ).loc b) := fun c b => W8 m ρ c b
theorem hF3 (c : Dev nD) : ∀ w : Fin cfg3.W, (Region3.dat (V7 m ρ) c).arrAt w cfg3.N = V8 m ρ c (Pipeline.arrRef spec3 w) :=
  Region3.arrAt_exit (V7 m ρ) c (V8 m ρ c)
    (Function.update_self (β := fun b : DevRef τ sig => b.ty.Contents (Elt F)) (Proc.devRef .tc main_v77) _ (W7 m ρ c))
    (fun b hb => Function.update_of_ne (β := fun b : DevRef τ sig => b.ty.Contents (Elt F))
      (StableHlo.devRef_ne_of_ne hb : (Proc.devRef .tc b : DevRef τ sig) ≠ Proc.devRef .tc main_v77) _ (W7 m ρ c))
theorem hrest3 (c : Dev nD) : ∀ b, b ∉ Finset.univ.image (Pipeline.arrRef spec3) → V8 m ρ c b = V7 m ρ c b :=
  fun b hb => Function.update_of_ne (β := fun b : DevRef τ sig => b.ty.Contents (Elt F))
    (StableHlo.devRef_ne_of_ne (fun e => hb (e ▸ Region3.out_mem)) : (Proc.devRef .tc b : DevRef τ sig) ≠ Proc.devRef .tc main_v77) _ (W7 m ρ c)

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V3 m ρ) c
  | ⟨2, _⟩ => fun c => Region2.dat (V5 m ρ) c
  | ⟨3, _⟩ => fun c => Region3.dat (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Region1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V3 m ρ c)) :=
      Share1.entry (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs c (V4 m ρ c) : sProp 𝕄) :=
      Share1.exit (V3 m ρ) c (V4 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Region2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit : (unscopedBufs c (V5 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (V5 m ρ c)) :=
      Share2.entry (V5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V5 m ρ c))
        ⊢ (unscopedBufs c (V6 m ρ c) : sProp 𝕄) :=
      Share2.exit (V5 m ρ) c (V6 m ρ c) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option backward.isDefEq.respectTransparency.types false in
/-- THE RUN: from any memory with zero counters every weakly fair execution of the program on the TensorCores ends,
    nothing faults, and every unscoped buffer ends at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Seg.run_eq_chain,
        show (segs m ρ).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Run

end
-- ==== Proof.KIFrame.lean ====
/-
  The frame of the program: every argument array ends holding its launch contents. No stretch of host operations
  writes an argument and no region's output array is one, so the last boundary's contents at an argument are the
  launch's.
-/
import proofs.«159482_j24764781429188_2_alg».proof.Proof.KIRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Run

variable (m : (ℓ : Loc nD τ sig) → Buf (Elt F) ℓ) (ρ : Dev nD → PrngReg)

/-- A buffer that no host operation writes and that is no region's output ends as launched. -/
theorem W8_of (c : Dev nD) (r : Ref sig .tc) (h0 : r ∉ hostOps0_W) (h1 : r ∉ hostOps1_W) (h2 : r ∉ hostOps2_W) (h3 : r ∉ hostOps3_W)
    (n0 : r ≠ main_v29) (n1 : r ≠ main_v46) (n2 : r ≠ main_v63) (n3 : r ≠ main_v77) :
    W8 m ρ c (Proc.devRef .tc r) = m ((c : Thread nD τ).loc r) := by
  have e8 : W8 m ρ c (Proc.devRef .tc r) = W7 m ρ c (Proc.devRef .tc r) :=
    Function.update_of_ne (β := fun b : DevRef τ sig => b.ty.Contents (Elt F)) (StableHlo.devRef_ne_of_ne n3 : (Proc.devRef .tc r : DevRef τ sig) ≠ Proc.devRef .tc main_v77) _ (W7 m ρ c)
  have e7 : W7 m ρ c (Proc.devRef .tc r) = W6 m ρ c (Proc.devRef .tc r) := StableHlo.after_of_writes_sub hostOps3 _ hostOps3_writes h3
  have e6 : W6 m ρ c (Proc.devRef .tc r) = W5 m ρ c (Proc.devRef .tc r) :=
    Function.update_of_ne (β := fun b : DevRef τ sig => b.ty.Contents (Elt F)) (StableHlo.devRef_ne_of_ne n2 : (Proc.devRef .tc r : DevRef τ sig) ≠ Proc.devRef .tc main_v63) _ (W5 m ρ c)
  have e5 : W5 m ρ c (Proc.devRef .tc r) = W4 m ρ c (Proc.devRef .tc r) := StableHlo.after_of_writes_sub hostOps2 _ hostOps2_writes h2
  have e4 : W4 m ρ c (Proc.devRef .tc r) = W3 m ρ c (Proc.devRef .tc r) :=
    Function.update_of_ne (β := fun b : DevRef τ sig => b.ty.Contents (Elt F)) (StableHlo.devRef_ne_of_ne n1 : (Proc.devRef .tc r : DevRef τ sig) ≠ Proc.devRef .tc main_v46) _ (W3 m ρ c)
  have e3 : W3 m ρ c (Proc.devRef .tc r) = W2 m ρ c (Proc.devRef .tc r) := StableHlo.after_of_writes_sub hostOps1 _ hostOps1_writes h1
  have e2 : W2 m ρ c (Proc.devRef .tc r) = W1 m ρ c (Proc.devRef .tc r) :=
    Function.update_of_ne (β := fun b : DevRef τ sig => b.ty.Contents (Elt F)) (StableHlo.devRef_ne_of_ne n0 : (Proc.devRef .tc r : DevRef τ sig) ≠ Proc.devRef .tc main_v29) _ (W1 m ρ c)
  have e1 : W1 m ρ c (Proc.devRef .tc r) = W0 m ρ c (Proc.devRef .tc r) := StableHlo.after_of_writes_sub hostOps0 _ hostOps0_writes h0
  exact e8.trans (e7.trans (e6.trans (e5.trans (e4.trans (e3.trans (e2.trans e1))))))

theorem W8_main_arg0 (c : Dev nD) : W8 m ρ c (Proc.devRef .tc main_arg0) = m ((c : Thread nD τ).loc main_arg0) :=
  W8_of m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_of m ρ c main_arg15 (by decide) (by decide) (by decide) (by decide) (by decide) (by decide) (by decide) (by decide)
theorem W8_main_arg16 (c : Dev nD) : W8 m ρ c (Proc.devRef .tc main_arg16) = m ((c : Thread nD τ).loc main_arg16) :=
  W8_of m ρ c main_arg16 (by decide) (by decide) (by decide) (by decide) (by decide) (by decide) (by decide) (by decide)
theorem W8_main_arg17 (c : Dev nD) : W8 m ρ c (Proc.devRef .tc main_arg17) = m ((c : Thread nD τ).loc main_arg17) :=
  W8_of m ρ c main_arg17 (by decide) (by decide) (by decide) (by decide) (by decide) (by decide) (by decide) (by decide)
theorem W8_main_arg18 (c : Dev nD) : W8 m ρ c (Proc.devRef .tc main_arg18) = m ((c : Thread nD τ).loc main_arg18) :=
  W8_of m ρ c main_arg18 (by decide) (by decide) (by decide) (by decide) (by decide) (by decide) (by decide) (by decide)
theorem W8_main_arg19 (c : Dev nD) : W8 m ρ c (Proc.devRef .tc main_arg19) = m ((c : Thread nD τ).loc main_arg19) :=
  W8_of m ρ c main_arg19 (by decide) (by decide) (by decide) (by decide) (by decide) (by decide) (by decide) (by decide)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c)⟩)
    (run_all m ρ)

end Cert.KernelIdeal.Frame

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibRowRead.lean ====
/-
  Reading row-wise operations of a two-dimensional array index by index.

  A sum over the second axis of an [a, b] array, taken by the accelerator's lane reduction or by the host's
  reduction, is at row p the sum over k < b of the array at (p, k). A vector [a] cast to the column [a, 1] reads at
  (p, 0) the vector at p. Two arrays of one shape laid side by side along the second axis (or one above the other
  along the first) read, in the first piece's range, the first piece, and past it the second piece shifted back.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Lib.RowRead

open Idealize.ShloMosaic Idealize.ShloMosaic.ValueIdx

variable {α : Type}

/-- The source index of a reduction over the second axis: row p, coordinate k. -/
theorem lift_row {a b : ℕ} (h : (⟨2, ![a, b]⟩ : Shape).Reduces [(1 : Fin 2)] ⟨1, ![a]⟩) (p : Fin a) (k : Fin b) :
    h.lift (ix1 p) k = ix2 p k := by
  funext c; apply Fin.ext
  match c with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- The accelerator's lane sum at row p. -/
theorem lane_sum {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec FTy.f32.bits) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's row sum at row p: the initial value plus the row's sum. -/
theorem host_row_sum {a b : ℕ} {u : Shape} (x : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (fun z => init (Shape.Idx.first hu) + z) (Finset.sum_congr rfl fun k _ => congrArg x (lift_row h p k))))

/-- A vector cast to a column. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Two [a, b] arrays side by side: in the first b columns, the first. -/
theorem concat_cols_left {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.castAdd b k)) = x (ix2 p k) :=
  concatenate_ofFn_apply (t := ⟨2, ![a, b + b]⟩) (s₁ := ⟨2, ![a, b]⟩) (1 : Fin 2) (N := 2) ![x, y] h rfl b rfl (ix2 p (Fin.castAdd b k))
    (0 : Fin 2) (Nat.div_eq_of_lt k.isLt) (ix2 p k) (Nat.mod_eq_of_lt k.isLt).symm
    (fun c hc => by match c with | ⟨0, _⟩ => rfl | ⟨1, _⟩ => exact absurd rfl hc)

/-- … and in the last b columns, the second. -/
theorem concat_cols_right {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.natAdd b k)) = y (ix2 p k) :=
  concatenate_ofFn_apply (t := ⟨2, ![a, b + b]⟩) (s₁ := ⟨2, ![a, b]⟩) (1 : Fin 2) (N := 2) ![x, y] h rfl b rfl (ix2 p (Fin.natAdd b k))
    (1 : Fin 2) (by show (b + k.val) / b = 1; have := k.isLt; rw [Nat.add_div_left _ (by omega), Nat.div_eq_of_lt k.isLt])
    (ix2 p k) (by show k.val = (b + k.val) % b; rw [Nat.add_mod_left, Nat.mod_eq_of_lt k.isLt])
    (fun c hc => by match c with | ⟨0, _⟩ => rfl | ⟨1, _⟩ => exact absurd rfl hc)

/-- Two [a, b] arrays one above the other: in the first a rows, the first. -/
theorem concat_rows_top {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.castAdd a p) k) = x (ix2 p k) :=
  concatenate_ofFn_apply (t := ⟨2, ![a + a, b]⟩) (s₁ := ⟨2, ![a, b]⟩) (0 : Fin 2) (N := 2) ![x, y] h rfl a rfl (ix2 (Fin.castAdd a p) k)
    (0 : Fin 2) (Nat.div_eq_of_lt p.isLt) (ix2 p k) (Nat.mod_eq_of_lt p.isLt).symm
    (fun c hc => by match c with | ⟨0, _⟩ => exact absurd rfl hc | ⟨1, _⟩ => rfl)

/-- … and in the last a rows, the second. -/
theorem concat_rows_bottom {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.natAdd a p) k) = y (ix2 p k) :=
  concatenate_ofFn_apply (t := ⟨2, ![a + a, b]⟩) (s₁ := ⟨2, ![a, b]⟩) (0 : Fin 2) (N := 2) ![x, y] h rfl a rfl (ix2 (Fin.natAdd a p) k)
    (1 : Fin 2) (by show (a + p.val) / a = 1; have := p.isLt; rw [Nat.add_div_left _ (by omega), Nat.div_eq_of_lt p.isLt])
    (ix2 p k) (by show p.val = (a + p.val) % a; rw [Nat.add_mod_left, Nat.mod_eq_of_lt p.isLt])
    (fun c hc => by match c with | ⟨0, _⟩ => exact absurd rfl hc | ⟨1, _⟩ => rfl)

end Cert.Lib.RowRead

end
-- ==== Proof.LibCatDot.lean ====
/-
  A product whose left operand is two arrays laid side by side: the row (u, v) of 2b entries times a matrix of 2b rows
  is the row u times the matrix's top b rows plus the row v times its bottom b rows.
-/
import proofs.«159482_j24764781429188_2_alg».proof.Proof.LibPlainDot
import proofs.«159482_j24764781429188_2_alg».proof.Proof.LibRowRead

noncomputable section

namespace Cert.Lib.CatDot

open Idealize.ShloMosaic Idealize.ShloMosaic.ValueIdx Cert.Lib.PlainDot Cert.Lib.RowRead

theorem cat_dot {a b n : ℕ} (u v : (⟨2, ![a, b]⟩ : Shape).Idx → EReal) (w : (⟨2, ![b + b, n]⟩ : Shape).Idx → EReal)
    (h : Shape.Concatenates [(⟨2, ![a, b]⟩ : Shape), ⟨2, ![a, b]⟩] ⟨2, ![a, b + b]⟩ (1 : Fin 2)) (r : Fin a) (j : Fin n) :
    mm (concatenate ⟨2, ![a, b + b]⟩ (1 : Fin 2) [⟨⟨2, ![a, b]⟩, u⟩, ⟨⟨2, ![a, b]⟩, v⟩] h) w (ix2 r j)
      = ∑ k : Fin b, u (ix2 r k) * w (ix2 (Fin.castAdd b k) j) + ∑ k : Fin b, v (ix2 r k) * w (ix2 (Fin.natAdd b k) j) := by
  rw [mm_apply, Fin.sum_univ_add]
  refine congrArg₂ (· + ·) (Finset.sum_congr rfl fun k _ => ?_) (Finset.sum_congr rfl fun k _ => ?_)
  · rw [concat_cols_left]
  · rw [concat_cols_right]

end Cert.Lib.CatDot

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.Spec.lean ====
/-
  The mathematics of one layer, row by row, over the extended reals.

  A node's new features depend on the node's own row only: its neighbours' summed features s (a row of 128), its own
  features x, the number c of its neighbours (at least one, by a maximum with one), the two weight matrices, the bias
  and the normalisation's scale and shift. The accelerator's program multiplies the row (s · (1/c), x) of 256 entries
  by the two weight matrices stacked, then adds the bias; the reference multiplies s / c by the first matrix, adds
  the bias, then adds x times the second matrix. For c ≥ 1 — a real number or +inf — the quotient s / c is s · (1/c),
  and the two sums differ only in the order the three terms are added: both are `preRef`.
-/
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

abbrev Row := Fin 128 → EReal
abbrev Mat := Fin 128 → Fin 128 → EReal

/-- The three float words the layer uses, as extended reals: zero, the row length 128, and the normalisation's epsilon. -/
abbrev zero32 : EReal := Ideal.ofBits .f32 0x00000000#32
abbrev c128 : EReal := Ideal.ofBits .f32 0x43000000#32
abbrev eps32 : EReal := Ideal.ofBits .f32 0x3727C5AC#32
abbrev one32 : EReal := Ideal.ofBits .f32 0x3F800000#32

/-- The row's mean. -/
def mean (t : Row) : EReal := Ideal.div (∑ k, t k) c128

/-- The mean of the squared deviations from the mean. -/
def var (t : Row) : EReal := Ideal.div (∑ k, (t k - mean t) * (t k - mean t)) c128

/-- Row normalisation: deviation from the mean, over the root of variance plus epsilon, scaled and shifted. -/
def lnRow (t g be : Row) : Row := fun j => (t j - mean t) * Ideal.rsqrt (var t + eps32) * g j + be j

/-- The layer's linear part as the accelerator computes it: the row (s · ci, x) times the stacked weights, plus the bias. -/
def preKer (s x : Row) (ci : EReal) (wl wr : Mat) (b : Row) : Row := fun j =>
  (∑ k, (s k * ci) * wl k j + ∑ k, x k * wr k j) + b j

/-- The layer's linear part as the reference computes it. -/
def preRef (s x : Row) (c : EReal) (wl wr : Mat) (b : Row) : Row := fun j =>
  (∑ k, Ideal.div (s k) c * wl k j) + b j + ∑ k, x k * wr k j

/-- Dividing by c ≥ 1 is multiplying by 1 / c, on every extended real. -/
theorem mul_inv_eq_div (s c : EReal) (hc : 1 ≤ c) : s * Ideal.div 1 c = Ideal.div s c := by
  induction c using EReal.rec with
  | bot =>
    have h1 : (1 : EReal) = ⊥ := le_bot_iff.mp hc
    rw [← EReal.coe_one] at h1
    exact absurd h1 (EReal.coe_ne_bot 1)
  | top =>
    have ht : (⊤ : EReal) ≠ 0 := by simp
    simp only [Ideal.div, if_neg ht, EReal.inv_top, mul_zero]
  | coe r =>
    have hr1 : (1 : ℝ) ≤ r := by rw [← EReal.coe_one] at hc; exact EReal.coe_le_coe_iff.mp hc
    have hr : r ≠ 0 := ne_of_gt (lt_of_lt_of_le zero_lt_one hr1)
    rw [Ideal.div_coe hr, Ideal.div_coe hr, one_mul]

theorem preKer_eq_preRef (s x : Row) (c : EReal) (hc : 1 ≤ c) (wl wr : Mat) (b : Row) :
    preKer s x (Ideal.div 1 c) wl wr b = preRef s x c wl wr b := by
  funext j
  unfold preKer preRef
  simp only [mul_inv_eq_div _ c hc]
  exact add_right_comm _ _ _

/-- The first layer's row: rectified linear part, normalised. -/
def layerA (s x : Row) (c : EReal) (wl wr : Mat) (b g be : Row) : Row :=
  lnRow (fun j => max (preRef s x c wl wr b j) zero32) g be

/-- A later layer's row: rectified linear part plus the layer's input, normalised. -/
def layerB (s x : Row) (c : EReal) (wl wr : Mat) (b g be : Row) : Row :=
  lnRow (fun j => max (preRef s x c wl wr b j) zero32 + x j) g be

theorem one_le_max (a : EReal) : 1 ≤ max a one32 := by
  have : one32 = 1 := Ideal.ofBits_one_f32
  rw [this]; exact le_max_right _ _

end Cert.Spec

end
-- ==== Proof.KIPay.lean ====
/-
  What the three layer kernels' bodies compute, read index by index at the exact values.

  Each body's arithmetic is two parts: the rectified linear part (the row (s · 1/c, x) times the stacked weights, plus
  the bias, maximum with zero) and the row normalisation (deviation from the row's mean, over the root of the mean
  squared deviation plus epsilon, scaled and shifted). Both are row-local: entry (r, j) of the result reads row r of
  the 2000-row operands and the whole of the small ones.
-/
import proofs.«159482_j24764781429188_2_alg».proof.Proof.Gen.KernelIdeal.Skeleton
import proofs.«159482_j24764781429188_2_alg».proof.Proof.LibCatDot
import proofs.«159482_j24764781429188_2_alg».proof.Proof.LibHostRead
import proofs.«159482_j24764781429188_2_alg».proof.Proof.Spec
import Idealize.ShloMosaic.Lib.ValueLayout

noncomputable section

namespace Cert.KernelIdeal.Pay

open Cert.KernelIdeal Cert.KernelIdeal.Gen Idealize.ShloMosaic Idealize.ShloMosaic.ValueIdx
open Cert.Lib.RowRead Cert.Lib.PlainDot Cert.Lib.CatDot Cert.LibHostRead

section Generic
variable {F : FTy → Type} [FloatOps F]

/-- Each row's sum. -/
def rowSum (t : FVec F S2000x128 .f32) : FVec F S2000 .f32 :=
  multiReduction .add [1] S2000 t 0x00000000#32 reduces_S2000x128_S2000 (.inl rfl) rfl
/-- Each row's mean, as a column. -/
def meanCol (t : FVec F S2000x128 .f32) : FVec F S2000x1 .f32 :=
  divf (shapeCast S2000x1 (rowSum t) shapeCasts_S2000_S2000x1) (broadcast S2000x1 (Scalar.ofBits .f32 0x43000000#32))
/-- Deviation from the row's mean. -/
def dev (t : FVec F S2000x128 .f32) : FVec F S2000x128 .f32 :=
  subf t (broadcastTo S2000x128 (meanCol t) broadcasts_S2000x1_S2000x128)
/-- One over the root of (mean squared deviation + epsilon), as a column. -/
def rsCol (t : FVec F S2000x128 .f32) : FVec F S2000x1 .f32 :=
  rsqrt (addf (meanCol (mulf (dev t) (dev t))) (broadcast S2000x1 (Scalar.ofBits .f32 0x3727C5AC#32)))
/-- The row normalisation. -/
def lnVec (t : FVec F S2000x128 .f32) (gv bev : FVec F S1x128 .f32) : FVec F S2000x128 .f32 :=
  addf (mulf (mulf (dev t) (broadcastTo S2000x128 (rsCol t) broadcasts_S2000x1_S2000x128))
      (broadcastTo S2000x128 gv broadcasts_S1x128_S2000x128)) (broadcastTo S2000x128 bev broadcasts_S1x128_S2000x128)
/-- The rectified linear part. -/
def linVec (sv : FVec F S2000x128 .f32) (cv : FVec F S2000x1 .f32) (xv : FVec F S2000x128 .f32) (wv : FVec F S256x128 .f32)
    (bv : FVec F S1x128 .f32) : FVec F S2000x128 .f32 :=
  maximumf (addf (matmul dot_S2000x256_S256x128_S2000x128_1_0_0_1_n_n none
      (concatenate S2000x256 1 [⟨S2000x128, truncf .bf16 (mulf sv (broadcastTo S2000x128 cv broadcasts_S2000x1_S2000x128)) bitsLt_bf16_f32⟩,
        ⟨S2000x128, truncf .bf16 xv bitsLt_bf16_f32⟩] concatenates_S2000x128_S2000x128_S2000x256_d1)
      (truncf .bf16 wv bitsLt_bf16_f32) (constant S2000x128 .f32 0x00000000#32))
    (broadcastTo S2000x128 bv broadcasts_S1x128_S2000x128)) (broadcast S2000x128 (Scalar.ofBits .f32 0x00000000#32))

/-- The first layer's body is the normalisation of the rectified linear part. -/
theorem pay0_eq (x0 x1 : Vec F S2000x128 .f32) (x2 : Vec F S2000x1 .f32) (x3 : Vec F S256x128 .f32) (x4 x5 x6 : Vec F S1x128 .f32) :
    k0_pay1 (k0_pay2 x0 x2 x1 x3 x4 x5) x6
      = lnVec (linVec (shapeCast S2000x128 x0 shapeCasts_S2000x128_S2000x128) (shapeCast S2000x1 x2 shapeCasts_S2000x1_S2000x1) x1
          (shapeCast S256x128 x3 shapeCasts_S256x128_S256x128) (shapeCast S1x128 x4 shapeCasts_S1x128_S1x128))
        (shapeCast S1x128 x5 shapeCasts_S1x128_S1x128) (shapeCast S1x128 x6 shapeCasts_S1x128_S1x128) := rfl

/-- Layer 2's body is the normalisation of the rectified linear part plus the layer's input. -/
theorem pay1_eq (x0 x1 x2 : Vec F S2000x128 .f32) (x3 : Vec F S2000x1 .f32) (x4 : Vec F S256x128 .f32) (x5 x6 x7 : Vec F S1x128 .f32) :
    k1_pay1 (k1_pay2 x0 x3 x1 x4 x5 x2) x6 x7
      = lnVec (addf (linVec (shapeCast S2000x128 x0 shapeCasts_S2000x128_S2000x128) (shapeCast S2000x1 x3 shapeCasts_S2000x1_S2000x1)
            (shapeCast S2000x128 x1 shapeCasts_S2000x128_S2000x128)
            (shapeCast S256x128 x4 shapeCasts_S256x128_S256x128) (shapeCast S1x128 x5 shapeCasts_S1x128_S1x128))
          (shapeCast S2000x128 x2 shapeCasts_S2000x128_S2000x128))
        (shapeCast S1x128 x6 shapeCasts_S1x128_S1x128) (shapeCast S1x128 x7 shapeCasts_S1x128_S1x128) := rfl

/-- Layer 3's body is the normalisation of the rectified linear part plus the layer's input. -/
theorem pay2_eq (x0 x1 x2 : Vec F S2000x128 .f32) (x3 : Vec F S2000x1 .f32) (x4 : Vec F S256x128 .f32) (x5 x6 x7 : Vec F S1x128 .f32) :
    k2_pay1 (k2_pay2 x0 x3 x1 x4 x5 x2) x6 x7
      = lnVec (addf (linVec (shapeCast S2000x128 x0 shapeCasts_S2000x128_S2000x128) (shapeCast S2000x1 x3 shapeCasts_S2000x1_S2000x1)
            (shapeCast S2000x128 x1 shapeCasts_S2000x128_S2000x128)
            (shapeCast S256x128 x4 shapeCasts_S256x128_S256x128) (shapeCast S1x128 x5 shapeCasts_S1x128_S1x128))
          (shapeCast S2000x128 x2 shapeCasts_S2000x128_S2000x128))
        (shapeCast S1x128 x6 shapeCasts_S1x128_S1x128) (shapeCast S1x128 x7 shapeCasts_S1x128_S1x128) := rfl

end Generic

/-! ## Read at an index, at the exact values -/

/-- Row r of a 2000-row operand. -/
abbrev rowOf (x : S2000x128.Idx → EReal) (r : Fin 2000) : Spec.Row := fun k => x (ix2 r k)
/-- A one-row operand as a row. -/
abbrev vecOf (x : S1x128.Idx → EReal) : Spec.Row := fun k => x (ix2 (0 : Fin 1) k)
/-- The top and the bottom half of the stacked weights. -/
abbrev wTop (w : S256x128.Idx → EReal) : Spec.Mat := fun k j => w (ix2 (Fin.castAdd 128 k) j)
abbrev wBot (w : S256x128.Idx → EReal) : Spec.Mat := fun k j => w (ix2 (Fin.natAdd 128 k) j)

theorem rowSum_apply (t : FVec Ideal S2000x128 .f32) (r : Fin 2000) : rowSum t (ix1 r) = ∑ k : Fin 128, t (ix2 r k) :=
  lane_sum t reduces_S2000x128_S2000 (.inl rfl) rfl r

theorem meanCol_apply (t : FVec Ideal S2000x128 .f32) (r : Fin 2000) (u : Fin 1) :
    meanCol t (ix2 r u) = Spec.mean (rowOf t r) := by
  unfold meanCol Spec.mean
  rw [divf_apply, shapeCast_a_a1_apply, rowSum_apply, broadcast_apply]
  rfl

theorem dev_apply (t : FVec Ideal S2000x128 .f32) (r : Fin 2000) (j : Fin 128) :
    dev t (ix2 r j) = t (ix2 r j) - Spec.mean (rowOf t r) := by
  unfold dev
  rw [subf_apply, broadcastTo_a1_ab_apply, meanCol_apply]

theorem rsCol_apply (t : FVec Ideal S2000x128 .f32) (r : Fin 2000) (u : Fin 1) :
    rsCol t (ix2 r u) = Ideal.rsqrt (Spec.var (rowOf t r) + Spec.eps32) := by
  unfold rsCol
  show Ideal.rsqrt (addf (meanCol (mulf (dev t) (dev t))) (broadcast S2000x1 (Scalar.ofBits .f32 0x3727C5AC#32)) (ix2 r u)) = _
  rw [addf_apply, meanCol_apply, broadcast_apply]
  unfold Spec.var Spec.mean
  simp only [mulf_apply, dev_apply]
  rfl

theorem lnVec_apply (t : FVec Ideal S2000x128 .f32) (gv bev : FVec Ideal S1x128 .f32) (r : Fin 2000) (j : Fin 128) :
    lnVec t gv bev (ix2 r j) = Spec.lnRow (rowOf t r) (vecOf gv) (vecOf bev) j := by
  unfold lnVec Spec.lnRow
  rw [addf_apply, mulf_apply, mulf_apply, dev_apply, broadcastTo_a1_ab_apply, rsCol_apply, broadcastTo_1b_ab_apply, broadcastTo_1b_ab_apply]

theorem linVec_apply (sv : FVec Ideal S2000x128 .f32) (cv : FVec Ideal S2000x1 .f32) (xv : FVec Ideal S2000x128 .f32)
    (wv : FVec Ideal S256x128 .f32) (bv : FVec Ideal S1x128 .f32) (r : Fin 2000) (j : Fin 128) :
    linVec sv cv xv wv bv (ix2 r j)
      = max (Spec.preKer (rowOf sv r) (rowOf xv r) (cv (ix2 r (0 : Fin 1))) (wTop wv) (wBot wv) (vecOf bv) j) Spec.zero32 := by
  unfold linVec Spec.preKer
  rw [maximumf_apply, addf_apply, broadcast_apply, broadcastTo_1b_ab_apply]
  have hd : dot_S2000x256_S256x128_S2000x128_1_0_0_1_n_n = DotDims.plain 2000 256 128 := rfl
  rw [hd, matmul_zero]
  refine congrArg₂ max (congrArg (· + bv (ix2 (0 : Fin 1) j)) ?_) rfl
  refine (cat_dot (a := 2000) (b := 128) (n := 128) _ _ _ concatenates_S2000x128_S2000x128_S2000x256_d1 r j).trans ?_
  refine congrArg₂ (· + ·) (Finset.sum_congr rfl fun k _ => ?_) (Finset.sum_congr rfl fun k _ => rfl)
  show (sv (ix2 r k) * broadcastTo S2000x128 cv broadcasts_S2000x1_S2000x128 (ix2 r k)) * _ = _
  rw [broadcastTo_a1_ab_apply]
  rfl

end Cert.KernelIdeal.Pay

end
-- ==== Proof.KILayer.lean ====
/-
  A layer as one function of whole arrays, and a tile of it.

  Entry (n, q) of a layer's result reads row n of the node arrays (summed neighbour features, the layer's input, the
  reciprocal neighbour count) and the whole of the weights, bias, scale and shift. A kernel body works on a tile of
  2000 rows; if row p of each of the tile's row operands is row n of the corresponding array, and the small operands
  are the arrays themselves, entry (p, q) of what the body computes is entry (n, q) of the layer.
-/
import proofs.«159482_j24764781429188_2_alg».proof.Proof.KIPay

noncomputable section

namespace Cert.KernelIdeal.Layer

open Cert.KernelIdeal Cert.KernelIdeal.Gen Cert.KernelIdeal.Pay Idealize.ShloMosaic Idealize.ShloMosaic.ValueIdx

/-- The first layer, entry (n, q). -/
def G0c (sA xA : S50000x128.Idx → EReal) (cA : S50000x1.Idx → EReal) (wA : S256x128.Idx → EReal) (bA gA beA : S1x128.Idx → EReal)
    (n : Fin 50000) (q : Fin 128) : EReal :=
  Spec.lnRow (fun j' => max (Spec.preKer (fun k => sA (ix2 n k)) (fun k => xA (ix2 n k)) (cA (ix2 n (0 : Fin 1))) (wTop wA) (wBot wA) (vecOf bA) j') Spec.zero32)
    (vecOf gA) (vecOf beA) q

/-- A later layer (its input added back before the normalisation), entry (n, q). -/
def GBc (sA xA rA : S50000x128.Idx → EReal) (cA : S50000x1.Idx → EReal) (wA : S256x128.Idx → EReal) (bA gA beA : S1x128.Idx → EReal)
    (n : Fin 50000) (q : Fin 128) : EReal :=
  Spec.lnRow (fun j' => max (Spec.preKer (fun k => sA (ix2 n k)) (fun k => xA (ix2 n k)) (cA (ix2 n (0 : Fin 1))) (wTop wA) (wBot wA) (vecOf bA) j') Spec.zero32
      + rA (ix2 n j'))
    (vecOf gA) (vecOf beA) q

theorem tile0 (sB xB : FVec Ideal S2000x128 .f32) (cB : FVec Ideal S2000x1 .f32) (wB : FVec Ideal S256x128 .f32) (bB gB beB : FVec Ideal S1x128 .f32)
    (sA xA : S50000x128.Idx → EReal) (cA : S50000x1.Idx → EReal) (n : Fin 50000) (p : Fin 2000) (q : Fin 128)
    (hs : ∀ k, sB (ix2 p k) = sA (ix2 n k)) (hx : ∀ k, xB (ix2 p k) = xA (ix2 n k)) (hc : cB (ix2 p (0 : Fin 1)) = cA (ix2 n (0 : Fin 1))) :
    lnVec (linVec (shapeCast S2000x128 sB shapeCasts_S2000x128_S2000x128) (shapeCast S2000x1 cB shapeCasts_S2000x1_S2000x1) xB
          (shapeCast S256x128 wB shapeCasts_S256x128_S256x128) (shapeCast S1x128 bB shapeCasts_S1x128_S1x128))
        (shapeCast S1x128 gB shapeCasts_S1x128_S1x128) (shapeCast S1x128 beB shapeCasts_S1x128_S1x128) (ix2 p q)
      = G0c sA xA cA wB bB gB beB n q := by
  rw [lnVec_apply]
  unfold G0c
  simp only [shapeCast_self]
  refine congrArg (fun T => Spec.lnRow T (vecOf gB) (vecOf beB) q) (funext fun j' => ?_)
  show linVec sB cB xB wB bB (ix2 p j') = _
  rw [linVec_apply, hc, show rowOf sB p = fun k => sA (ix2 n k) from funext hs, show rowOf xB p = fun k => xA (ix2 n k) from funext hx]

theorem tileB (sB xB rB : FVec Ideal S2000x128 .f32) (cB : FVec Ideal S2000x1 .f32) (wB : FVec Ideal S256x128 .f32) (bB gB beB : FVec Ideal S1x128 .f32)
    (sA xA rA : S50000x128.Idx → EReal) (cA : S50000x1.Idx → EReal) (n : Fin 50000) (p : Fin 2000) (q : Fin 128)
    (hs : ∀ k, sB (ix2 p k) = sA (ix2 n k)) (hx : ∀ k, xB (ix2 p k) = xA (ix2 n k)) (hr : ∀ k, rB (ix2 p k) = rA (ix2 n k))
    (hc : cB (ix2 p (0 : Fin 1)) = cA (ix2 n (0 : Fin 1))) :
    lnVec (addf (linVec (shapeCast S2000x128 sB shapeCasts_S2000x128_S2000x128) (shapeCast S2000x1 cB shapeCasts_S2000x1_S2000x1)
            (shapeCast S2000x128 xB shapeCasts_S2000x128_S2000x128)
            (shapeCast S256x128 wB shapeCasts_S256x128_S256x128) (shapeCast S1x128 bB shapeCasts_S1x128_S1x128))
          (shapeCast S2000x128 rB shapeCasts_S2000x128_S2000x128))
        (shapeCast S1x128 gB shapeCasts_S1x128_S1x128) (shapeCast S1x128 beB shapeCasts_S1x128_S1x128) (ix2 p q)
      = GBc sA xA rA cA wB bB gB beB n q := by
  rw [lnVec_apply]
  unfold GBc
  simp only [shapeCast_self]
  refine congrArg (fun T => Spec.lnRow T (vecOf gB) (vecOf beB) q) (funext fun j' => ?_)
  show addf (linVec sB cB xB wB bB) rB (ix2 p j') = _
  rw [addf_apply, linVec_apply, hc, hr, show rowOf sB p = fun k => sA (ix2 n k) from funext hs, show rowOf xB p = fun k => xA (ix2 n k) from funext hx]

end Cert.KernelIdeal.Layer

end
-- ==== Proof.KIVal.lean ====
/-
  From tiles to arrays: each layer region's output array after the region is the layer, as one function, of the
  contents the region found. What a grid point writes back is its row tile of the layer (the body's result on the
  point's tiles, and a tile's row p is row 2000·t + p of the array); the 25 tiles cover the 50000 rows.
-/
import proofs.«159482_j24764781429188_2_alg».proof.Proof.KILayer
import proofs.«159482_j24764781429188_2_alg».proof.Proof.KIRegion0
import proofs.«159482_j24764781429188_2_alg».proof.Proof.KIRegion1
import proofs.«159482_j24764781429188_2_alg».proof.Proof.KIRegion2
import Idealize.ShloMosaic.Lib.Pipeline.Value

set_option maxRecDepth 16384

noncomputable section

namespace Cert.KernelIdeal
theorem hz : (![0, 0] : Fin 2 → Nat) = fun _ => 0 := funext fun a => by fin_cases a <;> rfl
end Cert.KernelIdeal

namespace Cert.KernelIdeal.Val0

open Cert.KernelIdeal Cert.KernelIdeal.Gen Cert.KernelIdeal.Region0 Cert.KernelIdeal.Pay Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer as a function of the contents the region finds: what its output array ends holding. -/
def G (c : Dev nD) : S50000x128.Idx → Elt Ideal .f32 := fun i =>
  G0c (V c main_v24) (V c main_arg0) (V c main_v12) (V c main_v28) (V c main_v25) (V c main_v26) (V c main_v27) (i 0) (i 1)

/-- The printed index maps over the grid: a row window's block is the grid point's row tile, a small operand's the whole. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

set_option maxHeartbeats 1000000 in
/-- What point `t` writes back is block `t` of the layer. -/
theorem flushed_eq (c : Dev nD) (t : Fin cfg0.N) :
    (dat V c).flushed 7 t = ((cfg0.win 7).blk t).view.read (Elt Ideal) (G V c) := by
  show (cfg0.win 7).cut (grid0.coords t) ((dat V c).after 7 t) = _
  rw [after_7]
  unfold out
  rw [View.canon_unit_zero hz]
  simp only [View.ld_unit_zero (S := S2000x128) hz, View.ld_unit_zero (S := S2000x1) hz, View.ld_unit_zero (S := S256x128) hz, View.ld_unit_zero (S := S1x128) hz]
  rw [pay0_eq]
  obtain ⟨a0_0, a0_1, a1_0, a1_1, a2_0, a2_1, a3_0, a3_1, a4_0, a4_1, a5_0, a5_1, a6_0, a6_1, a7_0, a7_1⟩ := idx_facts t
  have ht : t.val < 25 := Nat.lt_of_lt_of_eq t.isLt N_0
  funext y
  obtain ⟨p, q, rfl⟩ : ∃ (p : Fin 2000) (q : Fin 128), y = ix2 p q := ⟨y 0, y 1, eq_ix2 y⟩
  have hn : t.val * 2000 + p.val < 50000 := by have := p.isLt; omega
  have hemb : ((cfg0.win 7).blk t).view.emb (ix2 p q) = ix2 (⟨t.val * 2000 + p.val, hn⟩ : Fin 50000) q := by
    funext a; apply Fin.ext
    match a with
    | ⟨0, _⟩ => show win0_7.index t (0 : Fin 2) * 2000 + 1 * p.val = t.val * 2000 + p.val; omega
    | ⟨1, _⟩ => show win0_7.index t (1 : Fin 2) * 128 + 1 * (q).val = (q).val; omega
  have h0 : ∀ k : Fin 128, iblk V c 0 t (ix2 p k) = V c main_v24 (ix2 (⟨t.val * 2000 + p.val, hn⟩ : Fin 50000) k) := fun k => by
    show V c main_v24 (((cfg0.win 0).blk t).view.emb (ix2 p k)) = _
    refine congrArg (V c main_v24) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * (k).val = (k).val; omega
  have h1 : ∀ k : Fin 128, iblk V c 1 t (ix2 p k) = V c main_arg0 (ix2 (⟨t.val * 2000 + p.val, hn⟩ : Fin 50000) k) := fun k => by
    show V c main_arg0 (((cfg0.win 1).blk t).view.emb (ix2 p k)) = _
    refine congrArg (V c main_arg0) ?_
    funext a; apply Fin.ext
    match a with
    | ⟨0, _⟩ => show win0_1.index t (0 : Fin 2) * 2000 + 1 * p.val = t.val * 2000 + p.val; omega
    | ⟨1, _⟩ => show win0_1.index t (1 : Fin 2) * 128 + 1 * (k).val = (k).val; omega
  have h2 : iblk V c 2 t (ix2 p (0 : Fin 1)) = V c main_v12 (ix2 (⟨t.val * 2000 + p.val, hn⟩ : Fin 50000) (0 : Fin 1)) := by
    show V c main_v12 (((cfg0.win 2).blk t).view.emb (ix2 p (0 : Fin 1))) = _
    refine congrArg (V c main_v12) ?_
    funext a; apply Fin.ext
    match a with
    | ⟨0, _⟩ => show win0_2.index t (0 : Fin 2) * 2000 + 1 * p.val = t.val * 2000 + p.val; omega
    | ⟨1, _⟩ => show win0_2.index t (1 : Fin 2) * 1 + 1 * ((0 : Fin 1)).val = ((0 : Fin 1)).val; omega
  have h3 : iblk V c 3 t = V c main_v28 := by
    funext z
    show V c main_v28 (((cfg0.win 3).blk t).view.emb z) = V c main_v28 z
    refine congrArg (V c main_v28) ?_
    funext a; apply Fin.ext
    match a with
    | ⟨0, _⟩ => show win0_3.index t (0 : Fin 2) * 256 + 1 * (z 0).val = (z 0).val; omega
    | ⟨1, _⟩ => show win0_3.index t (1 : Fin 2) * 128 + 1 * (z 1).val = (z 1).val; omega
  have h4 : iblk V c 4 t = V c main_v25 := by
    funext z
    show V c main_v25 (((cfg0.win 4).blk t).view.emb z) = V c main_v25 z
    refine congrArg (V c main_v25) ?_
    funext a; apply Fin.ext
    match a with
    | ⟨0, _⟩ => show win0_4.index t (0 : Fin 2) * 1 + 1 * (z 0).val = (z 0).val; omega
    | ⟨1, _⟩ => show win0_4.index t (1 : Fin 2) * 128 + 1 * (z 1).val = (z 1).val; omega
  have h5 : iblk V c 5 t = V c main_v26 := by
    funext z
    show V c main_v26 (((cfg0.win 5).blk t).view.emb z) = V c main_v26 z
    refine congrArg (V c main_v26) ?_
    funext a; apply Fin.ext
    match a with
    | ⟨0, _⟩ => show win0_5.index t (0 : Fin 2) * 1 + 1 * (z 0).val = (z 0).val; omega
    | ⟨1, _⟩ => show win0_5.index t (1 : Fin 2) * 128 + 1 * (z 1).val = (z 1).val; omega
  have h6 : iblk V c 6 t = V c main_v27 := by
    funext z
    show V c main_v27 (((cfg0.win 6).blk t).view.emb z) = V c main_v27 z
    refine congrArg (V c main_v27) ?_
    funext a; apply Fin.ext
    match a with
    | ⟨0, _⟩ => show win0_6.index t (0 : Fin 2) * 1 + 1 * (z 0).val = (z 0).val; omega
    | ⟨1, _⟩ => show win0_6.index t (1 : Fin 2) * 128 + 1 * (z 1).val = (z 1).val; omega
  show lnVec (F := Ideal) (linVec (shapeCast S2000x128 (iblk V c 0 t) shapeCasts_S2000x128_S2000x128) (shapeCast S2000x1 (iblk V c 2 t) shapeCasts_S2000x1_S2000x1) (iblk V c 1 t) (shapeCast S256x128 (iblk V c 3 t) shapeCasts_S256x128_S256x128) (shapeCast S1x128 (iblk V c 4 t) shapeCasts_S1x128_S1x128)) (shapeCast S1x128 (iblk V c 5 t) shapeCasts_S1x128_S1x128) (shapeCast S1x128 (iblk V c 6 t) shapeCasts_S1x128_S1x128) (ix2 p q) = G V c (((cfg0.win 7).blk t).view.emb (ix2 p q))
  rw [hemb]
  show _ = G0c (V c main_v24) (V c main_arg0) (V c main_v12) (V c main_v28) (V c main_v25) (V c main_v26) (V c main_v27) (⟨t.val * 2000 + p.val, hn⟩ : Fin 50000) q
  exact (tile0 (iblk V c 0 t) (iblk V c 1 t) (iblk V c 2 t) (iblk V c 3 t) (iblk V c 4 t) (iblk V c 5 t) (iblk V c 6 t) (V c main_v24) (V c main_arg0) (V c main_v12) ⟨t.val * 2000 + p.val, hn⟩ p q h0 h1 h2).trans (by rw [h3, h4, h5, h6])

/-- An index of the array is in point `t`'s block iff each coordinate is in the block's range. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v29).slice (win0_7.rect t)).set ↔ _
  rw [View.set_slice_whole, Rect.mem_set_unit]
  exact Iff.rfl

/-- Every row of the array is in some point's tile: row n in tile n / 2000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : (i 0).val / 2000 < cfg0.N := Nat.lt_of_lt_of_eq (show (i 0).val / 2000 < 25 by omega) N_0.symm
  obtain ⟨a0_0, a0_1, a1_0, a1_1, a2_0, a2_1, a3_0, a3_1, a4_0, a4_1, a5_0, a5_1, a6_0, a6_1, a7_0, a7_1⟩ := idx_facts ⟨(i 0).val / 2000, hN⟩
  refine ⟨⟨(i 0).val / 2000, hN⟩, flush0_7 _, ?_⟩
  rw [mem_blk]
  intro a
  match a with
  | ⟨0, _⟩ =>
    show win0_7.index ⟨(i 0).val / 2000, hN⟩ (0 : Fin 2) * 2000 ≤ (i 0).val ∧ (i 0).val < win0_7.index ⟨(i 0).val / 2000, hN⟩ (0 : Fin 2) * 2000 + 2000
    rw [a7_0]; show (i 0).val / 2000 * 2000 ≤ (i 0).val ∧ (i 0).val < (i 0).val / 2000 * 2000 + 2000; omega
  | ⟨1, _⟩ =>
    show win0_7.index ⟨(i 0).val / 2000, hN⟩ (1 : Fin 2) * 128 ≤ (i 1).val ∧ (i 1).val < win0_7.index ⟨(i 0).val / 2000, hN⟩ (1 : Fin 2) * 128 + 128
    rw [a7_1]; omega

/-- The output array after the region is the layer of the contents the region found. -/
theorem final (c : Dev nD) : (dat V c).arrAt 7 cfg0.N = G V c :=
  (dat V c).arrAt_eq_of_cover 7 (G V c) (fun t _ => flushed_eq V c t) cover

end Cert.KernelIdeal.Val0

namespace Cert.KernelIdeal.Val1

open Cert.KernelIdeal Cert.KernelIdeal.Gen Cert.KernelIdeal.Region1 Cert.KernelIdeal.Pay Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer as a function of the contents the region finds: what its output array ends holding. -/
def G (c : Dev nD) : S50000x128.Idx → Elt Ideal .f32 := fun i =>
  GBc (V c main_v41) (V c main_v29) (V c main_v29) (V c main_v12) (V c main_v45) (V c main_v42) (V c main_v43) (V c main_v44) (i 0) (i 1)

/-- The printed index maps over the grid: a row window's block is the grid point's row tile, a small operand's the whole. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

set_option maxHeartbeats 1000000 in
/-- What point `t` writes back is block `t` of the layer. -/
theorem flushed_eq (c : Dev nD) (t : Fin cfg1.N) :
    (dat V c).flushed 8 t = ((cfg1.win 8).blk t).view.read (Elt Ideal) (G V c) := by
  show (cfg1.win 8).cut (grid1.coords t) ((dat V c).after 8 t) = _
  rw [after_8]
  unfold out
  rw [View.canon_unit_zero hz]
  simp only [View.ld_unit_zero (S := S2000x128) hz, View.ld_unit_zero (S := S2000x1) hz, View.ld_unit_zero (S := S256x128) hz, View.ld_unit_zero (S := S1x128) hz]
  rw [pay1_eq]
  obtain ⟨a0_0, a0_1, a1_0, a1_1, a2_0, a2_1, a3_0, a3_1, a4_0, a4_1, a5_0, a5_1, a6_0, a6_1, a7_0, a7_1, a8_0, a8_1⟩ := idx_facts t
  have ht : t.val < 25 := Nat.lt_of_lt_of_eq t.isLt N_1
  funext y
  obtain ⟨p, q, rfl⟩ : ∃ (p : Fin 2000) (q : Fin 128), y = ix2 p q := ⟨y 0, y 1, eq_ix2 y⟩
  have hn : t.val * 2000 + p.val < 50000 := by have := p.isLt; omega
  have hemb : ((cfg1.win 8).blk t).view.emb (ix2 p q) = ix2 (⟨t.val * 2000 + p.val, hn⟩ : Fin 50000) q := by
    funext a; apply Fin.ext
    match a with
    | ⟨0, _⟩ => show win1_8.index t (0 : Fin 2) * 2000 + 1 * p.val = t.val * 2000 + p.val; omega
    | ⟨1, _⟩ => show win1_8.index t (1 : Fin 2) * 128 + 1 * (q).val = (q).val; omega
  have h0 : ∀ k : Fin 128, iblk V c 0 t (ix2 p k) = V c main_v41 (ix2 (⟨t.val * 2000 + p.val, hn⟩ : Fin 50000) k) := fun k => by
    show V c main_v41 (((cfg1.win 0).blk t).view.emb (ix2 p k)) = _
    refine congrArg (V c main_v41) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * (k).val = (k).val; omega
  have h1 : ∀ k : Fin 128, iblk V c 1 t (ix2 p k) = V c main_v29 (ix2 (⟨t.val * 2000 + p.val, hn⟩ : Fin 50000) k) := fun k => by
    show V c main_v29 (((cfg1.win 1).blk t).view.emb (ix2 p k)) = _
    refine congrArg (V c main_v29) ?_
    funext a; apply Fin.ext
    match a with
    | ⟨0, _⟩ => show win1_1.index t (0 : Fin 2) * 2000 + 1 * p.val = t.val * 2000 + p.val; omega
    | ⟨1, _⟩ => show win1_1.index t (1 : Fin 2) * 128 + 1 * (k).val = (k).val; omega
  have h2 : ∀ k : Fin 128, iblk V c 2 t (ix2 p k) = V c main_v29 (ix2 (⟨t.val * 2000 + p.val, hn⟩ : Fin 50000) k) := fun k => by
    show V c main_v29 (((cfg1.win 2).blk t).view.emb (ix2 p k)) = _
    refine congrArg (V c main_v29) ?_
    funext a; apply Fin.ext
    match a with
    | ⟨0, _⟩ => show win1_2.index t (0 : Fin 2) * 2000 + 1 * p.val = t.val * 2000 + p.val; omega
    | ⟨1, _⟩ => show win1_2.index t (1 : Fin 2) * 128 + 1 * (k).val = (k).val; omega
  have h3 : iblk V c 3 t (ix2 p (0 : Fin 1)) = V c main_v12 (ix2 (⟨t.val * 2000 + p.val, hn⟩ : Fin 50000) (0 : Fin 1)) := by
    show V c main_v12 (((cfg1.win 3).blk t).view.emb (ix2 p (0 : Fin 1))) = _
    refine congrArg (V c main_v12) ?_
    funext a; apply Fin.ext
    match a with
    | ⟨0, _⟩ => show win1_3.index t (0 : Fin 2) * 2000 + 1 * p.val = t.val * 2000 + p.val; omega
    | ⟨1, _⟩ => show win1_3.index t (1 : Fin 2) * 1 + 1 * ((0 : Fin 1)).val = ((0 : Fin 1)).val; omega
  have h4 : iblk V c 4 t = V c main_v45 := by
    funext z
    show V c main_v45 (((cfg1.win 4).blk t).view.emb z) = V c main_v45 z
    refine congrArg (V c main_v45) ?_
    funext a; apply Fin.ext
    match a with
    | ⟨0, _⟩ => show win1_4.index t (0 : Fin 2) * 256 + 1 * (z 0).val = (z 0).val; omega
    | ⟨1, _⟩ => show win1_4.index t (1 : Fin 2) * 128 + 1 * (z 1).val = (z 1).val; omega
  have h5 : iblk V c 5 t = V c main_v42 := by
    funext z
    show V c main_v42 (((cfg1.win 5).blk t).view.emb z) = V c main_v42 z
    refine congrArg (V c main_v42) ?_
    funext a; apply Fin.ext
    match a with
    | ⟨0, _⟩ => show win1_5.index t (0 : Fin 2) * 1 + 1 * (z 0).val = (z 0).val; omega
    | ⟨1, _⟩ => show win1_5.index t (1 : Fin 2) * 128 + 1 * (z 1).val = (z 1).val; omega
  have h6 : iblk V c 6 t = V c main_v43 := by
    funext z
    show V c main_v43 (((cfg1.win 6).blk t).view.emb z) = V c main_v43 z
    refine congrArg (V c main_v43) ?_
    funext a; apply Fin.ext
    match a with
    | ⟨0, _⟩ => show win1_6.index t (0 : Fin 2) * 1 + 1 * (z 0).val = (z 0).val; omega
    | ⟨1, _⟩ => show win1_6.index t (1 : Fin 2) * 128 + 1 * (z 1).val = (z 1).val; omega
  have h7 : iblk V c 7 t = V c main_v44 := by
    funext z
    show V c main_v44 (((cfg1.win 7).blk t).view.emb z) = V c main_v44 z
    refine congrArg (V c main_v44) ?_
    funext a; apply Fin.ext
    match a with
    | ⟨0, _⟩ => show win1_7.index t (0 : Fin 2) * 1 + 1 * (z 0).val = (z 0).val; omega
    | ⟨1, _⟩ => show win1_7.index t (1 : Fin 2) * 128 + 1 * (z 1).val = (z 1).val; omega
  show lnVec (F := Ideal) (addf (linVec (shapeCast S2000x128 (iblk V c 0 t) shapeCasts_S2000x128_S2000x128) (shapeCast S2000x1 (iblk V c 3 t) shapeCasts_S2000x1_S2000x1) (shapeCast S2000x128 (iblk V c 1 t) shapeCasts_S2000x128_S2000x128) (shapeCast S256x128 (iblk V c 4 t) shapeCasts_S256x128_S256x128) (shapeCast S1x128 (iblk V c 5 t) shapeCasts_S1x128_S1x128)) (shapeCast S2000x128 (iblk V c 2 t) shapeCasts_S2000x128_S2000x128)) (shapeCast S1x128 (iblk V c 6 t) shapeCasts_S1x128_S1x128) (shapeCast S1x128 (iblk V c 7 t) shapeCasts_S1x128_S1x128) (ix2 p q) = G V c (((cfg1.win 8).blk t).view.emb (ix2 p q))
  rw [hemb]
  show _ = GBc (V c main_v41) (V c main_v29) (V c main_v29) (V c main_v12) (V c main_v45) (V c main_v42) (V c main_v43) (V c main_v44) (⟨t.val * 2000 + p.val, hn⟩ : Fin 50000) q
  exact (tileB (iblk V c 0 t) (iblk V c 1 t) (iblk V c 2 t) (iblk V c 3 t) (iblk V c 4 t) (iblk V c 5 t) (iblk V c 6 t) (iblk V c 7 t) (V c main_v41) (V c main_v29) (V c main_v29) (V c main_v12) ⟨t.val * 2000 + p.val, hn⟩ p q h0 h1 h2 h3).trans (by rw [h4, h5, h6, h7])

/-- An index of the array is in point `t`'s block iff each coordinate is in the block's range. -/
theorem mem_blk (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v46).slice (win1_8.rect t)).set ↔ _
  rw [View.set_slice_whole, Rect.mem_set_unit]
  exact Iff.rfl

/-- Every row of the array is in some point's tile: row n in tile n / 2000. -/
theorem cover (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : (i 0).val / 2000 < cfg1.N := Nat.lt_of_lt_of_eq (show (i 0).val / 2000 < 25 by omega) N_1.symm
  obtain ⟨a0_0, a0_1, a1_0, a1_1, a2_0, a2_1, a3_0, a3_1, a4_0, a4_1, a5_0, a5_1, a6_0, a6_1, a7_0, a7_1, a8_0, a8_1⟩ := idx_facts ⟨(i 0).val / 2000, hN⟩
  refine ⟨⟨(i 0).val / 2000, hN⟩, flush1_8 _, ?_⟩
  rw [mem_blk]
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    rw [a8_0]; show (i 0).val / 2000 * 2000 ≤ (i 0).val ∧ (i 0).val < (i 0).val / 2000 * 2000 + 2000; omega
  | ⟨1, _⟩ =>
    show win1_8.index ⟨(i 0).val / 2000, hN⟩ (1 : Fin 2) * 128 ≤ (i 1).val ∧ (i 1).val < win1_8.index ⟨(i 0).val / 2000, hN⟩ (1 : Fin 2) * 128 + 128
    rw [a8_1]; omega

/-- The output array after the region is the layer of the contents the region found. -/
theorem final (c : Dev nD) : (dat V c).arrAt 8 cfg1.N = G V c :=
  (dat V c).arrAt_eq_of_cover 8 (G V c) (fun t _ => flushed_eq V c t) cover

end Cert.KernelIdeal.Val1

namespace Cert.KernelIdeal.Val2

open Cert.KernelIdeal Cert.KernelIdeal.Gen Cert.KernelIdeal.Region2 Cert.KernelIdeal.Pay Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer as a function of the contents the region finds: what its output array ends holding. -/
def G (c : Dev nD) : S50000x128.Idx → Elt Ideal .f32 := fun i =>
  GBc (V c main_v58) (V c main_v46) (V c main_v46) (V c main_v12) (V c main_v62) (V c main_v59) (V c main_v60) (V c main_v61) (i 0) (i 1)

/-- The printed index maps over the grid: a row window's block is the grid point's row tile, a small operand's the whole. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

set_option maxHeartbeats 1000000 in
/-- What point `t` writes back is block `t` of the layer. -/
theorem flushed_eq (c : Dev nD) (t : Fin cfg2.N) :
    (dat V c).flushed 8 t = ((cfg2.win 8).blk t).view.read (Elt Ideal) (G V c) := by
  show (cfg2.win 8).cut (grid2.coords t) ((dat V c).after 8 t) = _
  rw [after_8]
  unfold out
  rw [View.canon_unit_zero hz]
  simp only [View.ld_unit_zero (S := S2000x128) hz, View.ld_unit_zero (S := S2000x1) hz, View.ld_unit_zero (S := S256x128) hz, View.ld_unit_zero (S := S1x128) hz]
  rw [pay2_eq]
  obtain ⟨a0_0, a0_1, a1_0, a1_1, a2_0, a2_1, a3_0, a3_1, a4_0, a4_1, a5_0, a5_1, a6_0, a6_1, a7_0, a7_1, a8_0, a8_1⟩ := idx_facts t
  have ht : t.val < 25 := Nat.lt_of_lt_of_eq t.isLt N_2
  funext y
  obtain ⟨p, q, rfl⟩ : ∃ (p : Fin 2000) (q : Fin 128), y = ix2 p q := ⟨y 0, y 1, eq_ix2 y⟩
  have hn : t.val * 2000 + p.val < 50000 := by have := p.isLt; omega
  have hemb : ((cfg2.win 8).blk t).view.emb (ix2 p q) = ix2 (⟨t.val * 2000 + p.val, hn⟩ : Fin 50000) q := by
    funext a; apply Fin.ext
    match a with
    | ⟨0, _⟩ => show win2_8.index t (0 : Fin 2) * 2000 + 1 * p.val = t.val * 2000 + p.val; omega
    | ⟨1, _⟩ => show win2_8.index t (1 : Fin 2) * 128 + 1 * (q).val = (q).val; omega
  have h0 : ∀ k : Fin 128, iblk V c 0 t (ix2 p k) = V c main_v58 (ix2 (⟨t.val * 2000 + p.val, hn⟩ : Fin 50000) k) := fun k => by
    show V c main_v58 (((cfg2.win 0).blk t).view.emb (ix2 p k)) = _
    refine congrArg (V c main_v58) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * (k).val = (k).val; omega
  have h1 : ∀ k : Fin 128, iblk V c 1 t (ix2 p k) = V c main_v46 (ix2 (⟨t.val * 2000 + p.val, hn⟩ : Fin 50000) k) := fun k => by
    show V c main_v46 (((cfg2.win 1).blk t).view.emb (ix2 p k)) = _
    refine congrArg (V c main_v46) ?_
    funext a; apply Fin.ext
    match a with
    | ⟨0, _⟩ => show win2_1.index t (0 : Fin 2) * 2000 + 1 * p.val = t.val * 2000 + p.val; omega
    | ⟨1, _⟩ => show win2_1.index t (1 : Fin 2) * 128 + 1 * (k).val = (k).val; omega
  have h2 : ∀ k : Fin 128, iblk V c 2 t (ix2 p k) = V c main_v46 (ix2 (⟨t.val * 2000 + p.val, hn⟩ : Fin 50000) k) := fun k => by
    show V c main_v46 (((cfg2.win 2).blk t).view.emb (ix2 p k)) = _
    refine congrArg (V c main_v46) ?_
    funext a; apply Fin.ext
    match a with
    | ⟨0, _⟩ => show win2_2.index t (0 : Fin 2) * 2000 + 1 * p.val = t.val * 2000 + p.val; omega
    | ⟨1, _⟩ => show win2_2.index t (1 : Fin 2) * 128 + 1 * (k).val = (k).val; omega
  have h3 : iblk V c 3 t (ix2 p (0 : Fin 1)) = V c main_v12 (ix2 (⟨t.val * 2000 + p.val, hn⟩ : Fin 50000) (0 : Fin 1)) := by
    show V c main_v12 (((cfg2.win 3).blk t).view.emb (ix2 p (0 : Fin 1))) = _
    refine congrArg (V c main_v12) ?_
    funext a; apply Fin.ext
    match a with
    | ⟨0, _⟩ => show win2_3.index t (0 : Fin 2) * 2000 + 1 * p.val = t.val * 2000 + p.val; omega
    | ⟨1, _⟩ => show win2_3.index t (1 : Fin 2) * 1 + 1 * ((0 : Fin 1)).val = ((0 : Fin 1)).val; omega
  have h4 : iblk V c 4 t = V c main_v62 := by
    funext z
    show V c main_v62 (((cfg2.win 4).blk t).view.emb z) = V c main_v62 z
    refine congrArg (V c main_v62) ?_
    funext a; apply Fin.ext
    match a with
    | ⟨0, _⟩ => show win2_4.index t (0 : Fin 2) * 256 + 1 * (z 0).val = (z 0).val; omega
    | ⟨1, _⟩ => show win2_4.index t (1 : Fin 2) * 128 + 1 * (z 1).val = (z 1).val; omega
  have h5 : iblk V c 5 t = V c main_v59 := by
    funext z
    show V c main_v59 (((cfg2.win 5).blk t).view.emb z) = V c main_v59 z
    refine congrArg (V c main_v59) ?_
    funext a; apply Fin.ext
    match a with
    | ⟨0, _⟩ => show win2_5.index t (0 : Fin 2) * 1 + 1 * (z 0).val = (z 0).val; omega
    | ⟨1, _⟩ => show win2_5.index t (1 : Fin 2) * 128 + 1 * (z 1).val = (z 1).val; omega
  have h6 : iblk V c 6 t = V c main_v60 := by
    funext z
    show V c main_v60 (((cfg2.win 6).blk t).view.emb z) = V c main_v60 z
    refine congrArg (V c main_v60) ?_
    funext a; apply Fin.ext
    match a with
    | ⟨0, _⟩ => show win2_6.index t (0 : Fin 2) * 1 + 1 * (z 0).val = (z 0).val; omega
    | ⟨1, _⟩ => show win2_6.index t (1 : Fin 2) * 128 + 1 * (z 1).val = (z 1).val; omega
  have h7 : iblk V c 7 t = V c main_v61 := by
    funext z
    show V c main_v61 (((cfg2.win 7).blk t).view.emb z) = V c main_v61 z
    refine congrArg (V c main_v61) ?_
    funext a; apply Fin.ext
    match a with
    | ⟨0, _⟩ => show win2_7.index t (0 : Fin 2) * 1 + 1 * (z 0).val = (z 0).val; omega
    | ⟨1, _⟩ => show win2_7.index t (1 : Fin 2) * 128 + 1 * (z 1).val = (z 1).val; omega
  show lnVec (F := Ideal) (addf (linVec (shapeCast S2000x128 (iblk V c 0 t) shapeCasts_S2000x128_S2000x128) (shapeCast S2000x1 (iblk V c 3 t) shapeCasts_S2000x1_S2000x1) (shapeCast S2000x128 (iblk V c 1 t) shapeCasts_S2000x128_S2000x128) (shapeCast S256x128 (iblk V c 4 t) shapeCasts_S256x128_S256x128) (shapeCast S1x128 (iblk V c 5 t) shapeCasts_S1x128_S1x128)) (shapeCast S2000x128 (iblk V c 2 t) shapeCasts_S2000x128_S2000x128)) (shapeCast S1x128 (iblk V c 6 t) shapeCasts_S1x128_S1x128) (shapeCast S1x128 (iblk V c 7 t) shapeCasts_S1x128_S1x128) (ix2 p q) = G V c (((cfg2.win 8).blk t).view.emb (ix2 p q))
  rw [hemb]
  show _ = GBc (V c main_v58) (V c main_v46) (V c main_v46) (V c main_v12) (V c main_v62) (V c main_v59) (V c main_v60) (V c main_v61) (⟨t.val * 2000 + p.val, hn⟩ : Fin 50000) q
  exact (tileB (iblk V c 0 t) (iblk V c 1 t) (iblk V c 2 t) (iblk V c 3 t) (iblk V c 4 t) (iblk V c 5 t) (iblk V c 6 t) (iblk V c 7 t) (V c main_v58) (V c main_v46) (V c main_v46) (V c main_v12) ⟨t.val * 2000 + p.val, hn⟩ p q h0 h1 h2 h3).trans (by rw [h4, h5, h6, h7])

/-- An index of the array is in point `t`'s block iff each coordinate is in the block's range. -/
theorem mem_blk (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v63).slice (win2_8.rect t)).set ↔ _
  rw [View.set_slice_whole, Rect.mem_set_unit]
  exact Iff.rfl

/-- Every row of the array is in some point's tile: row n in tile n / 2000. -/
theorem cover (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have hN : (i 0).val / 2000 < cfg2.N := Nat.lt_of_lt_of_eq (show (i 0).val / 2000 < 25 by omega) N_2.symm
  obtain ⟨a0_0, a0_1, a1_0, a1_1, a2_0, a2_1, a3_0, a3_1, a4_0, a4_1, a5_0, a5_1, a6_0, a6_1, a7_0, a7_1, a8_0, a8_1⟩ := idx_facts ⟨(i 0).val / 2000, hN⟩
  refine ⟨⟨(i 0).val / 2000, hN⟩, flush2_8 _, ?_⟩
  rw [mem_blk]
  intro a
  match a with
  | ⟨0, _⟩ =>
    show win2_8.index ⟨(i 0).val / 2000, hN⟩ (0 : Fin 2) * 2000 ≤ (i 0).val ∧ (i 0).val < win2_8.index ⟨(i 0).val / 2000, hN⟩ (0 : Fin 2) * 2000 + 2000
    rw [a8_0]; show (i 0).val / 2000 * 2000 ≤ (i 0).val ∧ (i 0).val < (i 0).val / 2000 * 2000 + 2000; omega
  | ⟨1, _⟩ =>
    show win2_8.index ⟨(i 0).val / 2000, hN⟩ (1 : Fin 2) * 128 ≤ (i 1).val ∧ (i 1).val < win2_8.index ⟨(i 0).val / 2000, hN⟩ (1 : Fin 2) * 128 + 128
    rw [a8_1]; omega

/-- The output array after the region is the layer of the contents the region found. -/
theorem final (c : Dev nD) : (dat V c).arrAt 8 cfg2.N = G V c :=
  (dat V c).arrAt_eq_of_cover 8 (G V c) (fun t _ => flushed_eq V c t) cover

end Cert.KernelIdeal.Val2

end
-- ==== Proof.KIVal3.lean ====
/-
  The read-out region: its one grid point computes, on the whole arrays, the pooled features times the classifier's
  weights plus its bias; its output array after the region is that function of what the region found.
-/
import proofs.«159482_j24764781429188_2_alg».proof.Proof.KIRegion3
import proofs.«159482_j24764781429188_2_alg».proof.Proof.LibPlainDot
import Idealize.ShloMosaic.Lib.ValueLayout
import Idealize.ShloMosaic.Lib.Pipeline.Value

set_option maxRecDepth 16384

noncomputable section

namespace Cert.KernelIdeal.Val3

open Cert.KernelIdeal Cert.KernelIdeal.Gen Cert.KernelIdeal.Region3 Cert.Lib.PlainDot
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's arithmetic at (r, j). -/
theorem pay3_apply (x0 : Vec Ideal S512x128 .f32) (x1 : Vec Ideal S128x2 .f32) (x2 : Vec Ideal S1x2 .f32) (r : Fin 512) (j : Fin 2) :
    k3_pay1 (F := Ideal) x0 x1 x2 (ix2 r j) = mm x0 x1 (ix2 r j) + x2 (ix2 (0 : Fin 1) j) := by
  unfold k3_pay1
  rw [addf_apply, broadcastTo_1b_ab_apply]
  have hd : dot_S512x128_S128x2_S512x2_1_0_0_1_n_n = DotDims.plain 512 128 2 := rfl
  rw [hd, matmul_zero]
  simp only [shapeCast_self]
  rfl

variable (V : (c : Dev nD) → (b : Ref sig .tc) → Buf (Elt Ideal) ((c : Thread nD τ).loc b))

/-- The read-out as a function of the contents the region finds. -/
def G (c : Dev nD) : S512x2.Idx → Elt Ideal .f32 := fun i =>
  mm (V c main_v75) (V c main_arg18) (ix2 (i 0) (i 1)) + V c main_v76 (ix2 (0 : Fin 1) (i 1))

theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

set_option maxHeartbeats 1000000 in
theorem flushed_eq (c : Dev nD) (t : Fin cfg3.N) :
    (dat V c).flushed 3 t = ((cfg3.win 3).blk t).view.read (Elt Ideal) (G V c) := by
  show (cfg3.win 3).cut (grid3.coords t) ((dat V c).after 3 t) = _
  rw [after_3]
  unfold out
  rw [View.canon_unit_zero hz]
  simp only [View.ld_unit_zero (S := S512x128) hz, View.ld_unit_zero (S := S128x2) hz, View.ld_unit_zero (S := S1x2) hz]
  obtain ⟨a0, a1, b0, b1, c0, c1, o0, o1⟩ := idx_facts t
  funext y
  obtain ⟨r, j, rfl⟩ : ∃ (r : Fin 512) (j : Fin 2), y = ix2 r j := ⟨y 0, y 1, eq_ix2 y⟩
  have hemb : ((cfg3.win 3).blk t).view.emb (ix2 r j) = ix2 r j := by
    funext a; apply Fin.ext
    match a with
    | ⟨0, _⟩ => show win3_3.index t (0 : Fin 2) * 512 + 1 * r.val = r.val; omega
    | ⟨1, _⟩ => show win3_3.index t (1 : Fin 2) * 2 + 1 * j.val = j.val; omega
  have h0 : iblk V c 0 t = V c main_v75 := by
    funext z
    show V c main_v75 (((cfg3.win 0).blk t).view.emb z) = V c main_v75 z
    refine congrArg (V c main_v75) ?_
    funext a; apply Fin.ext
    match a with
    | ⟨0, _⟩ => show win3_0.index t (0 : Fin 2) * 512 + 1 * (z 0).val = (z 0).val; omega
    | ⟨1, _⟩ => show win3_0.index t (1 : Fin 2) * 128 + 1 * (z 1).val = (z 1).val; omega
  have h1 : iblk V c 1 t = V c main_arg18 := by
    funext z
    show V c main_arg18 (((cfg3.win 1).blk t).view.emb z) = V c main_arg18 z
    refine congrArg (V c main_arg18) ?_
    funext a; apply Fin.ext
    match a with
    | ⟨0, _⟩ => show win3_1.index t (0 : Fin 2) * 128 + 1 * (z 0).val = (z 0).val; omega
    | ⟨1, _⟩ => show win3_1.index t (1 : Fin 2) * 2 + 1 * (z 1).val = (z 1).val; omega
  have h2 : iblk V c 2 t = V c main_v76 := by
    funext z
    show V c main_v76 (((cfg3.win 2).blk t).view.emb z) = V c main_v76 z
    refine congrArg (V c main_v76) ?_
    funext a; apply Fin.ext
    match a with
    | ⟨0, _⟩ => show win3_2.index t (0 : Fin 2) * 1 + 1 * (z 0).val = (z 0).val; omega
    | ⟨1, _⟩ => show win3_2.index t (1 : Fin 2) * 2 + 1 * (z 1).val = (z 1).val; omega
  show k3_pay1 (F := Ideal) (iblk V c 0 t) (iblk V c 1 t) (iblk V c 2 t) (ix2 r j) = G V c (((cfg3.win 3).blk t).view.emb (ix2 r j))
  rw [hemb]
  refine (pay3_apply (iblk V c 0 t) (iblk V c 1 t) (iblk V c 2 t) r j).trans ?_
  rw [h0, h1, h2]
  rfl

theorem mem_blk (t : Fin cfg3.N) (i : S512x2.Idx) :
    i ∈ ((cfg3.win 3).blk t).view.set ↔ ∀ a : Fin 2, win3_3.index t a * S512x2.size a ≤ (i a).val ∧ (i a).val < win3_3.index t a * S512x2.size a + S512x2.size a := by
  show i ∈ ((View.whole main_v77).slice (win3_3.rect t)).set ↔ _
  rw [View.set_slice_whole, Rect.mem_set_unit]
  exact Iff.rfl

theorem cover (i : S512x2.Idx) : ∃ t : Fin cfg3.N, (cfg3.win 3).flush t = true ∧ i ∈ ((cfg3.win 3).blk t).view.set := by
  have hi0 : (i 0).val < 512 := (i 0).isLt
  have hi1 : (i 1).val < 2 := (i 1).isLt
  obtain ⟨a0, a1, b0, b1, c0, c1, o0, o1⟩ := idx_facts t3_0
  refine ⟨t3_0, (by decide +kernel : ∀ t : Fin grid3.N, win3_3.flush t = true) t3_0, ?_⟩
  rw [mem_blk]
  intro a
  match a with
  | ⟨0, _⟩ =>
    show win3_3.index t3_0 (0 : Fin 2) * 512 ≤ (i 0).val ∧ (i 0).val < win3_3.index t3_0 (0 : Fin 2) * 512 + 512
    rw [o0]; omega
  | ⟨1, _⟩ =>
    show win3_3.index t3_0 (1 : Fin 2) * 2 ≤ (i 1).val ∧ (i 1).val < win3_3.index t3_0 (1 : Fin 2) * 2 + 2
    rw [o1]; omega

theorem final (c : Dev nD) : (dat V c).arrAt 3 cfg3.N = G V c :=
  (dat V c).arrAt_eq_of_cover 3 (G V c) (fun t _ => flushed_eq V c t) cover

end Cert.KernelIdeal.Val3

end
-- ==== Proof.KIHost.lean ====
/-
  The host operations between the kernel regions, as functions of whole arrays: the edges' source and destination
  indices, a layer's summed neighbour features (gather the source rows, scatter-add them at the destinations), the
  neighbour count and its reciprocal column, the two weight matrices stacked, a vector cast to one row, and the
  pooled features; and each stretch of host operations read back as these functions of the buffers it starts from.
-/
import proofs.«159482_j24764781429188_2_alg».proof.Proof.Gen.KernelIdeal.Launch
import proofs.«159482_j24764781429188_2_alg».proof.Proof.LibRowRead
import proofs.«159482_j24764781429188_2_alg».proof.Proof.LibHostRead
import proofs.«159482_j24764781429188_2_alg».proof.Proof.Spec
import Idealize.ShloMosaic.Lib.StableHlo.Run
import Idealize.ShloMosaic.Lib.ValueLayout
import Idealize.ShloMosaic.Lib.IdealHost

noncomputable section

namespace Cert.KernelIdeal.Host

open Cert.KernelIdeal Cert.KernelIdeal.Gen Idealize.ShloMosaic Idealize.ShloMosaic.TcCoe Idealize.ShloMosaic.ValueIdx
open Idealize.ShloMosaic.StableHlo Cert.Lib.RowRead Cert.LibHostRead

abbrev A := FVec Ideal S50000x128 .f32
abbrev E := IVec S800000 32

/-- The edges' sources and destinations. -/
def src (ei : IVec S2x800000 32) : E := shapeCast S800000 (extractStridedSlice S1x800000 ![0, 0] ei slices_S2x800000_S1x800000_0_0) shapeCasts_S1x800000_S800000
def dst (ei : IVec S2x800000 32) : E := shapeCast S800000 (extractStridedSlice S1x800000 ![1, 0] ei slices_S2x800000_S1x800000_1_0) shapeCasts_S1x800000_S800000
/-- A source index counted from the end when negative. -/
def wrap (s : E) : E :=
  select (cmpi .slt s (broadcastInDim S800000 ![] bcast_S_S800000 (constantI S_ 32 0#32)))
    (addi s (broadcastInDim S800000 ![] bcast_S_S800000 (constantI S_ 32 50000#32))) s
/-- The summed neighbour features. -/
def agg (h : A) (s d : E) : A :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (extf .f32 (Host.gather gather_S50000x128_S800000x1_S800000x128_1_0_n_n_0_1_1128 (truncf .bf16 h bitsLt_bf16_f32)
      (broadcastInDim S800000x1 ![0] bcast_S800000_S800000x1_0 (wrap s))) bitsLt_bf16_f32)
/-- The neighbour count. -/
def cnt (d : E) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))
/-- One over the count (at least one), as a column. -/
def cinv (c : FVec Ideal S50000 .f32) : FVec Ideal S50000x1 .f32 :=
  shapeCast S50000x1 (Host.divf (broadcastInDim S50000 ![] bcast_S_S50000 (constant S_ .f32 0x3F800000#32))
    (maximumf c (broadcastInDim S50000 ![] bcast_S_S50000 (constant S_ .f32 0x3F800000#32)))) shapeCasts_S50000_S50000x1
/-- Two weight matrices stacked. -/
def stack (wl wr : FVec Ideal S128x128 .f32) : FVec Ideal S256x128 .f32 :=
  concatenate S256x128 0 [⟨S128x128, wl⟩, ⟨S128x128, wr⟩] concatenates_S128x128_S128x128_S256x128_d0
/-- A vector as one row. -/
def row1 (v : FVec Ideal S128 .f32) : FVec Ideal S1x128 .f32 := shapeCast S1x128 v shapeCasts_S128_S1x128

/-- The pooled mean of the nodes' features per graph. -/
def avg (h : A) (batch : IVec S50000 32) : FVec Ideal S512x128 .f32 :=
  Host.divf
    (Host.scatterAdd scatter_S512x128_S50000x1_S50000x128_1_0_0_1 (broadcastInDim S512x128 ![] bcast_S_S512x128 (constant S_ .f32 0x00000000#32))
      (broadcastInDim S50000x1 ![0] bcast_S50000_S50000x1_0 batch) h)
    (broadcastInDim S512x128 ![0, 1] bcast_S512x1_S512x128_0_1 (broadcastInDim S512x1 ![0] bcast_S512_S512x1_0
      (maximumf (Host.scatterAdd scatter_S512_S50000x1_S50000_n_0_0_1 (broadcastInDim S512 ![] bcast_S_S512 (constant S_ .f32 0x00000000#32))
          (broadcastInDim S50000x1 ![0] bcast_S50000_S50000x1_0 batch) (broadcastInDim S50000 ![] bcast_S_S50000 (constant S_ .f32 0x3F800000#32)))
        (broadcastInDim S512 ![] bcast_S_S512 (constant S_ .f32 0x3F800000#32)))))
/-- The classifier's bias as one row. -/
def bcRow (v : FVec Ideal S2 .f32) : FVec Ideal S1x2 .f32 := shapeCast S1x2 v shapeCasts_S2_S1x2

/-! ## The stretches read back -/

variable (V : Valuation τ sig (Elt Ideal))

set_option maxHeartbeats 2000000 in
set_option maxRecDepth 65536 in
/-- The first stretch: indices, count, the first layer's sums, the first layer's small operands. -/
theorem stretch0 :
    after (hostOps0 (F := Ideal)) V (main_v1 : DevRef τ sig) = src (V (main_arg1 : DevRef τ sig))
    ∧ after hostOps0 V (main_v3 : DevRef τ sig) = dst (V (main_arg1 : DevRef τ sig))
    ∧ after hostOps0 V (main_v7 : DevRef τ sig) = cnt (dst (V (main_arg1 : DevRef τ sig)))
    ∧ after hostOps0 V (main_v12 : DevRef τ sig) = cinv (cnt (dst (V (main_arg1 : DevRef τ sig))))
    ∧ after hostOps0 V (main_v24 : DevRef τ sig) = agg (V (main_arg0 : DevRef τ sig)) (src (V (main_arg1 : DevRef τ sig))) (dst (V (main_arg1 : DevRef τ sig)))
    ∧ after hostOps0 V (main_v28 : DevRef τ sig) = stack (V (main_arg3 : DevRef τ sig)) (V (main_arg4 : DevRef τ sig))
    ∧ after hostOps0 V (main_v25 : DevRef τ sig) = row1 (V (main_arg5 : DevRef τ sig))
    ∧ after hostOps0 V (main_v26 : DevRef τ sig) = row1 (V (main_arg6 : DevRef τ sig))
    ∧ after hostOps0 V (main_v27 : DevRef τ sig) = row1 (V (main_arg7 : DevRef τ sig)) := by
  refine ⟨?_, ?_, ?_, ?_, ?_, ?_, ?_, ?_, ?_⟩ <;> (after_results_simp; rfl)

set_option maxHeartbeats 2000000 in
set_option maxRecDepth 65536 in
/-- Stretch 1: the next layer's sums and small operands. -/
theorem stretch1 :
    after (hostOps1 (F := Ideal)) V (main_v41 : DevRef τ sig) = agg (V (main_v29 : DevRef τ sig)) (V (main_v1 : DevRef τ sig)) (V (main_v3 : DevRef τ sig))
    ∧ after hostOps1 V (main_v45 : DevRef τ sig) = stack (V (main_arg8 : DevRef τ sig)) (V (main_arg9 : DevRef τ sig))
    ∧ after hostOps1 V (main_v42 : DevRef τ sig) = row1 (V (main_arg10 : DevRef τ sig))
    ∧ after hostOps1 V (main_v43 : DevRef τ sig) = row1 (V (main_arg11 : DevRef τ sig))
    ∧ after hostOps1 V (main_v44 : DevRef τ sig) = row1 (V (main_arg12 : DevRef τ sig)) := by
  refine ⟨?_, ?_, ?_, ?_, ?_⟩ <;> (after_results_simp; rfl)

set_option maxHeartbeats 2000000 in
set_option maxRecDepth 65536 in
/-- Stretch 2: the next layer's sums and small operands. -/
theorem stretch2 :
    after (hostOps2 (F := Ideal)) V (main_v58 : DevRef τ sig) = agg (V (main_v46 : DevRef τ sig)) (V (main_v1 : DevRef τ sig)) (V (main_v3 : DevRef τ sig))
    ∧ after hostOps2 V (main_v62 : DevRef τ sig) = stack (V (main_arg13 : DevRef τ sig)) (V (main_arg14 : DevRef τ sig))
    ∧ after hostOps2 V (main_v59 : DevRef τ sig) = row1 (V (main_arg15 : DevRef τ sig))
    ∧ after hostOps2 V (main_v60 : DevRef τ sig) = row1 (V (main_arg16 : DevRef τ sig))
    ∧ after hostOps2 V (main_v61 : DevRef τ sig) = row1 (V (main_arg17 : DevRef τ sig)) := by
  refine ⟨?_, ?_, ?_, ?_, ?_⟩ <;> (after_results_simp; rfl)

set_option maxHeartbeats 2000000 in
set_option maxRecDepth 65536 in
/-- The last stretch: the pooled mean and the classifier's bias row. -/
theorem stretch3 :
    after (hostOps3 (F := Ideal)) V (main_v75 : DevRef τ sig) = avg (V (main_v63 : DevRef τ sig)) (V (main_arg2 : DevRef τ sig))
    ∧ after hostOps3 V (main_v76 : DevRef τ sig) = bcRow (V (main_arg19 : DevRef τ sig)) := by
  refine ⟨?_, ?_⟩ <;> (after_results_simp; rfl)

/-! ## Read at an index -/

theorem bcRow_apply (v : FVec Ideal S2 .f32) (u : Fin 1) (k : Fin 2) : bcRow v (ix2 u k) = v (ix1 k) :=
  shapeCast_a_1a_apply v _ u k

theorem cinv_apply (c : FVec Ideal S50000 .f32) (n : Fin 50000) :
    cinv c (ix2 n (0 : Fin 1)) = Ideal.div 1 (max (c (ix1 n)) Spec.one32) := by
  unfold cinv
  rw [shapeCast_a_a1_apply, hostDivf_apply, maximumf_apply, bcast_scalar_apply]
  show Ideal.div (Ideal.ofBits .f32 0x3F800000#32) _ = _
  rw [Ideal.ofBits_one_f32]
  rfl

theorem stack_top (wl wr : FVec Ideal S128x128 .f32) (k j : Fin 128) :
    stack wl wr (ix2 (Fin.castAdd 128 k) j) = wl (ix2 k j) :=
  concat_rows_top (a := 128) (b := 128) wl wr concatenates_S128x128_S128x128_S256x128_d0 k j

theorem stack_bottom (wl wr : FVec Ideal S128x128 .f32) (k j : Fin 128) :
    stack wl wr (ix2 (Fin.natAdd 128 k) j) = wr (ix2 k j) :=
  concat_rows_bottom (a := 128) (b := 128) wl wr concatenates_S128x128_S128x128_S256x128_d0 k j

theorem row1_apply (v : FVec Ideal S128 .f32) (u : Fin 1) (k : Fin 128) : row1 v (ix2 u k) = v (ix1 k) :=
  shapeCast_a_1a_apply v _ u k

end Cert.KernelIdeal.Host

end
-- ==== Proof.RefLayer.lean ====
/-
  The reference's layer as one function of whole arrays, read index by index at the exact values.

  The layer's linear part is (s / max(count, 1)) · W_l + b + x · W_r; the rectifier is a maximum with zero; the row
  normalisation subtracts the row's mean and divides by the root of the variance plus epsilon. The variance is
  computed by an outlined function that divides the summed squared deviations by (128 − ddof) and guards the
  quotient by "128 − ddof > 0, else not-a-number": with ddof = 0 the guard holds and the divisor is 128.
-/
import proofs.«159482_j24764781429188_2_alg».proof.Proof.Gen.ReferenceIdeal
import proofs.«159482_j24764781429188_2_alg».proof.Proof.LibPlainDot
import proofs.«159482_j24764781429188_2_alg».proof.Proof.LibRowRead
import proofs.«159482_j24764781429188_2_alg».proof.Proof.LibHostRead
import proofs.«159482_j24764781429188_2_alg».proof.Proof.Spec
import Idealize.ShloMosaic.Lib.IdealHost
import Idealize.ShloMosaic.Lib.ValueLayout

noncomputable section

namespace Cert.ReferenceIdeal.RefLayer

open Cert.ReferenceIdeal Cert.ReferenceIdeal.Gen Idealize.ShloMosaic Idealize.ShloMosaic.ValueIdx
open Cert.Lib.RowRead Cert.Lib.PlainDot Cert.LibHostRead

abbrev A := FVec Ideal S50000x128 .f32
abbrev Col := FVec Ideal S50000x1 .f32
abbrev W := FVec Ideal S128x128 .f32
abbrev Vv := FVec Ideal S128 .f32

/-- A column spread over the 128 features. -/
def wide (v : Col) : A := broadcastInDim S50000x128 ![0, 1] bcast_S50000x1_S50000x128_0_1 v
/-- A per-node number as a column. -/
def col (v : FVec Ideal S50000 .f32) : Col := broadcastInDim S50000x1 ![0] bcast_S50000_S50000x1_0 v
/-- A per-feature vector spread over the nodes. -/
def rowB (v : Vv) : A := broadcastInDim S50000x128 ![0, 1] bcast_S1x128_S50000x128_0_1 (broadcastInDim S1x128 ![1] bcast_S128_S1x128_1 v)
/-- The neighbour count, at least one. -/
def den (cnt : FVec Ideal S50000 .f32) : FVec Ideal S50000 .f32 :=
  maximumf cnt (broadcastInDim S50000 ![] bcast_S_S50000 (constant S_ .f32 0x3F800000#32))
/-- The linear part. -/
def sage (s : A) (cnt : FVec Ideal S50000 .f32) (h : A) (wl wr : W) (b : Vv) : A :=
  addf (addf (Host.dotGeneral dot_S50000x128_S128x128_S50000x128_1_0_0_1_n_n none (Host.divf s (wide (col (den cnt)))) wl) (rowB b))
    (Host.dotGeneral dot_S50000x128_S128x128_S50000x128_1_0_0_1_n_n none h wr)
/-- The rectifier. -/
def relu (x : A) : A := maximumf x (broadcastInDim S50000x128 ![] bcast_S_S50000x128 (constant S_ .f32 0x00000000#32))
/-- Each row's sum. -/
def rsum (t : A) : FVec Ideal S50000 .f32 := Host.reduceAdd t (constant S_ .f32 0x00000000#32) reducesTo_S50000x128_S50000_d1 h_S_
/-- Each row's mean, as a column. -/
def meanC (t : A) : Col := Host.divf (col (rsum t)) (broadcastInDim S50000x1 ![] bcast_S_S50000x1 (constant S_ .f32 0x43000000#32))
/-- The outlined variance's divisor 128 − ddof, with ddof = 0. -/
def nDiv : FVec Ideal S_ .f32 := subf (constant S_ .f32 0x43000000#32) (sitofp .f32 (constantI S_ 32 0#32))
/-- The outlined variance: the guarded mean squared deviation. -/
def varC (t : A) : Col :=
  select (broadcastInDim S50000x1 ![] bcast_S_S50000x1 (cmpf .ogt nDiv (constant S_ .f32 0x00000000#32)))
    (Host.divf (col (rsum (mulf (subf t (wide (meanC t))) (subf t (wide (meanC t)))))) (broadcastInDim S50000x1 ![] bcast_S_S50000x1 nDiv))
    (broadcastInDim S50000x1 ![] bcast_S_S50000x1 (id (constant S_ .f32 0x7FC00000#32)))
/-- The row normalisation. -/
def ln (t : A) (g be : Vv) : A :=
  addf (mulf (mulf (subf t (wide (meanC t)))
      (wide (Host.rsqrt (addf (varC t) (broadcastInDim S50000x1 ![] bcast_S_S50000x1 (constant S_ .f32 0x3727C5AC#32))))))
    (rowB g)) (rowB be)

/-! ## Read at an index -/

abbrev rowOf (x : A) (n : Fin 50000) : Spec.Row := fun k => x (ix2 n k)
abbrev vecOf (v : Vv) : Spec.Row := fun k => v (ix1 k)
abbrev matOf (w : W) : Spec.Mat := fun k j => w (ix2 k j)

theorem wide_apply (v : Col) (n : Fin 50000) (j : Fin 128) : wide v (ix2 n j) = v (ix2 n (0 : Fin 1)) :=
  bcast_col_wide_apply _ rfl rfl _ v n j
theorem col_apply (v : FVec Ideal S50000 .f32) (n : Fin 50000) (u : Fin 1) : col v (ix2 n u) = v (ix1 n) :=
  bcast_col_apply _ rfl _ v n u
theorem rowB_apply (v : Vv) (n : Fin 50000) (j : Fin 128) : rowB v (ix2 n j) = v (ix1 j) := by
  unfold rowB
  rw [bcast_row_wide_apply _ rfl rfl, bcast_row_apply _ rfl]
theorem den_apply (cnt : FVec Ideal S50000 .f32) (n : Fin 50000) : den cnt (ix1 n) = max (cnt (ix1 n)) Spec.one32 := by
  unfold den
  rw [maximumf_apply, bcast_scalar_apply]
  rfl

theorem sage_apply (s : A) (cnt : FVec Ideal S50000 .f32) (h : A) (wl wr : W) (b : Vv) (n : Fin 50000) (j : Fin 128) :
    sage s cnt h wl wr b (ix2 n j)
      = Spec.preRef (rowOf s n) (rowOf h n) (max (cnt (ix1 n)) Spec.one32) (matOf wl) (matOf wr) (vecOf b) j := by
  unfold sage Spec.preRef
  have hd : dot_S50000x128_S128x128_S50000x128_1_0_0_1_n_n = DotDims.plain 50000 128 128 := rfl
  rw [addf_apply, addf_apply, rowB_apply, hd, dotGeneral, dotGeneral, mm_apply, mm_apply]
  simp only [hostDivf_apply, wide_apply, col_apply, den_apply]

theorem relu_apply (x : A) (i : S50000x128.Idx) : relu x i = max (x i) Spec.zero32 := by
  unfold relu
  rw [maximumf_apply, bcast_scalar_apply]
  rfl

theorem rsum_apply (t : A) (n : Fin 50000) : rsum t (ix1 n) = ∑ k : Fin 128, t (ix2 n k) := by
  unfold rsum
  rw [host_row_sum t _ reducesTo_S50000x128_S50000_d1 h_S_ (by decide) n]
  show Ideal.ofBits .f32 0x00000000#32 + _ = _
  rw [Ideal.ofBits_zero_f32, zero_add]

theorem meanC_apply (t : A) (n : Fin 50000) (u : Fin 1) : meanC t (ix2 n u) = Spec.mean (rowOf t n) := by
  unfold meanC Spec.mean
  rw [hostDivf_apply, col_apply, rsum_apply, bcast_scalar_apply]
  rfl

theorem c128_eq : Spec.c128 = ((128 : ℝ) : EReal) := by
  show Ideal.ofBits .f32 0x43000000#32 = _
  simp [Ideal.ofBits, Ideal.ieee, -EReal.coe_mul]; norm_num

theorem nDiv_apply : nDiv ix0 = Spec.c128 := by
  unfold nDiv
  rw [subf_apply]
  show Spec.c128 - (((0#32 : BitVec 32).toInt : ℝ) : EReal) = _
  simp

theorem guard_true : cmpf .ogt nDiv (constant (F := Ideal) S_ .f32 0x00000000#32) ix0 = 1#1 := by
  rw [cmpf_apply, nDiv_apply]
  show Ideal.cmp .ogt Spec.c128 (Ideal.ofBits .f32 0x00000000#32) = 1#1
  rw [Ideal.ofBits_zero_f32, c128_eq]
  unfold Ideal.cmp
  simp

theorem varC_apply (t : A) (n : Fin 50000) (u : Fin 1) : varC t (ix2 n u) = Spec.var (rowOf t n) := by
  unfold varC
  rw [select_apply, bcast_scalar_apply, guard_true]
  show Host.divf _ _ (ix2 n u) = _
  rw [hostDivf_apply, col_apply, rsum_apply, bcast_scalar_apply, nDiv_apply]
  unfold Spec.var
  simp only [mulf_apply, subf_apply, wide_apply, meanC_apply]

theorem ln_apply (t : A) (g be : Vv) (n : Fin 50000) (j : Fin 128) :
    ln t g be (ix2 n j) = Spec.lnRow (rowOf t n) (vecOf g) (vecOf be) j := by
  unfold ln Spec.lnRow
  rw [addf_apply, mulf_apply, mulf_apply, subf_apply, wide_apply, meanC_apply, wide_apply, rowB_apply, rowB_apply]
  show _ * Ideal.rsqrt (addf (varC t) _ (ix2 n (0 : Fin 1))) * _ + _ = _
  rw [addf_apply, varC_apply, bcast_scalar_apply]
  rfl

/-- The first layer, at (n, j). -/
theorem layerA_apply (s : A) (cnt : FVec Ideal S50000 .f32) (h : A) (wl wr : W) (b g be : Vv) (n : Fin 50000) (j : Fin 128) :
    ln (relu (sage s cnt h wl wr b)) g be (ix2 n j)
      = Spec.layerA (rowOf s n) (rowOf h n) (max (cnt (ix1 n)) Spec.one32) (matOf wl) (matOf wr) (vecOf b) (vecOf g) (vecOf be) j := by
  rw [ln_apply]
  unfold Spec.layerA
  refine congrArg (fun T => Spec.lnRow T (vecOf g) (vecOf be) j) (funext fun k => ?_)
  show relu (sage s cnt h wl wr b) (ix2 n k) = _
  rw [relu_apply, sage_apply]

/-- A later layer with the input added after the rectifier, at (n, j). -/
theorem layerB_apply (s : A) (cnt : FVec Ideal S50000 .f32) (h : A) (wl wr : W) (b g be : Vv) (n : Fin 50000) (j : Fin 128) :
    ln (addf (relu (sage s cnt h wl wr b)) h) g be (ix2 n j)
      = Spec.layerB (rowOf s n) (rowOf h n) (max (cnt (ix1 n)) Spec.one32) (matOf wl) (matOf wr) (vecOf b) (vecOf g) (vecOf be) j := by
  rw [ln_apply]
  unfold Spec.layerB
  refine congrArg (fun T => Spec.lnRow T (vecOf g) (vecOf be) j) (funext fun k => ?_)
  show addf (relu (sage s cnt h wl wr b)) h (ix2 n k) = _
  rw [addf_apply, relu_apply, sage_apply]

/-- … and with the input added before it (the same value: addition commutes). -/
theorem layerB'_apply (s : A) (cnt : FVec Ideal S50000 .f32) (h : A) (wl wr : W) (b g be : Vv) (n : Fin 50000) (j : Fin 128) :
    ln (addf h (relu (sage s cnt h wl wr b))) g be (ix2 n j)
      = Spec.layerB (rowOf s n) (rowOf h n) (max (cnt (ix1 n)) Spec.one32) (matOf wl) (matOf wr) (vecOf b) (vecOf g) (vecOf be) j := by
  rw [ln_apply]
  unfold Spec.layerB
  refine congrArg (fun T => Spec.lnRow T (vecOf g) (vecOf be) j) (funext fun k => ?_)
  show addf h (relu (sage s cnt h wl wr b)) (ix2 n k) = _
  rw [addf_apply, relu_apply, sage_apply, add_comm]

end Cert.ReferenceIdeal.RefLayer

end
-- ==== Proof.RefRun.lean ====
/-
  The reference program as one straight line of host operations (the outlined functions — the rectifier, the
  variance and its guard — written out at their calls over each call's own buffers), and its run: every weakly fair
  execution ends with every buffer at the line's fold over the launch contents.
-/
import proofs.«159482_j24764781429188_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 260 operations, in order. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg3 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.binary main_arg0 main_arg4 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v27 main_v28 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v28) main_call0.v0 main_call0.v1 maximumf,
    StableHlo.nullary main_cst_4 (constant S_ .f32 0x00000000#32),
    StableHlo.binary main_v29 main_cst_4 main_v30 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v30 main_v31 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x43000000#32),
    StableHlo.unary main_cst_5 main_v32 (broadcastInDim S50000x1 ![] bcast_S_S50000x1 : (⟨S_, .f32⟩ : BufTy).Contents (Elt F) → (⟨S50000x1, .f32⟩ : BufTy).Contents (Elt F)),
    StableHlo.binary main_v31 main_v32 main_v33 (Host.divf : (⟨S50000x1, .f32⟩ : BufTy).Contents (Elt F) → (⟨S50000x1, .f32⟩ : BufTy).Contents (Elt F) → (⟨S50000x1, .f32⟩ : BufTy).Contents (Elt F)),
    StableHlo.nullary main_c_6 (constantI S_ 32 0#32),
    StableHlo.TRef.nullary main_call1.cst (constant S_ .f32 0x00000000#32),
    StableHlo.TRef.binary (.of main_v29) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v29) main_call1.v4 main_call1.v5 subf,
    StableHlo.TRef.binary main_call1.v5 main_call1.v5 main_call1.v6 mulf,
    StableHlo.TRef.unary (.of main_c_6) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b),
    StableHlo.unary main_v33 main_v35 (broadcastInDim S50000x128 ![0, 1] bcast_S50000x1_S50000x128_0_1 : (⟨S50000x1, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v37 (broadcastInDim S50000x1 ![] bcast_S_S50000x1 : (⟨S_, .f32⟩ : BufTy).Contents (Elt F) → (⟨S50000x1, .f32⟩ : BufTy).Contents (Elt F)),
    StableHlo.binary main_v34 main_v37 main_v38 (addf : (⟨S50000x1, .f32⟩ : BufTy).Contents (Elt F) → (⟨S50000x1, .f32⟩ : BufTy).Contents (Elt F) → (⟨S50000x1, .f32⟩ : BufTy).Contents (Elt F)),
    StableHlo.unary main_v38 main_v39 (Host.rsqrt : (⟨S50000x1, .f32⟩ : BufTy).Contents (Elt F) → (⟨S50000x1, .f32⟩ : BufTy).Contents (Elt F)),
    StableHlo.unary main_v39 main_v40 (broadcastInDim S50000x128 ![0, 1] bcast_S50000x1_S50000x128_0_1 : (⟨S50000x1, .f32⟩ : BufTy).Contents (Elt F) → (⟨S50000x128, .f32⟩ : BufTy).Contents (Elt F)),
    StableHlo.binary main_v36 main_v40 main_v41 (mulf : (⟨S50000x128, .f32⟩ : BufTy).Contents (Elt F) → (⟨S50000x128, .f32⟩ : BufTy).Contents (Elt F) → (⟨S50000x128, .f32⟩ : BufTy).Contents (Elt F)),
    StableHlo.unary main_arg6 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg7 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)),
    StableHlo.nullary main_c_8 (constantI S_ 32 0#32),
    StableHlo.unary main_c_8 main_v48 (broadcastInDim S800000 ![] bcast_S_S800000 : (⟨S_, .i32⟩ : BufTy).Contents (Elt F) → (⟨S800000, .i32⟩ : BufTy).Contents (Elt F)),
    StableHlo.binary main_v1 main_v48 main_v49 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v50 (broadcastInDim S800000 ![] bcast_S_S800000 : (⟨S_, .i32⟩ : BufTy).Contents (Elt F) → (⟨S800000, .i32⟩ : BufTy).Contents (Elt F)),
    StableHlo.binary main_v1 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v1 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.binary main_v47 main_v53 main_v54 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v55 (broadcastInDim S50000x128 ![] bcast_S_S50000x128 : (⟨S_, .f32⟩ : BufTy).Contents (Elt F) → (⟨S50000x128, .f32⟩ : BufTy).Contents (Elt F)),
    StableHlo.unary main_v3 main_v56 (broadcastInDim S800000x1 ![0] bcast_S800000_S800000x1_0 : (⟨S800000, .i32⟩ : BufTy).Contents (Elt F) → (⟨S800000x1, .i32⟩ : BufTy).Contents (Elt F)),
    StableHlo.ternary main_v55 main_v56 main_v54 main_v57 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v58 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v59 (broadcastInDim S50000 ![] bcast_S_S50000 : (⟨S_, .f32⟩ : BufTy).Contents (Elt F) → (⟨S50000, .f32⟩ : BufTy).Contents (Elt F)),
    StableHlo.unary main_v3 main_v60 (broadcastInDim S800000x1 ![0] bcast_S800000_S800000x1_0 : (⟨S800000, .i32⟩ : BufTy).Contents (Elt F) → (⟨S800000x1, .i32⟩ : BufTy).Contents (Elt F)),
    StableHlo.ternary main_v59 main_v60 main_v58 main_v61 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v62 (broadcastInDim S50000 ![] bcast_S_S50000 : (⟨S_, .f32⟩ : BufTy).Contents (Elt F) → (⟨S50000, .f32⟩ : BufTy).Contents (Elt F)),
    StableHlo.binary main_v61 main_v62 main_v63 (maximumf : (⟨S50000, .f32⟩ : BufTy).Contents (Elt F) → (⟨S50000, .f32⟩ : BufTy).Contents (Elt F) → (⟨S50000, .f32⟩ : BufTy).Contents (Elt F)),
    StableHlo.unary main_v63 main_v64 (broadcastInDim S50000x1 ![0] bcast_S50000_S50000x1_0 : (⟨S50000, .f32⟩ : BufTy).Contents (Elt F) → (⟨S50000x1, .f32⟩ : BufTy).Contents (Elt F)),
    StableHlo.unary main_v64 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_v57 main_v65 main_v66 (Host.divf : (⟨S50000x128, .f32⟩ : BufTy).Contents (Elt F) → (⟨S50000x128, .f32⟩ : BufTy).Contents (Elt F) → (⟨S50000x128, .f32⟩ : BufTy).Contents (Elt F)),
    StableHlo.binary main_v66 main_arg8 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.binary main_v47 main_arg9 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v71 main_v72 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v72) main_call2.v0 main_call2.v1 maximumf,
    StableHlo.binary main_v73 main_v47 main_v74 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v74 main_cst_14 main_v75 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v75 main_v76 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x43000000#32),
    StableHlo.unary main_cst_15 main_v77 (broadcastInDim S50000x1 ![] bcast_S_S50000x1 : (⟨S_, .f32⟩ : BufTy).Contents (Elt F) → (⟨S50000x1, .f32⟩ : BufTy).Contents (Elt F)),
    StableHlo.binary main_v76 main_v77 main_v78 (Host.divf : (⟨S50000x1, .f32⟩ : BufTy).Contents (Elt F) → (⟨S50000x1, .f32⟩ : BufTy).Contents (Elt F) → (⟨S50000x1, .f32⟩ : BufTy).Contents (Elt F)),
    StableHlo.nullary main_c_16 (constantI S_ 32 0#32),
    StableHlo.TRef.nullary main_call3.cst (constant S_ .f32 0x00000000#32),
    StableHlo.TRef.binary (.of main_v74) main_call3.cst main_call3.v0 (fun x v => Host.reduceAdd x v reducesTo_S50000x128_S50000_d1 h_S_),
    StableHlo.TRef.unary main_call3.v0 main_call3.v1 (broadcastInDim S50000x1 ![0] bcast_S50000_S50000x1_0),
    StableHlo.TRef.nullary main_call3.cst_0 (constant S_ .f32 0x43000000#32),
    StableHlo.TRef.unary main_call3.cst_0 main_call3.v2 (broadcastInDim S50000x1 ![] bcast_S_S50000x1),
    StableHlo.TRef.binary main_call3.v1 main_call3.v2 main_call3.v3 Host.divf,
    StableHlo.TRef.unary main_call3.v3 main_call3.v4 (broadcastInDim S50000x128 ![0, 1] bcast_S50000x1_S50000x128_0_1),
    StableHlo.TRef.binary (.of main_v74) main_call3.v4 main_call3.v5 subf,
    StableHlo.TRef.binary main_call3.v5 main_call3.v5 main_call3.v6 mulf,
    StableHlo.TRef.unary (.of main_c_16) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S50000_d1 h_S_),
    StableHlo.TRef.unary main_call3.v9 main_call3.v10 (broadcastInDim S50000x1 ![0] bcast_S50000_S50000x1_0),
    StableHlo.TRef.unary main_call3.v8 main_call3.v11 (broadcastInDim S50000x1 ![] bcast_S_S50000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S50000x1 ![] bcast_S_S50000x1),
    StableHlo.TRef.ternary main_call3.v13 main_call3.v12 main_call3.call0.v1 main_call3.call0.v2 (fun p a b => select (broadcastInDim S50000x1 ![] bcast_S_S50000x1 p) a b),
    StableHlo.unary main_v78 main_v80 (broadcastInDim S50000x128 ![0, 1] bcast_S50000x1_S50000x128_0_1 : (⟨S50000x1, .f32⟩ : BufTy).Contents (Elt F) → (⟨S50000x128, .f32⟩ : BufTy).Contents (Elt F)),
    StableHlo.binary main_v74 main_v80 main_v81 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v82 (broadcastInDim S50000x1 ![] bcast_S_S50000x1 : (⟨S_, .f32⟩ : BufTy).Contents (Elt F) → (⟨S50000x1, .f32⟩ : BufTy).Contents (Elt F)),
    StableHlo.binary main_v79 main_v82 main_v83 (addf : (⟨S50000x1, .f32⟩ : BufTy).Contents (Elt F) → (⟨S50000x1, .f32⟩ : BufTy).Contents (Elt F) → (⟨S50000x1, .f32⟩ : BufTy).Contents (Elt F)),
    StableHlo.unary main_v83 main_v84 (Host.rsqrt : (⟨S50000x1, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v81 main_v85 main_v86 (mulf : (⟨S50000x128, .f32⟩ : BufTy).Contents (Elt F) → (⟨S50000x128, .f32⟩ : BufTy).Contents (Elt F) → (⟨S50000x128, .f32⟩ : BufTy).Contents (Elt F)),
    StableHlo.unary main_arg11 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_arg12 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (addf : (⟨S50000x128, .f32⟩ : BufTy).Contents (Elt F) → (⟨S50000x128, .f32⟩ : BufTy).Contents (Elt F) → (⟨S50000x128, .f32⟩ : BufTy).Contents (Elt F)),
    StableHlo.nullary main_c_18 (constantI S_ 32 0#32),
    StableHlo.unary main_c_18 main_v93 (broadcastInDim S800000 ![] bcast_S_S800000 : (⟨S_, .i32⟩ : BufTy).Contents (Elt F) → (⟨S800000, .i32⟩ : BufTy).Contents (Elt F)),
    StableHlo.binary main_v1 main_v93 main_v94 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v95 (broadcastInDim S800000 ![] bcast_S_S800000 : (⟨S_, .i32⟩ : BufTy).Contents (Elt F) → (⟨S800000, .i32⟩ : BufTy).Contents (Elt F)),
    StableHlo.binary main_v1 main_v95 main_v96 (addi : (⟨S800000, .i32⟩ : BufTy).Contents (Elt F) → (⟨S800000, .i32⟩ : BufTy).Contents (Elt F) → (⟨S800000, .i32⟩ : BufTy).Contents (Elt F)),
    StableHlo.ternary main_v94 main_v96 main_v1 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v97 main_v98 (broadcastInDim S800000x1 ![0] bcast_S800000_S800000x1_0 : (⟨S800000, .i32⟩ : BufTy).Contents (Elt F) → (⟨S800000x1, .i32⟩ : BufTy).Contents (Elt F)),
    StableHlo.binary main_v92 main_v98 main_v99 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v100 (broadcastInDim S50000x128 ![] bcast_S_S50000x128 : (⟨S_, .f32⟩ : BufTy).Contents (Elt F) → (⟨S50000x128, .f32⟩ : BufTy).Contents (Elt F)),
    StableHlo.unary main_v3 main_v101 (broadcastInDim S800000x1 ![0] bcast_S800000_S800000x1_0 : (⟨S800000, .i32⟩ : BufTy).Contents (Elt F) → (⟨S800000x1, .i32⟩ : BufTy).Contents (Elt F)),
    StableHlo.ternary main_v100 main_v101 main_v99 main_v102 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_21 (constant S_ .f32 0x3F800000#32),
    StableHlo.unary main_cst_21 main_v103 (broadcastInDim S800000 ![] bcast_S_S800000 : (⟨S_, .f32⟩ : BufTy).Contents (Elt F) → (⟨S800000, .f32⟩ : BufTy).Contents (Elt F)),
    StableHlo.nullary main_cst_22 (constant S_ .f32 0x00000000#32),
    StableHlo.unary main_cst_22 main_v104 (broadcastInDim S50000 ![] bcast_S_S50000 : (⟨S_, .f32⟩ : BufTy).Contents (Elt F) → (⟨S50000, .f32⟩ : BufTy).Contents (Elt F)),
    StableHlo.unary main_v3 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_23 (constant S_ .f32 0x3F800000#32),
    StableHlo.unary main_cst_23 main_v107 (broadcastInDim S50000 ![] bcast_S_S50000 : (⟨S_, .f32⟩ : BufTy).Contents (Elt F) → (⟨S50000, .f32⟩ : BufTy).Contents (Elt F)),
    StableHlo.binary main_v106 main_v107 main_v108 (maximumf : (⟨S50000, .f32⟩ : BufTy).Contents (Elt F) → (⟨S50000, .f32⟩ : BufTy).Contents (Elt F) → (⟨S50000, .f32⟩ : BufTy).Contents (Elt F)),
    StableHlo.unary main_v108 main_v109 (broadcastInDim S50000x1 ![0] bcast_S50000_S50000x1_0 : (⟨S50000, .f32⟩ : BufTy).Contents (Elt F) → (⟨S50000x1, .f32⟩ : BufTy).Contents (Elt F)),
    StableHlo.unary main_v109 main_v110 (broadcastInDim S50000x128 ![0, 1] bcast_S50000x1_S50000x128_0_1 : (⟨S50000x1, .f32⟩ : BufTy).Contents (Elt F) → (⟨S50000x128, .f32⟩ : BufTy).Contents (Elt F)),
    StableHlo.binary main_v102 main_v110 main_v111 (Host.divf : (⟨S50000x128, .f32⟩ : BufTy).Contents (Elt F) → (⟨S50000x128, .f32⟩ : BufTy).Contents (Elt F) → (⟨S50000x128, .f32⟩ : BufTy).Contents (Elt F)),
    StableHlo.binary main_v111 main_arg13 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v114 main_v115 (addf : (⟨S50000x128, .f32⟩ : BufTy).Contents (Elt F) → (⟨S50000x128, .f32⟩ : BufTy).Contents (Elt F) → (⟨S50000x128, .f32⟩ : BufTy).Contents (Elt F)),
    StableHlo.binary main_v92 main_arg14 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v115 main_v116 main_v117 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v117) main_call4.v0 main_call4.v1 maximumf,
    StableHlo.binary main_v92 main_v118 main_v119 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.binary main_v119 main_cst_24 main_v120 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v120 main_v121 (broadcastInDim S50000x1 ![0] bcast_S50000_S50000x1_0 : (⟨S50000, .f32⟩ : BufTy).Contents (Elt F) → (⟨S50000x1, .f32⟩ : BufTy).Contents (Elt F)),
    StableHlo.nullary main_cst_25 (constant S_ .f32 0x43000000#32),
    StableHlo.unary main_cst_25 main_v122 (broadcastInDim S50000x1 ![] bcast_S_S50000x1 : (⟨S_, .f32⟩ : BufTy).Contents (Elt F) → (⟨S50000x1, .f32⟩ : BufTy).Contents (Elt F)),
    StableHlo.binary main_v121 main_v122 main_v123 (Host.divf : (⟨S50000x1, .f32⟩ : BufTy).Contents (Elt F) → (⟨S50000x1, .f32⟩ : BufTy).Contents (Elt F) → (⟨S50000x1, .f32⟩ : BufTy).Contents (Elt F)),
    StableHlo.nullary main_c_26 (constantI S_ 32 0#32),
    StableHlo.TRef.nullary main_call5.cst (constant S_ .f32 0x00000000#32),
    StableHlo.TRef.binary (.of main_v119) main_call5.cst main_call5.v0 (fun x v => Host.reduceAdd x v reducesTo_S50000x128_S50000_d1 h_S_),
    StableHlo.TRef.unary main_call5.v0 main_call5.v1 (broadcastInDim S50000x1 ![0] bcast_S50000_S50000x1_0),
    StableHlo.TRef.nullary main_call5.cst_0 (constant S_ .f32 0x43000000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x128 ![0, 1] bcast_S50000x1_S50000x128_0_1),
    StableHlo.TRef.binary (.of main_v119) main_call5.v4 main_call5.v5 subf,
    StableHlo.TRef.binary main_call5.v5 main_call5.v5 main_call5.v6 mulf,
    StableHlo.TRef.unary (.of main_c_26) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b),
    StableHlo.unary main_v123 main_v125 (broadcastInDim S50000x128 ![0, 1] bcast_S50000x1_S50000x128_0_1 : (⟨S50000x1, .f32⟩ : BufTy).Contents (Elt F) → (⟨S50000x128, .f32⟩ : BufTy).Contents (Elt F)),
    StableHlo.binary main_v119 main_v125 main_v126 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v127 (broadcastInDim S50000x1 ![] bcast_S_S50000x1 : (⟨S_, .f32⟩ : BufTy).Contents (Elt F) → (⟨S50000x1, .f32⟩ : BufTy).Contents (Elt F)),
    StableHlo.binary main_v124 main_v127 main_v128 (addf : (⟨S50000x1, .f32⟩ : BufTy).Contents (Elt F) → (⟨S50000x1, .f32⟩ : BufTy).Contents (Elt F) → (⟨S50000x1, .f32⟩ : BufTy).Contents (Elt F)),
    StableHlo.unary main_v128 main_v129 (Host.rsqrt : (⟨S50000x1, .f32⟩ : BufTy).Contents (Elt F) → (⟨S50000x1, .f32⟩ : BufTy).Contents (Elt F)),
    StableHlo.unary main_v129 main_v130 (broadcastInDim S50000x128 ![0, 1] bcast_S50000x1_S50000x128_0_1 : (⟨S50000x1, .f32⟩ : BufTy).Contents (Elt F) → (⟨S50000x128, .f32⟩ : BufTy).Contents (Elt F)),
    StableHlo.binary main_v126 main_v130 main_v131 (mulf : (⟨S50000x128, .f32⟩ : BufTy).Contents (Elt F) → (⟨S50000x128, .f32⟩ : BufTy).Contents (Elt F) → (⟨S50000x128, .f32⟩ : BufTy).Contents (Elt F)),
    StableHlo.unary main_arg16 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_arg17 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x00000000#32),
    StableHlo.unary main_cst_28 main_v138 (broadcastInDim S512x128 ![] bcast_S_S512x128 : (⟨S_, .f32⟩ : BufTy).Contents (Elt F) → (⟨S512x128, .f32⟩ : BufTy).Contents (Elt F)),
    StableHlo.unary main_arg2 main_v139 (broadcastInDim S50000x1 ![0] bcast_S50000_S50000x1_0 : (⟨S50000, .i32⟩ : BufTy).Contents (Elt F) → (⟨S50000x1, .i32⟩ : BufTy).Contents (Elt F)),
    StableHlo.ternary main_v138 main_v139 main_v137 main_v140 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_29 (constant S_ .f32 0x3F800000#32),
    StableHlo.unary main_cst_29 main_v141 (broadcastInDim S50000 ![] bcast_S_S50000 : (⟨S_, .f32⟩ : BufTy).Contents (Elt F) → (⟨S50000, .f32⟩ : BufTy).Contents (Elt F)),
    StableHlo.nullary main_cst_30 (constant S_ .f32 0x00000000#32),
    StableHlo.unary main_cst_30 main_v142 (broadcastInDim S512 ![] bcast_S_S512 : (⟨S_, .f32⟩ : BufTy).Contents (Elt F) → (⟨S512, .f32⟩ : BufTy).Contents (Elt F)),
    StableHlo.unary main_arg2 main_v143 (broadcastInDim S50000x1 ![0] bcast_S50000_S50000x1_0 : (⟨S50000, .i32⟩ : BufTy).Contents (Elt F) → (⟨S50000x1, .i32⟩ : BufTy).Contents (Elt F)),
    StableHlo.ternary main_v142 main_v143 main_v141 main_v144 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_31 (constant S_ .f32 0x3F800000#32),
    StableHlo.unary main_cst_31 main_v145 (broadcastInDim S512 ![] bcast_S_S512 : (⟨S_, .f32⟩ : BufTy).Contents (Elt F) → (⟨S512, .f32⟩ : BufTy).Contents (Elt F)),
    StableHlo.binary main_v144 main_v145 main_v146 (maximumf : (⟨S512, .f32⟩ : BufTy).Contents (Elt F) → (⟨S512, .f32⟩ : BufTy).Contents (Elt F) → (⟨S512, .f32⟩ : BufTy).Contents (Elt F)),
    StableHlo.unary main_v146 main_v147 (broadcastInDim S512x1 ![0] bcast_S512_S512x1_0 : (⟨S512, .f32⟩ : BufTy).Contents (Elt F) → (⟨S512x1, .f32⟩ : BufTy).Contents (Elt F)),
    StableHlo.unary main_v147 main_v148 (broadcastInDim S512x128 ![0, 1] bcast_S512x1_S512x128_0_1 : (⟨S512x1, .f32⟩ : BufTy).Contents (Elt F) → (⟨S512x128, .f32⟩ : BufTy).Contents (Elt F)),
    StableHlo.binary main_v140 main_v148 main_v149 (Host.divf : (⟨S512x128, .f32⟩ : BufTy).Contents (Elt F) → (⟨S512x128, .f32⟩ : BufTy).Contents (Elt F) → (⟨S512x128, .f32⟩ : BufTy).Contents (Elt F)),
    StableHlo.binary main_v149 main_arg18 main_v150 ((fun l r => Host.dotGeneral dot_S512x128_S128x2_S512x2_1_0_0_1_n_n none l r) : (⟨S512x128, .f32⟩ : BufTy).Contents (Elt F) → (⟨S128x2, .f32⟩ : BufTy).Contents (Elt F) → (⟨S512x2, .f32⟩ : BufTy).Contents (Elt F)),
    StableHlo.unary main_arg19 main_v151 (broadcastInDim S1x2 ![1] bcast_S2_S1x2_1 : (⟨S2, .f32⟩ : BufTy).Contents (Elt F) → (⟨S1x2, .f32⟩ : BufTy).Contents (Elt F)),
    StableHlo.unary main_v151 main_v152 (broadcastInDim S512x2 ![0, 1] bcast_S1x2_S512x2_0_1 : (⟨S1x2, .f32⟩ : BufTy).Contents (Elt F) → (⟨S512x2, .f32⟩ : BufTy).Contents (Elt F)),
    StableHlo.binary main_v150 main_v152 main_v153 (addf : (⟨S512x2, .f32⟩ : BufTy).Contents (Elt F) → (⟨S512x2, .f32⟩ : BufTy).Contents (Elt F) → (⟨S512x2, .f32⟩ : BufTy).Contents (Elt F)) ]

set_option maxRecDepth 65536 in
set_option maxHeartbeats 4000000 in
/-- The printed program is that line: the functions' bodies unfolded at their calls, sequencing reassociated. -/
theorem main_eq (c : Dev nD) : main (F := F) c = seq ops := by
  simp only [main, main_part0, main_part1, main_part2, main_part3, fn_relu.body, fn_where.body, fn_var.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-- From any memory with zero counters every weakly fair execution of the program ends, nothing faulting, with
    each TensorCore buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibHostLine.lean ====
/-
  Reading a long straight line of host operations back as one function.

  The contents of a buffer after a line of operations is a fold: each operation rewrites the buffers it writes and
  leaves the rest.  Two facts make a line of several hundred operations readable in one pass.

  * `after_append`: the fold over a concatenation is the fold over the second list started from what the first
    left — so a line may be stated in pieces and still read as a whole.

  * `cast_same`: an operation inside an outlined function is stated at the type of the tensor value and moved to
    its buffer's own type along an equation between the two types; for a literal buffer the two types are the same
    type, and the transport is the identity.  Stated as a propositional equation (not unfolded), it lets one
    rewriting pass strip every such transport from the composed term, after which the term is, operation for
    operation, the specification's term and the two are compared structurally.

  Recipe, for a goal  `after <literal list> W b = spec (W a₁) … (W aₙ)`  over any contents `W`: expose the list's
  conses, rewrite every operation's result at its own buffer and skip it at any other (the library's one-pass
  result rewriting), rewrite with `cast_same`, and close by reflexivity — the specification's definitions unfold by
  themselves.
-/
import Idealize.ShloMosaic.Lib.StableHlo.Run

noncomputable section

namespace Cert.Lib.HostLine

open Idealize.ShloMosaic Idealize.ShloMosaic.StableHlo

variable {τ : Topo} {sig : RefSig} {Val : EltTy → Type}

/-- Running two lists one after the other is running the first, then the second from what it left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Transport along an equation of a type with itself is the identity. -/
theorem cast_same {α : Type} (h : α = α) (a : α) : cast h a = a := eq_of_heq (cast_heq h a)

end Cert.Lib.HostLine

end
-- ==== Proof.RefVal.lean ====
/-
  The reference's line of operations cut at the layer boundaries into four segments, the named whole-array functions
  of its host operations (edge indices, summed neighbour features, neighbour count, pooled mean, read-out), and each
  segment read back as those functions of the buffers it starts from.
-/
import proofs.«159482_j24764781429188_2_alg».proof.Proof.RefRun
import proofs.«159482_j24764781429188_2_alg».proof.Proof.RefLayer
import proofs.«159482_j24764781429188_2_alg».proof.Proof.LibHostLine

noncomputable section

namespace Cert.ReferenceIdeal.RefVal

open Cert.ReferenceIdeal Cert.ReferenceIdeal.Gen Cert.ReferenceIdeal.RefRun Cert.ReferenceIdeal.RefLayer
open Idealize.ShloMosaic Idealize.ShloMosaic.TcCoe Idealize.SL.Sem Idealize.ShloMosaic.StableHlo Cert.Lib.HostLine

variable {F : FTy → Type} [FloatOps F]

/-- Segment 1: the indices and the first layer. -/
abbrev seg1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg3 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.binary main_arg0 main_arg4 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v27 main_v28 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v28) main_call0.v0 main_call0.v1 maximumf,
    StableHlo.nullary main_cst_4 (constant S_ .f32 0x00000000#32),
    StableHlo.binary main_v29 main_cst_4 main_v30 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v30 main_v31 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x43000000#32),
    StableHlo.unary main_cst_5 main_v32 (broadcastInDim S50000x1 ![] bcast_S_S50000x1 : (⟨S_, .f32⟩ : BufTy).Contents (Elt F) → (⟨S50000x1, .f32⟩ : BufTy).Contents (Elt F)),
    StableHlo.binary main_v31 main_v32 main_v33 (Host.divf : (⟨S50000x1, .f32⟩ : BufTy).Contents (Elt F) → (⟨S50000x1, .f32⟩ : BufTy).Contents (Elt F) → (⟨S50000x1, .f32⟩ : BufTy).Contents (Elt F)),
    StableHlo.nullary main_c_6 (constantI S_ 32 0#32),
    StableHlo.TRef.nullary main_call1.cst (constant S_ .f32 0x00000000#32),
    StableHlo.TRef.binary (.of main_v29) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v29) main_call1.v4 main_call1.v5 subf,
    StableHlo.TRef.binary main_call1.v5 main_call1.v5 main_call1.v6 mulf,
    StableHlo.TRef.unary (.of main_c_6) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b),
    StableHlo.unary main_v33 main_v35 (broadcastInDim S50000x128 ![0, 1] bcast_S50000x1_S50000x128_0_1 : (⟨S50000x1, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v37 (broadcastInDim S50000x1 ![] bcast_S_S50000x1 : (⟨S_, .f32⟩ : BufTy).Contents (Elt F) → (⟨S50000x1, .f32⟩ : BufTy).Contents (Elt F)),
    StableHlo.binary main_v34 main_v37 main_v38 (addf : (⟨S50000x1, .f32⟩ : BufTy).Contents (Elt F) → (⟨S50000x1, .f32⟩ : BufTy).Contents (Elt F) → (⟨S50000x1, .f32⟩ : BufTy).Contents (Elt F)),
    StableHlo.unary main_v38 main_v39 (Host.rsqrt : (⟨S50000x1, .f32⟩ : BufTy).Contents (Elt F) → (⟨S50000x1, .f32⟩ : BufTy).Contents (Elt F)),
    StableHlo.unary main_v39 main_v40 (broadcastInDim S50000x128 ![0, 1] bcast_S50000x1_S50000x128_0_1 : (⟨S50000x1, .f32⟩ : BufTy).Contents (Elt F) → (⟨S50000x128, .f32⟩ : BufTy).Contents (Elt F)),
    StableHlo.binary main_v36 main_v40 main_v41 (mulf : (⟨S50000x128, .f32⟩ : BufTy).Contents (Elt F) → (⟨S50000x128, .f32⟩ : BufTy).Contents (Elt F) → (⟨S50000x128, .f32⟩ : BufTy).Contents (Elt F)),
    StableHlo.unary main_arg6 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_arg7 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)) ]

/-- Segment 2: the second layer. -/
abbrev seg2 : List (HloOp τ sig (Elt F)) :=
  [ StableHlo.nullary main_c_8 (constantI S_ 32 0#32),
    StableHlo.unary main_c_8 main_v48 (broadcastInDim S800000 ![] bcast_S_S800000 : (⟨S_, .i32⟩ : BufTy).Contents (Elt F) → (⟨S800000, .i32⟩ : BufTy).Contents (Elt F)),
    StableHlo.binary main_v1 main_v48 main_v49 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v50 (broadcastInDim S800000 ![] bcast_S_S800000 : (⟨S_, .i32⟩ : BufTy).Contents (Elt F) → (⟨S800000, .i32⟩ : BufTy).Contents (Elt F)),
    StableHlo.binary main_v1 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v1 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.binary main_v47 main_v53 main_v54 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v55 (broadcastInDim S50000x128 ![] bcast_S_S50000x128 : (⟨S_, .f32⟩ : BufTy).Contents (Elt F) → (⟨S50000x128, .f32⟩ : BufTy).Contents (Elt F)),
    StableHlo.unary main_v3 main_v56 (broadcastInDim S800000x1 ![0] bcast_S800000_S800000x1_0 : (⟨S800000, .i32⟩ : BufTy).Contents (Elt F) → (⟨S800000x1, .i32⟩ : BufTy).Contents (Elt F)),
    StableHlo.ternary main_v55 main_v56 main_v54 main_v57 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v58 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v59 (broadcastInDim S50000 ![] bcast_S_S50000 : (⟨S_, .f32⟩ : BufTy).Contents (Elt F) → (⟨S50000, .f32⟩ : BufTy).Contents (Elt F)),
    StableHlo.unary main_v3 main_v60 (broadcastInDim S800000x1 ![0] bcast_S800000_S800000x1_0 : (⟨S800000, .i32⟩ : BufTy).Contents (Elt F) → (⟨S800000x1, .i32⟩ : BufTy).Contents (Elt F)),
    StableHlo.ternary main_v59 main_v60 main_v58 main_v61 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v62 (broadcastInDim S50000 ![] bcast_S_S50000 : (⟨S_, .f32⟩ : BufTy).Contents (Elt F) → (⟨S50000, .f32⟩ : BufTy).Contents (Elt F)),
    StableHlo.binary main_v61 main_v62 main_v63 (maximumf : (⟨S50000, .f32⟩ : BufTy).Contents (Elt F) → (⟨S50000, .f32⟩ : BufTy).Contents (Elt F) → (⟨S50000, .f32⟩ : BufTy).Contents (Elt F)),
    StableHlo.unary main_v63 main_v64 (broadcastInDim S50000x1 ![0] bcast_S50000_S50000x1_0 : (⟨S50000, .f32⟩ : BufTy).Contents (Elt F) → (⟨S50000x1, .f32⟩ : BufTy).Contents (Elt F)),
    StableHlo.unary main_v64 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_v57 main_v65 main_v66 (Host.divf : (⟨S50000x128, .f32⟩ : BufTy).Contents (Elt F) → (⟨S50000x128, .f32⟩ : BufTy).Contents (Elt F) → (⟨S50000x128, .f32⟩ : BufTy).Contents (Elt F)),
    StableHlo.binary main_v66 main_arg8 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.binary main_v47 main_arg9 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v71 main_v72 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v72) main_call2.v0 main_call2.v1 maximumf,
    StableHlo.binary main_v73 main_v47 main_v74 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v74 main_cst_14 main_v75 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v75 main_v76 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x43000000#32),
    StableHlo.unary main_cst_15 main_v77 (broadcastInDim S50000x1 ![] bcast_S_S50000x1 : (⟨S_, .f32⟩ : BufTy).Contents (Elt F) → (⟨S50000x1, .f32⟩ : BufTy).Contents (Elt F)),
    StableHlo.binary main_v76 main_v77 main_v78 (Host.divf : (⟨S50000x1, .f32⟩ : BufTy).Contents (Elt F) → (⟨S50000x1, .f32⟩ : BufTy).Contents (Elt F) → (⟨S50000x1, .f32⟩ : BufTy).Contents (Elt F)),
    StableHlo.nullary main_c_16 (constantI S_ 32 0#32),
    StableHlo.TRef.nullary main_call3.cst (constant S_ .f32 0x00000000#32),
    StableHlo.TRef.binary (.of main_v74) main_call3.cst main_call3.v0 (fun x v => Host.reduceAdd x v reducesTo_S50000x128_S50000_d1 h_S_),
    StableHlo.TRef.unary main_call3.v0 main_call3.v1 (broadcastInDim S50000x1 ![0] bcast_S50000_S50000x1_0),
    StableHlo.TRef.nullary main_call3.cst_0 (constant S_ .f32 0x43000000#32),
    StableHlo.TRef.unary main_call3.cst_0 main_call3.v2 (broadcastInDim S50000x1 ![] bcast_S_S50000x1),
    StableHlo.TRef.binary main_call3.v1 main_call3.v2 main_call3.v3 Host.divf,
    StableHlo.TRef.unary main_call3.v3 main_call3.v4 (broadcastInDim S50000x128 ![0, 1] bcast_S50000x1_S50000x128_0_1),
    StableHlo.TRef.binary (.of main_v74) main_call3.v4 main_call3.v5 subf,
    StableHlo.TRef.binary main_call3.v5 main_call3.v5 main_call3.v6 mulf,
    StableHlo.TRef.unary (.of main_c_16) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S50000_d1 h_S_),
    StableHlo.TRef.unary main_call3.v9 main_call3.v10 (broadcastInDim S50000x1 ![0] bcast_S50000_S50000x1_0),
    StableHlo.TRef.unary main_call3.v8 main_call3.v11 (broadcastInDim S50000x1 ![] bcast_S_S50000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S50000x1 ![] bcast_S_S50000x1),
    StableHlo.TRef.ternary main_call3.v13 main_call3.v12 main_call3.call0.v1 main_call3.call0.v2 (fun p a b => select (broadcastInDim S50000x1 ![] bcast_S_S50000x1 p) a b),
    StableHlo.unary main_v78 main_v80 (broadcastInDim S50000x128 ![0, 1] bcast_S50000x1_S50000x128_0_1 : (⟨S50000x1, .f32⟩ : BufTy).Contents (Elt F) → (⟨S50000x128, .f32⟩ : BufTy).Contents (Elt F)),
    StableHlo.binary main_v74 main_v80 main_v81 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v82 (broadcastInDim S50000x1 ![] bcast_S_S50000x1 : (⟨S_, .f32⟩ : BufTy).Contents (Elt F) → (⟨S50000x1, .f32⟩ : BufTy).Contents (Elt F)),
    StableHlo.binary main_v79 main_v82 main_v83 (addf : (⟨S50000x1, .f32⟩ : BufTy).Contents (Elt F) → (⟨S50000x1, .f32⟩ : BufTy).Contents (Elt F) → (⟨S50000x1, .f32⟩ : BufTy).Contents (Elt F)),
    StableHlo.unary main_v83 main_v84 (Host.rsqrt : (⟨S50000x1, .f32⟩ : BufTy).Contents (Elt F) → (⟨S50000x1, .f32⟩ : BufTy).Contents (Elt F)),
    StableHlo.unary main_v84 main_v85 (broadcastInDim S50000x128 ![0, 1] bcast_S50000x1_S50000x128_0_1 : (⟨S50000x1, .f32⟩ : BufTy).Contents (Elt F) → (⟨S50000x128, .f32⟩ : BufTy).Contents (Elt F)),
    StableHlo.binary main_v81 main_v85 main_v86 (mulf : (⟨S50000x128, .f32⟩ : BufTy).Contents (Elt F) → (⟨S50000x128, .f32⟩ : BufTy).Contents (Elt F) → (⟨S50000x128, .f32⟩ : BufTy).Contents (Elt F)),
    StableHlo.unary main_arg11 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_arg12 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (addf : (⟨S50000x128, .f32⟩ : BufTy).Contents (Elt F) → (⟨S50000x128, .f32⟩ : BufTy).Contents (Elt F) → (⟨S50000x128, .f32⟩ : BufTy).Contents (Elt F)) ]

/-- Segment 3: the third layer. -/
abbrev seg3 : List (HloOp τ sig (Elt F)) :=
  [ StableHlo.nullary main_c_18 (constantI S_ 32 0#32),
    StableHlo.unary main_c_18 main_v93 (broadcastInDim S800000 ![] bcast_S_S800000 : (⟨S_, .i32⟩ : BufTy).Contents (Elt F) → (⟨S800000, .i32⟩ : BufTy).Contents (Elt F)),
    StableHlo.binary main_v1 main_v93 main_v94 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v95 (broadcastInDim S800000 ![] bcast_S_S800000 : (⟨S_, .i32⟩ : BufTy).Contents (Elt F) → (⟨S800000, .i32⟩ : BufTy).Contents (Elt F)),
    StableHlo.binary main_v1 main_v95 main_v96 (addi : (⟨S800000, .i32⟩ : BufTy).Contents (Elt F) → (⟨S800000, .i32⟩ : BufTy).Contents (Elt F) → (⟨S800000, .i32⟩ : BufTy).Contents (Elt F)),
    StableHlo.ternary main_v94 main_v96 main_v1 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v97 main_v98 (broadcastInDim S800000x1 ![0] bcast_S800000_S800000x1_0 : (⟨S800000, .i32⟩ : BufTy).Contents (Elt F) → (⟨S800000x1, .i32⟩ : BufTy).Contents (Elt F)),
    StableHlo.binary main_v92 main_v98 main_v99 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v100 (broadcastInDim S50000x128 ![] bcast_S_S50000x128 : (⟨S_, .f32⟩ : BufTy).Contents (Elt F) → (⟨S50000x128, .f32⟩ : BufTy).Contents (Elt F)),
    StableHlo.unary main_v3 main_v101 (broadcastInDim S800000x1 ![0] bcast_S800000_S800000x1_0 : (⟨S800000, .i32⟩ : BufTy).Contents (Elt F) → (⟨S800000x1, .i32⟩ : BufTy).Contents (Elt F)),
    StableHlo.ternary main_v100 main_v101 main_v99 main_v102 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_21 (constant S_ .f32 0x3F800000#32),
    StableHlo.unary main_cst_21 main_v103 (broadcastInDim S800000 ![] bcast_S_S800000 : (⟨S_, .f32⟩ : BufTy).Contents (Elt F) → (⟨S800000, .f32⟩ : BufTy).Contents (Elt F)),
    StableHlo.nullary main_cst_22 (constant S_ .f32 0x00000000#32),
    StableHlo.unary main_cst_22 main_v104 (broadcastInDim S50000 ![] bcast_S_S50000 : (⟨S_, .f32⟩ : BufTy).Contents (Elt F) → (⟨S50000, .f32⟩ : BufTy).Contents (Elt F)),
    StableHlo.unary main_v3 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_23 (constant S_ .f32 0x3F800000#32),
    StableHlo.unary main_cst_23 main_v107 (broadcastInDim S50000 ![] bcast_S_S50000 : (⟨S_, .f32⟩ : BufTy).Contents (Elt F) → (⟨S50000, .f32⟩ : BufTy).Contents (Elt F)),
    StableHlo.binary main_v106 main_v107 main_v108 (maximumf : (⟨S50000, .f32⟩ : BufTy).Contents (Elt F) → (⟨S50000, .f32⟩ : BufTy).Contents (Elt F) → (⟨S50000, .f32⟩ : BufTy).Contents (Elt F)),
    StableHlo.unary main_v108 main_v109 (broadcastInDim S50000x1 ![0] bcast_S50000_S50000x1_0 : (⟨S50000, .f32⟩ : BufTy).Contents (Elt F) → (⟨S50000x1, .f32⟩ : BufTy).Contents (Elt F)),
    StableHlo.unary main_v109 main_v110 (broadcastInDim S50000x128 ![0, 1] bcast_S50000x1_S50000x128_0_1 : (⟨S50000x1, .f32⟩ : BufTy).Contents (Elt F) → (⟨S50000x128, .f32⟩ : BufTy).Contents (Elt F)),
    StableHlo.binary main_v102 main_v110 main_v111 (Host.divf : (⟨S50000x128, .f32⟩ : BufTy).Contents (Elt F) → (⟨S50000x128, .f32⟩ : BufTy).Contents (Elt F) → (⟨S50000x128, .f32⟩ : BufTy).Contents (Elt F)),
    StableHlo.binary main_v111 main_arg13 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v114 main_v115 (addf : (⟨S50000x128, .f32⟩ : BufTy).Contents (Elt F) → (⟨S50000x128, .f32⟩ : BufTy).Contents (Elt F) → (⟨S50000x128, .f32⟩ : BufTy).Contents (Elt F)),
    StableHlo.binary main_v92 main_arg14 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v115 main_v116 main_v117 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v117) main_call4.v0 main_call4.v1 maximumf,
    StableHlo.binary main_v92 main_v118 main_v119 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.binary main_v119 main_cst_24 main_v120 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v120 main_v121 (broadcastInDim S50000x1 ![0] bcast_S50000_S50000x1_0 : (⟨S50000, .f32⟩ : BufTy).Contents (Elt F) → (⟨S50000x1, .f32⟩ : BufTy).Contents (Elt F)),
    StableHlo.nullary main_cst_25 (constant S_ .f32 0x43000000#32),
    StableHlo.unary main_cst_25 main_v122 (broadcastInDim S50000x1 ![] bcast_S_S50000x1 : (⟨S_, .f32⟩ : BufTy).Contents (Elt F) → (⟨S50000x1, .f32⟩ : BufTy).Contents (Elt F)),
    StableHlo.binary main_v121 main_v122 main_v123 (Host.divf : (⟨S50000x1, .f32⟩ : BufTy).Contents (Elt F) → (⟨S50000x1, .f32⟩ : BufTy).Contents (Elt F) → (⟨S50000x1, .f32⟩ : BufTy).Contents (Elt F)),
    StableHlo.nullary main_c_26 (constantI S_ 32 0#32),
    StableHlo.TRef.nullary main_call5.cst (constant S_ .f32 0x00000000#32),
    StableHlo.TRef.binary (.of main_v119) main_call5.cst main_call5.v0 (fun x v => Host.reduceAdd x v reducesTo_S50000x128_S50000_d1 h_S_),
    StableHlo.TRef.unary main_call5.v0 main_call5.v1 (broadcastInDim S50000x1 ![0] bcast_S50000_S50000x1_0),
    StableHlo.TRef.nullary main_call5.cst_0 (constant S_ .f32 0x43000000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x128 ![0, 1] bcast_S50000x1_S50000x128_0_1),
    StableHlo.TRef.binary (.of main_v119) main_call5.v4 main_call5.v5 subf,
    StableHlo.TRef.binary main_call5.v5 main_call5.v5 main_call5.v6 mulf,
    StableHlo.TRef.unary (.of main_c_26) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b),
    StableHlo.unary main_v123 main_v125 (broadcastInDim S50000x128 ![0, 1] bcast_S50000x1_S50000x128_0_1 : (⟨S50000x1, .f32⟩ : BufTy).Contents (Elt F) → (⟨S50000x128, .f32⟩ : BufTy).Contents (Elt F)),
    StableHlo.binary main_v119 main_v125 main_v126 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v127 (broadcastInDim S50000x1 ![] bcast_S_S50000x1 : (⟨S_, .f32⟩ : BufTy).Contents (Elt F) → (⟨S50000x1, .f32⟩ : BufTy).Contents (Elt F)),
    StableHlo.binary main_v124 main_v127 main_v128 (addf : (⟨S50000x1, .f32⟩ : BufTy).Contents (Elt F) → (⟨S50000x1, .f32⟩ : BufTy).Contents (Elt F) → (⟨S50000x1, .f32⟩ : BufTy).Contents (Elt F)),
    StableHlo.unary main_v128 main_v129 (Host.rsqrt : (⟨S50000x1, .f32⟩ : BufTy).Contents (Elt F) → (⟨S50000x1, .f32⟩ : BufTy).Contents (Elt F)),
    StableHlo.unary main_v129 main_v130 (broadcastInDim S50000x128 ![0, 1] bcast_S50000x1_S50000x128_0_1 : (⟨S50000x1, .f32⟩ : BufTy).Contents (Elt F) → (⟨S50000x128, .f32⟩ : BufTy).Contents (Elt F)),
    StableHlo.binary main_v126 main_v130 main_v131 (mulf : (⟨S50000x128, .f32⟩ : BufTy).Contents (Elt F) → (⟨S50000x128, .f32⟩ : BufTy).Contents (Elt F) → (⟨S50000x128, .f32⟩ : BufTy).Contents (Elt F)),
    StableHlo.unary main_arg16 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_arg17 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)) ]

/-- Segment 4: the pooling and the read-out. -/
abbrev seg4 : List (HloOp τ sig (Elt F)) :=
  [ StableHlo.nullary main_cst_28 (constant S_ .f32 0x00000000#32),
    StableHlo.unary main_cst_28 main_v138 (broadcastInDim S512x128 ![] bcast_S_S512x128 : (⟨S_, .f32⟩ : BufTy).Contents (Elt F) → (⟨S512x128, .f32⟩ : BufTy).Contents (Elt F)),
    StableHlo.unary main_arg2 main_v139 (broadcastInDim S50000x1 ![0] bcast_S50000_S50000x1_0 : (⟨S50000, .i32⟩ : BufTy).Contents (Elt F) → (⟨S50000x1, .i32⟩ : BufTy).Contents (Elt F)),
    StableHlo.ternary main_v138 main_v139 main_v137 main_v140 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_29 (constant S_ .f32 0x3F800000#32),
    StableHlo.unary main_cst_29 main_v141 (broadcastInDim S50000 ![] bcast_S_S50000 : (⟨S_, .f32⟩ : BufTy).Contents (Elt F) → (⟨S50000, .f32⟩ : BufTy).Contents (Elt F)),
    StableHlo.nullary main_cst_30 (constant S_ .f32 0x00000000#32),
    StableHlo.unary main_cst_30 main_v142 (broadcastInDim S512 ![] bcast_S_S512 : (⟨S_, .f32⟩ : BufTy).Contents (Elt F) → (⟨S512, .f32⟩ : BufTy).Contents (Elt F)),
    StableHlo.unary main_arg2 main_v143 (broadcastInDim S50000x1 ![0] bcast_S50000_S50000x1_0 : (⟨S50000, .i32⟩ : BufTy).Contents (Elt F) → (⟨S50000x1, .i32⟩ : BufTy).Contents (Elt F)),
    StableHlo.ternary main_v142 main_v143 main_v141 main_v144 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_31 (constant S_ .f32 0x3F800000#32),
    StableHlo.unary main_cst_31 main_v145 (broadcastInDim S512 ![] bcast_S_S512 : (⟨S_, .f32⟩ : BufTy).Contents (Elt F) → (⟨S512, .f32⟩ : BufTy).Contents (Elt F)),
    StableHlo.binary main_v144 main_v145 main_v146 (maximumf : (⟨S512, .f32⟩ : BufTy).Contents (Elt F) → (⟨S512, .f32⟩ : BufTy).Contents (Elt F) → (⟨S512, .f32⟩ : BufTy).Contents (Elt F)),
    StableHlo.unary main_v146 main_v147 (broadcastInDim S512x1 ![0] bcast_S512_S512x1_0 : (⟨S512, .f32⟩ : BufTy).Contents (Elt F) → (⟨S512x1, .f32⟩ : BufTy).Contents (Elt F)),
    StableHlo.unary main_v147 main_v148 (broadcastInDim S512x128 ![0, 1] bcast_S512x1_S512x128_0_1 : (⟨S512x1, .f32⟩ : BufTy).Contents (Elt F) → (⟨S512x128, .f32⟩ : BufTy).Contents (Elt F)),
    StableHlo.binary main_v140 main_v148 main_v149 (Host.divf : (⟨S512x128, .f32⟩ : BufTy).Contents (Elt F) → (⟨S512x128, .f32⟩ : BufTy).Contents (Elt F) → (⟨S512x128, .f32⟩ : BufTy).Contents (Elt F)),
    StableHlo.binary main_v149 main_arg18 main_v150 ((fun l r => Host.dotGeneral dot_S512x128_S128x2_S512x2_1_0_0_1_n_n none l r) : (⟨S512x128, .f32⟩ : BufTy).Contents (Elt F) → (⟨S128x2, .f32⟩ : BufTy).Contents (Elt F) → (⟨S512x2, .f32⟩ : BufTy).Contents (Elt F)),
    StableHlo.unary main_arg19 main_v151 (broadcastInDim S1x2 ![1] bcast_S2_S1x2_1 : (⟨S2, .f32⟩ : BufTy).Contents (Elt F) → (⟨S1x2, .f32⟩ : BufTy).Contents (Elt F)),
    StableHlo.unary main_v151 main_v152 (broadcastInDim S512x2 ![0, 1] bcast_S1x2_S512x2_0_1 : (⟨S1x2, .f32⟩ : BufTy).Contents (Elt F) → (⟨S512x2, .f32⟩ : BufTy).Contents (Elt F)),
    StableHlo.binary main_v150 main_v152 main_v153 (addf : (⟨S512x2, .f32⟩ : BufTy).Contents (Elt F) → (⟨S512x2, .f32⟩ : BufTy).Contents (Elt F) → (⟨S512x2, .f32⟩ : BufTy).Contents (Elt F)) ]

theorem ops_eq : (ops : List (HloOp τ sig (Elt F))) = seg1 ++ (seg2 ++ (seg3 ++ seg4)) := rfl

theorem after_ops (V : Valuation τ sig (Elt F)) : after ops V = after seg4 (after seg3 (after seg2 (after seg1 V))) := by
  rw [ops_eq, StableHlo.after_append, StableHlo.after_append, StableHlo.after_append]

/-- The references segment 1 writes. -/
abbrev seg1_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_call0.cst.ref, main_call0.v0.ref, main_call0.v1.ref, main_cst_4, main_v30, main_v31, main_cst_5, main_v32, main_v33, main_c_6, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v35, main_v36, main_cst_7, main_v37, main_v38, main_v39, main_v40, main_v41, main_v42, main_v43, main_v44, main_v45, main_v46, main_v47]
set_option maxHeartbeats 4000000 in
set_option maxRecDepth 65536 in
theorem seg1_writes : (seg1 : List (HloOp τ sig (Elt F))).Forall fun op => op.writes ⊆ (seg1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, Finset.singleton_subset_iff, List.mem_toFinset]; exact List.mem_map_of_mem (by decide))
/-- A buffer segment 1 does not write keeps its contents. -/
theorem seg1_keeps (W : Valuation τ sig (Elt F)) (r : Ref sig .tc) (h : r ∉ seg1_W) : after seg1 W (Proc.devRef .tc r) = W (Proc.devRef .tc r) :=
  StableHlo.after_of_writes_sub seg1 W seg1_writes h

/-- The references segment 2 writes. -/
abbrev seg2_W : List (Ref sig .tc) := [main_c_8, main_v48, main_v49, main_c_9, main_v50, main_v51, main_v52, main_v53, main_v54, main_cst_10, main_v55, main_v56, main_v57, main_cst_11, main_v58, main_cst_12, main_v59, main_v60, main_v61, main_cst_13, main_v62, main_v63, main_v64, main_v65, main_v66, main_v67, main_v68, main_v69, main_v70, main_v71, main_v72, main_call2.cst.ref, main_call2.v0.ref, main_call2.v1.ref, main_v74, main_cst_14, main_v75, main_v76, main_cst_15, main_v77, main_v78, main_c_16, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.v12.ref, main_call3.cst_3.ref, main_call3.v13.ref, main_call3.cst_4.ref, main_call3.call0.v0.ref, main_call3.call0.v1.ref, main_call3.call0.v2.ref, main_v80, main_v81, main_cst_17, main_v82, main_v83, main_v84, main_v85, main_v86, main_v87, main_v88, main_v89, main_v90, main_v91, main_v92]
set_option maxHeartbeats 4000000 in
set_option maxRecDepth 65536 in
theorem seg2_writes : (seg2 : List (HloOp τ sig (Elt F))).Forall fun op => op.writes ⊆ (seg2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, Finset.singleton_subset_iff, List.mem_toFinset]; exact List.mem_map_of_mem (by decide))
/-- A buffer segment 2 does not write keeps its contents. -/
theorem seg2_keeps (W : Valuation τ sig (Elt F)) (r : Ref sig .tc) (h : r ∉ seg2_W) : after seg2 W (Proc.devRef .tc r) = W (Proc.devRef .tc r) :=
  StableHlo.after_of_writes_sub seg2 W seg2_writes h

/-- The references segment 3 writes. -/
abbrev seg3_W : List (Ref sig .tc) := [main_c_18, main_v93, main_v94, main_c_19, main_v95, main_v96, main_v97, main_v98, main_v99, main_cst_20, main_v100, main_v101, main_v102, main_cst_21, main_v103, main_cst_22, main_v104, main_v105, main_v106, main_cst_23, main_v107, main_v108, main_v109, main_v110, main_v111, main_v112, main_v113, main_v114, main_v115, main_v116, main_v117, main_call4.cst.ref, main_call4.v0.ref, main_call4.v1.ref, main_v119, main_cst_24, main_v120, main_v121, main_cst_25, main_v122, main_v123, main_c_26, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.v12.ref, main_call5.cst_3.ref, main_call5.v13.ref, main_call5.cst_4.ref, main_call5.call0.v0.ref, main_call5.call0.v1.ref, main_call5.call0.v2.ref, main_v125, main_v126, main_cst_27, main_v127, main_v128, main_v129, main_v130, main_v131, main_v132, main_v133, main_v134, main_v135, main_v136, main_v137]
set_option maxHeartbeats 4000000 in
set_option maxRecDepth 65536 in
theorem seg3_writes : (seg3 : List (HloOp τ sig (Elt F))).Forall fun op => op.writes ⊆ (seg3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, Finset.singleton_subset_iff, List.mem_toFinset]; exact List.mem_map_of_mem (by decide))
/-- A buffer segment 3 does not write keeps its contents. -/
theorem seg3_keeps (W : Valuation τ sig (Elt F)) (r : Ref sig .tc) (h : r ∉ seg3_W) : after seg3 W (Proc.devRef .tc r) = W (Proc.devRef .tc r) :=
  StableHlo.after_of_writes_sub seg3 W seg3_writes h

/-- The references segment 4 writes. -/
abbrev seg4_W : List (Ref sig .tc) := [main_cst_28, main_v138, main_v139, main_v140, main_cst_29, main_v141, main_cst_30, main_v142, main_v143, main_v144, main_cst_31, main_v145, main_v146, main_v147, main_v148, main_v149, main_v150, main_v151, main_v152, main_v153]
set_option maxHeartbeats 4000000 in
set_option maxRecDepth 65536 in
theorem seg4_writes : (seg4 : List (HloOp τ sig (Elt F))).Forall fun op => op.writes ⊆ (seg4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, Finset.singleton_subset_iff, List.mem_toFinset]; exact List.mem_map_of_mem (by decide))
/-- A buffer segment 4 does not write keeps its contents. -/
theorem seg4_keeps (W : Valuation τ sig (Elt F)) (r : Ref sig .tc) (h : r ∉ seg4_W) : after seg4 W (Proc.devRef .tc r) = W (Proc.devRef .tc r) :=
  StableHlo.after_of_writes_sub seg4 W seg4_writes h

/-! ## The named functions -/

abbrev E := IVec S800000 32

def src (ei : IVec S2x800000 32) : E := shapeCast S800000 (extractStridedSlice S1x800000 ![0, 0] ei slices_S2x800000_S1x800000_0_0) shapeCasts_S1x800000_S800000
def dst (ei : IVec S2x800000 32) : E := shapeCast S800000 (extractStridedSlice S1x800000 ![1, 0] ei slices_S2x800000_S1x800000_1_0) shapeCasts_S1x800000_S800000
def wrap (s : E) : E :=
  select (cmpi .slt s (broadcastInDim S800000 ![] bcast_S_S800000 (constantI S_ 32 0#32)))
    (addi s (broadcastInDim S800000 ![] bcast_S_S800000 (constantI S_ 32 50000#32))) s
def agg (h : A) (s d : E) : A :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0 (wrap s)))
def cnt (d : E) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))
/-- The pooled mean of the nodes' features per graph. -/
def avg (h : A) (batch : IVec S50000 32) : FVec Ideal S512x128 .f32 :=
  Host.divf
    (Host.scatterAdd scatter_S512x128_S50000x1_S50000x128_1_0_0_1 (broadcastInDim S512x128 ![] bcast_S_S512x128 (constant S_ .f32 0x00000000#32))
      (broadcastInDim S50000x1 ![0] bcast_S50000_S50000x1_0 batch) h)
    (broadcastInDim S512x128 ![0, 1] bcast_S512x1_S512x128_0_1 (broadcastInDim S512x1 ![0] bcast_S512_S512x1_0
      (maximumf (Host.scatterAdd scatter_S512_S50000x1_S50000_n_0_0_1 (broadcastInDim S512 ![] bcast_S_S512 (constant S_ .f32 0x00000000#32))
          (broadcastInDim S50000x1 ![0] bcast_S50000_S50000x1_0 batch) (broadcastInDim S50000 ![] bcast_S_S50000 (constant S_ .f32 0x3F800000#32)))
        (broadcastInDim S512 ![] bcast_S_S512 (constant S_ .f32 0x3F800000#32)))))
/-- The read-out. -/
def readout (a : FVec Ideal S512x128 .f32) (wc : FVec Ideal S128x2 .f32) (bc : FVec Ideal S2 .f32) : FVec Ideal S512x2 .f32 :=
  addf (Host.dotGeneral dot_S512x128_S128x2_S512x2_1_0_0_1_n_n none a wc)
    (broadcastInDim S512x2 ![0, 1] bcast_S1x2_S512x2_0_1 (broadcastInDim S1x2 ![1] bcast_S2_S1x2_1 bc))

/-! ## The segments read back -/

variable (V : Valuation τ sig (Elt Ideal))

set_option maxHeartbeats 4000000 in
set_option maxRecDepth 65536 in
theorem seg1_read :
    after (seg1 (F := Ideal)) V (main_v1 : DevRef τ sig) = src (V (main_arg1 : DevRef τ sig))
    ∧ after seg1 V (main_v3 : DevRef τ sig) = dst (V (main_arg1 : DevRef τ sig))
    ∧ after seg1 V (main_v47 : DevRef τ sig) = ln (relu (sage (agg (V (main_arg0 : DevRef τ sig)) (src (V (main_arg1 : DevRef τ sig))) (dst (V (main_arg1 : DevRef τ sig)))) (cnt (dst (V (main_arg1 : DevRef τ sig))))
        (V (main_arg0 : DevRef τ sig)) (V (main_arg3 : DevRef τ sig)) (V (main_arg4 : DevRef τ sig)) (V (main_arg5 : DevRef τ sig)))) (V (main_arg6 : DevRef τ sig)) (V (main_arg7 : DevRef τ sig)) := by
  refine ⟨?_, ?_, ?_⟩ <;> (after_results_simp; (try simp only [cast_same]); rfl)

set_option maxHeartbeats 4000000 in
set_option maxRecDepth 65536 in
theorem seg2_read :
    after (seg2 (F := Ideal)) V (main_v92 : DevRef τ sig) = ln (addf (relu (sage (agg (V (main_v47 : DevRef τ sig)) (V (main_v1 : DevRef τ sig)) (V (main_v3 : DevRef τ sig))) (cnt (V (main_v3 : DevRef τ sig)))
        (V (main_v47 : DevRef τ sig)) (V (main_arg8 : DevRef τ sig)) (V (main_arg9 : DevRef τ sig)) (V (main_arg10 : DevRef τ sig)))) (V (main_v47 : DevRef τ sig))) (V (main_arg11 : DevRef τ sig)) (V (main_arg12 : DevRef τ sig)) := by
  after_results_simp; simp only [cast_same]; rfl

set_option maxHeartbeats 4000000 in
set_option maxRecDepth 65536 in
theorem seg3_read :
    after (seg3 (F := Ideal)) V (main_v137 : DevRef τ sig) = ln (addf (V (main_v92 : DevRef τ sig)) (relu (sage (agg (V (main_v92 : DevRef τ sig)) (V (main_v1 : DevRef τ sig)) (V (main_v3 : DevRef τ sig))) (cnt (V (main_v3 : DevRef τ sig)))
        (V (main_v92 : DevRef τ sig)) (V (main_arg13 : DevRef τ sig)) (V (main_arg14 : DevRef τ sig)) (V (main_arg15 : DevRef τ sig))))) (V (main_arg16 : DevRef τ sig)) (V (main_arg17 : DevRef τ sig)) := by
  after_results_simp; simp only [cast_same]; rfl

set_option maxHeartbeats 4000000 in
set_option maxRecDepth 65536 in
theorem seg4_read :
    after (seg4 (F := Ideal)) V (main_v149 : DevRef τ sig) = avg (V (main_v137 : DevRef τ sig)) (V (main_arg2 : DevRef τ sig))
    ∧ after seg4 V (main_v153 : DevRef τ sig) = readout (avg (V (main_v137 : DevRef τ sig)) (V (main_arg2 : DevRef τ sig))) (V (main_arg18 : DevRef τ sig)) (V (main_arg19 : DevRef τ sig))
    ∧ after seg4 V (main_v137 : DevRef τ sig) = V (main_v137 : DevRef τ sig) := by
  refine ⟨?_, ?_, ?_⟩ <;> (after_results_simp; try rfl)

end Cert.ReferenceIdeal.RefVal

end
-- ==== Proof.Bridge.lean ====
/-
  The two programs' layers are one function.

  The accelerator's program and the reference gather and scatter with the same host operations (a change of float
  format around the gather is the identity at the exact values), so their summed neighbour features, neighbour
  counts and pooled means are the same functions. A layer in the accelerator's spelling — reciprocal count as a
  column, stacked weights, vectors as one row — is, entry by entry, the reference's layer of the same arrays: both
  are the row function of Spec, by the one law s · (1/c) = s / c for c ≥ 1 and a change in the order of three sums.
-/
import proofs.«159482_j24764781429188_2_alg».proof.Proof.KILayer
import proofs.«159482_j24764781429188_2_alg».proof.Proof.KIHost
import proofs.«159482_j24764781429188_2_alg».proof.Proof.RefLayer
import proofs.«159482_j24764781429188_2_alg».proof.Proof.RefVal

noncomputable section

namespace Cert.Bridge

open Idealize.ShloMosaic Idealize.ShloMosaic.ValueIdx

abbrev KA := FVec Ideal Cert.KernelIdeal.S50000x128 .f32

theorem src_eq (ei : IVec Cert.KernelIdeal.S2x800000 32) : Cert.KernelIdeal.Host.src ei = Cert.ReferenceIdeal.RefVal.src ei := rfl
theorem dst_eq (ei : IVec Cert.KernelIdeal.S2x800000 32) : Cert.KernelIdeal.Host.dst ei = Cert.ReferenceIdeal.RefVal.dst ei := rfl
theorem agg_eq (h : KA) (s d : IVec Cert.KernelIdeal.S800000 32) : Cert.KernelIdeal.Host.agg h s d = Cert.ReferenceIdeal.RefVal.agg h s d := rfl
theorem cnt_eq (d : IVec Cert.KernelIdeal.S800000 32) : Cert.KernelIdeal.Host.cnt d = Cert.ReferenceIdeal.RefVal.cnt d := rfl
theorem avg_eq (h : KA) (batch : IVec Cert.KernelIdeal.S50000 32) : Cert.KernelIdeal.Host.avg h batch = Cert.ReferenceIdeal.RefVal.avg h batch := rfl

section Layers
open Cert.KernelIdeal.Layer Cert.KernelIdeal.Pay Cert.KernelIdeal.Host Cert.ReferenceIdeal.RefLayer

variable (s h : KA) (cn : FVec Ideal Cert.KernelIdeal.S50000 .f32) (wl wr : FVec Ideal Cert.KernelIdeal.S128x128 .f32)
  (b g be : FVec Ideal Cert.KernelIdeal.S128 .f32) (n : Fin 50000) (q : Fin 128)

theorem top_eq : wTop (stack wl wr) = Cert.ReferenceIdeal.RefLayer.matOf wl := funext fun k => funext fun j => stack_top wl wr k j
theorem bot_eq : wBot (stack wl wr) = Cert.ReferenceIdeal.RefLayer.matOf wr := funext fun k => funext fun j => stack_bottom wl wr k j
theorem vec_eq (v : FVec Ideal Cert.KernelIdeal.S128 .f32) : Cert.KernelIdeal.Pay.vecOf (row1 v) = Cert.ReferenceIdeal.RefLayer.vecOf v :=
  funext fun k => row1_apply v 0 k

/-- The first layer. -/
theorem bridgeA :
    G0c s h (cinv cn) (stack wl wr) (row1 b) (row1 g) (row1 be) n q = ln (relu (sage s cn h wl wr b)) g be (ix2 n q) := by
  rw [layerA_apply]
  unfold G0c Spec.layerA
  rw [top_eq, bot_eq, vec_eq, vec_eq, vec_eq, cinv_apply]
  refine congrArg (fun T => Spec.lnRow T _ _ q) (funext fun j' => ?_)
  rw [Spec.preKer_eq_preRef _ _ _ (Spec.one_le_max _)]

/-- A later layer, the input added after the rectifier. -/
theorem bridgeB :
    GBc s h h (cinv cn) (stack wl wr) (row1 b) (row1 g) (row1 be) n q = ln (addf (relu (sage s cn h wl wr b)) h) g be (ix2 n q) := by
  rw [layerB_apply]
  unfold GBc Spec.layerB
  rw [top_eq, bot_eq, vec_eq, vec_eq, vec_eq, cinv_apply]
  refine congrArg (fun T => Spec.lnRow T _ _ q) (funext fun j' => ?_)
  rw [Spec.preKer_eq_preRef _ _ _ (Spec.one_le_max _)]

/-- A later layer, the input added before it. -/
theorem bridgeB' :
    GBc s h h (cinv cn) (stack wl wr) (row1 b) (row1 g) (row1 be) n q = ln (addf h (relu (sage s cn h wl wr b))) g be (ix2 n q) := by
  rw [layerB'_apply]
  unfold GBc Spec.layerB
  rw [top_eq, bot_eq, vec_eq, vec_eq, vec_eq, cinv_apply]
  refine congrArg (fun T => Spec.lnRow T _ _ q) (funext fun j' => ?_)
  rw [Spec.preKer_eq_preRef _ _ _ (Spec.one_le_max _)]

end Layers

/-- The reference's read-out at (r, j). -/
theorem readout_apply (a : FVec Ideal Cert.ReferenceIdeal.S512x128 .f32) (wc : FVec Ideal Cert.ReferenceIdeal.S128x2 .f32)
    (bc : FVec Ideal Cert.ReferenceIdeal.S2 .f32) (r : Fin 512) (j : Fin 2) :
    Cert.ReferenceIdeal.RefVal.readout a wc bc (ix2 r j) = Cert.Lib.PlainDot.mm a wc (ix2 r j) + bc (ix1 j) := by
  unfold Cert.ReferenceIdeal.RefVal.readout
  have hd : Cert.ReferenceIdeal.dot_S512x128_S128x2_S512x2_1_0_0_1_n_n = DotDims.plain 512 128 2 := rfl
  rw [addf_apply, hd, Cert.Lib.PlainDot.dotGeneral, Cert.LibHostRead.bcast_row_wide_apply _ rfl rfl, Cert.LibHostRead.bcast_row_apply _ rfl]

end Cert.Bridge

end
-- ==== Proof.RefChain.lean ====
/-
  The reference's three results as functions of its argument arrays: the third layer's output is the third layer of
  the second of the first; the pooled mean and the read-out follow.
-/
import proofs.«159482_j24764781429188_2_alg».proof.Proof.RefVal

noncomputable section

namespace Cert.ReferenceIdeal.RefChain

open Cert.ReferenceIdeal Cert.ReferenceIdeal.Gen Cert.ReferenceIdeal.RefRun Cert.ReferenceIdeal.RefLayer Cert.ReferenceIdeal.RefVal
open Idealize.ShloMosaic Idealize.ShloMosaic.TcCoe Idealize.SL.Sem Idealize.ShloMosaic.StableHlo

/-- The three layers and the tail, as functions of whole arrays. -/
def H1 (x : A) (ei : IVec S2x800000 32) (wl wr : W) (b g be : Vv) : A :=
  ln (relu (sage (agg x (src ei) (dst ei)) (cnt (dst ei)) x wl wr b)) g be
def H2 (h : A) (ei : IVec S2x800000 32) (wl wr : W) (b g be : Vv) : A :=
  ln (addf (relu (sage (agg h (src ei) (dst ei)) (cnt (dst ei)) h wl wr b)) h) g be
def H3 (h : A) (ei : IVec S2x800000 32) (wl wr : W) (b g be : Vv) : A :=
  ln (addf h (relu (sage (agg h (src ei) (dst ei)) (cnt (dst ei)) h wl wr b))) g be

variable (V0 : Valuation τ sig (Elt Ideal))

abbrev X1 : Valuation τ sig (Elt Ideal) := after seg1 V0
abbrev X2 : Valuation τ sig (Elt Ideal) := after seg2 (X1 V0)
abbrev X3 : Valuation τ sig (Elt Ideal) := after seg3 (X2 V0)

theorem carry1 (r : Ref sig .tc) (h1 : r ∉ seg1_W) : X1 V0 (Proc.devRef .tc r) = V0 (Proc.devRef .tc r) := seg1_keeps V0 r h1
theorem carry2 (r : Ref sig .tc) (h1 : r ∉ seg1_W) (h2 : r ∉ seg2_W) : X2 V0 (Proc.devRef .tc r) = V0 (Proc.devRef .tc r) :=
  (seg2_keeps (X1 V0) r h2).trans (carry1 V0 r h1)
theorem carry3 (r : Ref sig .tc) (h1 : r ∉ seg1_W) (h2 : r ∉ seg2_W) (h3 : r ∉ seg3_W) : X3 V0 (Proc.devRef .tc r) = V0 (Proc.devRef .tc r) :=
  (seg3_keeps (X2 V0) r h3).trans (carry2 V0 r h1 h2)
theorem carry4 (r : Ref sig .tc) (h1 : r ∉ seg1_W) (h2 : r ∉ seg2_W) (h3 : r ∉ seg3_W) (h4 : r ∉ seg4_W) :
    after ops V0 (Proc.devRef .tc r) = V0 (Proc.devRef .tc r) := by
  rw [after_ops]; exact (seg4_keeps (X3 V0) r h4).trans (carry3 V0 r h1 h2 h3)

theorem x1_h1 : X1 V0 (Proc.devRef .tc main_v47 : DevRef τ sig) = H1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) := (seg1_read V0).2.2
theorem x1_src : X1 V0 (Proc.devRef .tc main_v1 : DevRef τ sig) = src (V0 (Proc.devRef .tc main_arg1 : DevRef τ sig)) := (seg1_read V0).1
theorem x1_dst : X1 V0 (Proc.devRef .tc main_v3 : DevRef τ sig) = dst (V0 (Proc.devRef .tc main_arg1 : DevRef τ sig)) := (seg1_read V0).2.1

theorem x2_h2 : X2 V0 (Proc.devRef .tc main_v92 : DevRef τ sig)
    = H2 (H1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig))) (V0 (Proc.devRef .tc main_arg1 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig)) := by
  show after seg2 (X1 V0) _ = _
  rw [seg2_read, x1_h1, x1_src, x1_dst, carry1 V0 main_arg8 (by decide), carry1 V0 main_arg9 (by decide), carry1 V0 main_arg10 (by decide),
    carry1 V0 main_arg11 (by decide), carry1 V0 main_arg12 (by decide)]
  rfl
theorem x2_src : X2 V0 (Proc.devRef .tc main_v1 : DevRef τ sig) = src (V0 (Proc.devRef .tc main_arg1 : DevRef τ sig)) := (seg2_keeps (X1 V0) main_v1 (by decide)).trans (x1_src V0)
theorem x2_dst : X2 V0 (Proc.devRef .tc main_v3 : DevRef τ sig) = dst (V0 (Proc.devRef .tc main_arg1 : DevRef τ sig)) := (seg2_keeps (X1 V0) main_v3 (by decide)).trans (x1_dst V0)

theorem x3_h3 : X3 V0 (Proc.devRef .tc main_v137 : DevRef τ sig)
    = H3 (H2 (H1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig))) (V0 (Proc.devRef .tc main_arg1 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig))) (V0 (Proc.devRef .tc main_arg1 : DevRef τ sig)) (V0 (Proc.devRef .tc main_arg13 : DevRef τ sig)) (V0 (Proc.devRef .tc main_arg14 : DevRef τ sig)) (V0 (Proc.devRef .tc main_arg15 : DevRef τ sig)) (V0 (Proc.devRef .tc main_arg16 : DevRef τ sig)) (V0 (Proc.devRef .tc main_arg17 : DevRef τ sig)) := by
  show after seg3 (X2 V0) _ = _
  rw [seg3_read, x2_h2, x2_src, x2_dst, carry2 V0 main_arg13 (by decide) (by decide), carry2 V0 main_arg14 (by decide) (by decide),
    carry2 V0 main_arg15 (by decide) (by decide), carry2 V0 main_arg16 (by decide) (by decide), carry2 V0 main_arg17 (by decide) (by decide)]
  rfl

/-- The reference's second result: the third layer's output. -/
theorem res_h3 : after ops V0 (Proc.devRef .tc main_v137 : DevRef τ sig)
    = H3 (H2 (H1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig))) (V0 (Proc.devRef .tc main_arg1 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig))) (V0 (Proc.devRef .tc main_arg1 : DevRef τ sig)) (V0 (Proc.devRef .tc main_arg13 : DevRef τ sig)) (V0 (Proc.devRef .tc main_arg14 : DevRef τ sig)) (V0 (Proc.devRef .tc main_arg15 : DevRef τ sig)) (V0 (Proc.devRef .tc main_arg16 : DevRef τ sig)) (V0 (Proc.devRef .tc main_arg17 : DevRef τ sig)) := by
  rw [after_ops]; show after seg4 (X3 V0) _ = _
  rw [(seg4_read (X3 V0)).2.2, x3_h3]

/-- The third result: the pooled mean. -/
theorem res_avg : after ops V0 (Proc.devRef .tc main_v149 : DevRef τ sig)
    = avg (H3 (H2 (H1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig))) (V0 (Proc.devRef .tc main_arg1 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig))) (V0 (Proc.devRef .tc main_arg1 : DevRef τ sig)) (V0 (Proc.devRef .tc main_arg13 : DevRef τ sig)) (V0 (Proc.devRef .tc main_arg14 : DevRef τ sig)) (V0 (Proc.devRef .tc main_arg15 : DevRef τ sig)) (V0 (Proc.devRef .tc main_arg16 : DevRef τ sig)) (V0 (Proc.devRef .tc main_arg17 : DevRef τ sig))) (V0 (Proc.devRef .tc main_arg2 : DevRef τ sig)) := by
  rw [after_ops]; show after seg4 (X3 V0) _ = _
  rw [(seg4_read (X3 V0)).1, x3_h3, carry3 V0 main_arg2 (by decide) (by decide) (by decide)]

/-- The first result: the read-out. -/
theorem res_out : after ops V0 (Proc.devRef .tc main_v153 : DevRef τ sig)
    = readout (avg (H3 (H2 (H1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig))) (V0 (Proc.devRef .tc main_arg1 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig))) (V0 (Proc.devRef .tc main_arg1 : DevRef τ sig)) (V0 (Proc.devRef .tc main_arg13 : DevRef τ sig)) (V0 (Proc.devRef .tc main_arg14 : DevRef τ sig)) (V0 (Proc.devRef .tc main_arg15 : DevRef τ sig)) (V0 (Proc.devRef .tc main_arg16 : DevRef τ sig)) (V0 (Proc.devRef .tc main_arg17 : DevRef τ sig))) (V0 (Proc.devRef .tc main_arg2 : DevRef τ sig)))
        (V0 (Proc.devRef .tc main_arg18 : DevRef τ sig)) (V0 (Proc.devRef .tc main_arg19 : DevRef τ sig)) := by
  rw [after_ops]; show after seg4 (X3 V0) _ = _
  rw [(seg4_read (X3 V0)).2.1, x3_h3, carry3 V0 main_arg2 (by decide) (by decide) (by decide),
    carry3 V0 main_arg18 (by decide) (by decide) (by decide), carry3 V0 main_arg19 (by decide) (by decide) (by decide)]

/-- Every argument array ends as launched. -/
theorem res_arg (r : Ref sig .tc) (h1 : r ∉ seg1_W) (h2 : r ∉ seg2_W) (h3 : r ∉ seg3_W) (h4 : r ∉ seg4_W) :
    after ops V0 (Proc.devRef .tc r) = V0 (Proc.devRef .tc r) := carry4 V0 r h1 h2 h3 h4

end Cert.ReferenceIdeal.RefChain

end
-- ==== Proof.KIChain.lean ====
/-
  The idealized kernel's three results as functions of its argument arrays — the same functions as the reference's:
  each layer region's output array is the layer of what the region found, what it found is what the host stretch
  before it computed from the previous layer's output, and a layer in the kernel's spelling is the reference's layer.
-/
import proofs.«159482_j24764781429188_2_alg».proof.Proof.KIRun
import proofs.«159482_j24764781429188_2_alg».proof.Proof.KIVal
import proofs.«159482_j24764781429188_2_alg».proof.Proof.KIVal3
import proofs.«159482_j24764781429188_2_alg».proof.Proof.Bridge
import proofs.«159482_j24764781429188_2_alg».proof.Proof.RefChain

noncomputable section

namespace Cert.KernelIdeal.Chain

open Cert.KernelIdeal Cert.KernelIdeal.Gen Cert.KernelIdeal.Run Cert.KernelIdeal.Host Cert.KernelIdeal.Layer
open Cert.ReferenceIdeal.RefChain (H1 H2 H3)
open Idealize.ShloMosaic Idealize.ShloMosaic.TcCoe Idealize.ShloMosaic.ValueIdx Idealize.SL.Sem Idealize.ShloMosaic.StableHlo Cert.Lib.PlainDot

variable (m : (ℓ : Loc nD τ sig) → Buf (Elt Ideal) ℓ) (ρ : Dev nD → PrngReg) (c : Dev nD)

/-! ## Buffers carried across a boundary -/

theorem keep1 (r : Ref sig .tc) (h : r ∉ hostOps0_W) : W1 m ρ c (Proc.devRef .tc r : DevRef τ sig) = W0 m ρ c (Proc.devRef .tc r : DevRef τ sig) := StableHlo.after_of_writes_sub hostOps0 _ hostOps0_writes h
theorem keep2 (r : Ref sig .tc) (h : r ≠ main_v29) : W2 m ρ c (Proc.devRef .tc r : DevRef τ sig) = W1 m ρ c (Proc.devRef .tc r : DevRef τ sig) :=
  Function.update_of_ne (β := fun b : DevRef τ sig => b.ty.Contents (Elt Ideal)) (StableHlo.devRef_ne_of_ne h : (Proc.devRef .tc r : DevRef τ sig) ≠ (Proc.devRef .tc main_v29 : DevRef τ sig)) _ (W1 m ρ c)
theorem keep3 (r : Ref sig .tc) (h : r ∉ hostOps1_W) : W3 m ρ c (Proc.devRef .tc r : DevRef τ sig) = W2 m ρ c (Proc.devRef .tc r : DevRef τ sig) := StableHlo.after_of_writes_sub hostOps1 _ hostOps1_writes h
theorem keep4 (r : Ref sig .tc) (h : r ≠ main_v46) : W4 m ρ c (Proc.devRef .tc r : DevRef τ sig) = W3 m ρ c (Proc.devRef .tc r : DevRef τ sig) :=
  Function.update_of_ne (β := fun b : DevRef τ sig => b.ty.Contents (Elt Ideal)) (StableHlo.devRef_ne_of_ne h : (Proc.devRef .tc r : DevRef τ sig) ≠ (Proc.devRef .tc main_v46 : DevRef τ sig)) _ (W3 m ρ c)
theorem keep5 (r : Ref sig .tc) (h : r ∉ hostOps2_W) : W5 m ρ c (Proc.devRef .tc r : DevRef τ sig) = W4 m ρ c (Proc.devRef .tc r : DevRef τ sig) := StableHlo.after_of_writes_sub hostOps2 _ hostOps2_writes h
theorem keep6 (r : Ref sig .tc) (h : r ≠ main_v63) : W6 m ρ c (Proc.devRef .tc r : DevRef τ sig) = W5 m ρ c (Proc.devRef .tc r : DevRef τ sig) :=
  Function.update_of_ne (β := fun b : DevRef τ sig => b.ty.Contents (Elt Ideal)) (StableHlo.devRef_ne_of_ne h : (Proc.devRef .tc r : DevRef τ sig) ≠ (Proc.devRef .tc main_v63 : DevRef τ sig)) _ (W5 m ρ c)
theorem keep7 (r : Ref sig .tc) (h : r ∉ hostOps3_W) : W7 m ρ c (Proc.devRef .tc r : DevRef τ sig) = W6 m ρ c (Proc.devRef .tc r : DevRef τ sig) := StableHlo.after_of_writes_sub hostOps3 _ hostOps3_writes h
theorem keep8 (r : Ref sig .tc) (h : r ≠ main_v77) : W8 m ρ c (Proc.devRef .tc r : DevRef τ sig) = W7 m ρ c (Proc.devRef .tc r : DevRef τ sig) :=
  Function.update_of_ne (β := fun b : DevRef τ sig => b.ty.Contents (Elt Ideal)) (StableHlo.devRef_ne_of_ne h : (Proc.devRef .tc r : DevRef τ sig) ≠ (Proc.devRef .tc main_v77 : DevRef τ sig)) _ (W7 m ρ c)

/-- An argument reaches boundary k as launched. -/
theorem arg2_ (r : Ref sig .tc) (h0 : r ∉ hostOps0_W) (n0 : r ≠ main_v29) : W2 m ρ c (Proc.devRef .tc r : DevRef τ sig) = W0 m ρ c (Proc.devRef .tc r : DevRef τ sig) :=
  (keep2 m ρ c r n0).trans (keep1 m ρ c r h0)
theorem arg4_ (r : Ref sig .tc) (h0 : r ∉ hostOps0_W) (n0 : r ≠ main_v29) (h1 : r ∉ hostOps1_W) (n1 : r ≠ main_v46) :
    W4 m ρ c (Proc.devRef .tc r : DevRef τ sig) = W0 m ρ c (Proc.devRef .tc r : DevRef τ sig) := (keep4 m ρ c r n1).trans ((keep3 m ρ c r h1).trans (arg2_ m ρ c r h0 n0))
theorem arg6_ (r : Ref sig .tc) (h0 : r ∉ hostOps0_W) (n0 : r ≠ main_v29) (h1 : r ∉ hostOps1_W) (n1 : r ≠ main_v46)
    (h2 : r ∉ hostOps2_W) (n2 : r ≠ main_v63) : W6 m ρ c (Proc.devRef .tc r : DevRef τ sig) = W0 m ρ c (Proc.devRef .tc r : DevRef τ sig) :=
  (keep6 m ρ c r n2).trans ((keep5 m ρ c r h2).trans (arg4_ m ρ c r h0 n0 h1 n1))

/-! ## The first layer -/

theorem out0 : W2 m ρ c (Proc.devRef .tc main_v29 : DevRef τ sig) = Val0.G (V1 m ρ) c :=
  (Function.update_self (β := fun b : DevRef τ sig => b.ty.Contents (Elt Ideal)) (Proc.devRef .tc main_v29 : DevRef τ sig) _ (W1 m ρ c)).trans (Val0.final (V1 m ρ) c)

theorem k_h1 : W2 m ρ c (Proc.devRef .tc main_v29 : DevRef τ sig) = (H1 (W0 m ρ c (Proc.devRef .tc main_arg0 : DevRef τ sig)) (W0 m ρ c (Proc.devRef .tc main_arg1 : DevRef τ sig)) (W0 m ρ c (Proc.devRef .tc main_arg3 : DevRef τ sig)) (W0 m ρ c (Proc.devRef .tc main_arg4 : DevRef τ sig)) (W0 m ρ c (Proc.devRef .tc main_arg5 : DevRef τ sig)) (W0 m ρ c (Proc.devRef .tc main_arg6 : DevRef τ sig)) (W0 m ρ c (Proc.devRef .tc main_arg7 : DevRef τ sig))) := by
  obtain ⟨s1, s3, s7, s12, s24, s28, s25, s26, s27⟩ := stretch0 (W0 m ρ c)
  rw [out0]
  funext i
  show G0c (W1 m ρ c (Proc.devRef .tc main_v24 : DevRef τ sig)) (W1 m ρ c (Proc.devRef .tc main_arg0 : DevRef τ sig)) (W1 m ρ c (Proc.devRef .tc main_v12 : DevRef τ sig)) (W1 m ρ c (Proc.devRef .tc main_v28 : DevRef τ sig))
      (W1 m ρ c (Proc.devRef .tc main_v25 : DevRef τ sig)) (W1 m ρ c (Proc.devRef .tc main_v26 : DevRef τ sig)) (W1 m ρ c (Proc.devRef .tc main_v27 : DevRef τ sig)) (i 0) (i 1) = _
  rw [keep1 m ρ c main_arg0 (by decide)]
  show G0c (after hostOps0 (W0 m ρ c) (Proc.devRef .tc main_v24 : DevRef τ sig)) _ (after hostOps0 (W0 m ρ c) (Proc.devRef .tc main_v12 : DevRef τ sig)) (after hostOps0 (W0 m ρ c) (Proc.devRef .tc main_v28 : DevRef τ sig))
      (after hostOps0 (W0 m ρ c) (Proc.devRef .tc main_v25 : DevRef τ sig)) (after hostOps0 (W0 m ρ c) (Proc.devRef .tc main_v26 : DevRef τ sig)) (after hostOps0 (W0 m ρ c) (Proc.devRef .tc main_v27 : DevRef τ sig)) (i 0) (i 1) = _
  rw [s24, s12, s28, s25, s26, s27]
  refine (Cert.Bridge.bridgeA _ _ _ _ _ _ _ _ (i 0) (i 1)).trans ?_
  rw [Cert.Bridge.agg_eq, Cert.Bridge.src_eq, Cert.Bridge.dst_eq, Cert.Bridge.cnt_eq]
  unfold H1
  exact congrArg _ (eq_ix2 i).symm

/-- The edge indices and the reciprocal count reach every later boundary. -/
theorem w1_src : W1 m ρ c (Proc.devRef .tc main_v1 : DevRef τ sig) = src (W0 m ρ c (Proc.devRef .tc main_arg1 : DevRef τ sig)) := (stretch0 (W0 m ρ c)).1
theorem w1_dst : W1 m ρ c (Proc.devRef .tc main_v3 : DevRef τ sig) = dst (W0 m ρ c (Proc.devRef .tc main_arg1 : DevRef τ sig)) := (stretch0 (W0 m ρ c)).2.1
theorem w1_cinv : W1 m ρ c (Proc.devRef .tc main_v12 : DevRef τ sig) = cinv (cnt (dst (W0 m ρ c (Proc.devRef .tc main_arg1 : DevRef τ sig)))) := (stretch0 (W0 m ρ c)).2.2.2.1

/-! ## The second layer -/

theorem out1 : W4 m ρ c (Proc.devRef .tc main_v46 : DevRef τ sig) = Val1.G (V3 m ρ) c :=
  (Function.update_self (β := fun b : DevRef τ sig => b.ty.Contents (Elt Ideal)) (Proc.devRef .tc main_v46 : DevRef τ sig) _ (W3 m ρ c)).trans (Val1.final (V3 m ρ) c)

theorem k_h2 : W4 m ρ c (Proc.devRef .tc main_v46 : DevRef τ sig) = (H2 (H1 (W0 m ρ c (Proc.devRef .tc main_arg0 : DevRef τ sig)) (W0 m ρ c (Proc.devRef .tc main_arg1 : DevRef τ sig)) (W0 m ρ c (Proc.devRef .tc main_arg3 : DevRef τ sig)) (W0 m ρ c (Proc.devRef .tc main_arg4 : DevRef τ sig)) (W0 m ρ c (Proc.devRef .tc main_arg5 : DevRef τ sig)) (W0 m ρ c (Proc.devRef .tc main_arg6 : DevRef τ sig)) (W0 m ρ c (Proc.devRef .tc main_arg7 : DevRef τ sig))) (W0 m ρ c (Proc.devRef .tc main_arg1 : DevRef τ sig)) (W0 m ρ c (Proc.devRef .tc main_arg8 : DevRef τ sig)) (W0 m ρ c (Proc.devRef .tc main_arg9 : DevRef τ sig)) (W0 m ρ c (Proc.devRef .tc main_arg10 : DevRef τ sig)) (W0 m ρ c (Proc.devRef .tc main_arg11 : DevRef τ sig)) (W0 m ρ c (Proc.devRef .tc main_arg12 : DevRef τ sig))) := by
  obtain ⟨s41, s45, s42, s43, s44⟩ := stretch1 (W2 m ρ c)
  rw [out1]
  funext i
  show GBc (W3 m ρ c (Proc.devRef .tc main_v41 : DevRef τ sig)) (W3 m ρ c (Proc.devRef .tc main_v29 : DevRef τ sig)) (W3 m ρ c (Proc.devRef .tc main_v29 : DevRef τ sig)) (W3 m ρ c (Proc.devRef .tc main_v12 : DevRef τ sig)) (W3 m ρ c (Proc.devRef .tc main_v45 : DevRef τ sig))
      (W3 m ρ c (Proc.devRef .tc main_v42 : DevRef τ sig)) (W3 m ρ c (Proc.devRef .tc main_v43 : DevRef τ sig)) (W3 m ρ c (Proc.devRef .tc main_v44 : DevRef τ sig)) (i 0) (i 1) = _
  rw [keep3 m ρ c main_v29 (by decide), keep3 m ρ c main_v12 (by decide), keep2 m ρ c main_v12 (by decide), w1_cinv, k_h1]
  show GBc (after hostOps1 (W2 m ρ c) (Proc.devRef .tc main_v41 : DevRef τ sig)) _ _ _ (after hostOps1 (W2 m ρ c) (Proc.devRef .tc main_v45 : DevRef τ sig))
      (after hostOps1 (W2 m ρ c) (Proc.devRef .tc main_v42 : DevRef τ sig)) (after hostOps1 (W2 m ρ c) (Proc.devRef .tc main_v43 : DevRef τ sig)) (after hostOps1 (W2 m ρ c) (Proc.devRef .tc main_v44 : DevRef τ sig)) (i 0) (i 1) = _
  rw [s41, s45, s42, s43, s44, k_h1, keep2 m ρ c main_v1 (by decide), keep2 m ρ c main_v3 (by decide), w1_src, w1_dst,
    arg2_ m ρ c main_arg8 (by decide) (by decide), arg2_ m ρ c main_arg9 (by decide) (by decide), arg2_ m ρ c main_arg10 (by decide) (by decide),
    arg2_ m ρ c main_arg11 (by decide) (by decide), arg2_ m ρ c main_arg12 (by decide) (by decide)]
  refine (Cert.Bridge.bridgeB _ _ _ _ _ _ _ _ (i 0) (i 1)).trans ?_
  rw [Cert.Bridge.agg_eq, Cert.Bridge.src_eq, Cert.Bridge.dst_eq, Cert.Bridge.cnt_eq]
  unfold H2
  exact congrArg _ (eq_ix2 i).symm

/-! ## The third layer -/

theorem out2 : W6 m ρ c (Proc.devRef .tc main_v63 : DevRef τ sig) = Val2.G (V5 m ρ) c :=
  (Function.update_self (β := fun b : DevRef τ sig => b.ty.Contents (Elt Ideal)) (Proc.devRef .tc main_v63 : DevRef τ sig) _ (W5 m ρ c)).trans (Val2.final (V5 m ρ) c)

theorem w4_src : W4 m ρ c (Proc.devRef .tc main_v1 : DevRef τ sig) = src (W0 m ρ c (Proc.devRef .tc main_arg1 : DevRef τ sig)) :=
  (keep4 m ρ c main_v1 (by decide)).trans ((keep3 m ρ c main_v1 (by decide)).trans ((keep2 m ρ c main_v1 (by decide)).trans (w1_src m ρ c)))
theorem w4_dst : W4 m ρ c (Proc.devRef .tc main_v3 : DevRef τ sig) = dst (W0 m ρ c (Proc.devRef .tc main_arg1 : DevRef τ sig)) :=
  (keep4 m ρ c main_v3 (by decide)).trans ((keep3 m ρ c main_v3 (by decide)).trans ((keep2 m ρ c main_v3 (by decide)).trans (w1_dst m ρ c)))
theorem w5_cinv : W5 m ρ c (Proc.devRef .tc main_v12 : DevRef τ sig) = cinv (cnt (dst (W0 m ρ c (Proc.devRef .tc main_arg1 : DevRef τ sig)))) :=
  (keep5 m ρ c main_v12 (by decide)).trans ((keep4 m ρ c main_v12 (by decide)).trans ((keep3 m ρ c main_v12 (by decide)).trans
    ((keep2 m ρ c main_v12 (by decide)).trans (w1_cinv m ρ c))))

theorem k_h3 : W6 m ρ c (Proc.devRef .tc main_v63 : DevRef τ sig) = (H3 (H2 (H1 (W0 m ρ c (Proc.devRef .tc main_arg0 : DevRef τ sig)) (W0 m ρ c (Proc.devRef .tc main_arg1 : DevRef τ sig)) (W0 m ρ c (Proc.devRef .tc main_arg3 : DevRef τ sig)) (W0 m ρ c (Proc.devRef .tc main_arg4 : DevRef τ sig)) (W0 m ρ c (Proc.devRef .tc main_arg5 : DevRef τ sig)) (W0 m ρ c (Proc.devRef .tc main_arg6 : DevRef τ sig)) (W0 m ρ c (Proc.devRef .tc main_arg7 : DevRef τ sig))) (W0 m ρ c (Proc.devRef .tc main_arg1 : DevRef τ sig)) (W0 m ρ c (Proc.devRef .tc main_arg8 : DevRef τ sig)) (W0 m ρ c (Proc.devRef .tc main_arg9 : DevRef τ sig)) (W0 m ρ c (Proc.devRef .tc main_arg10 : DevRef τ sig)) (W0 m ρ c (Proc.devRef .tc main_arg11 : DevRef τ sig)) (W0 m ρ c (Proc.devRef .tc main_arg12 : DevRef τ sig))) (W0 m ρ c (Proc.devRef .tc main_arg1 : DevRef τ sig)) (W0 m ρ c (Proc.devRef .tc main_arg13 : DevRef τ sig)) (W0 m ρ c (Proc.devRef .tc main_arg14 : DevRef τ sig)) (W0 m ρ c (Proc.devRef .tc main_arg15 : DevRef τ sig)) (W0 m ρ c (Proc.devRef .tc main_arg16 : DevRef τ sig)) (W0 m ρ c (Proc.devRef .tc main_arg17 : DevRef τ sig))) := by
  obtain ⟨s58, s62, s59, s60, s61⟩ := stretch2 (W4 m ρ c)
  rw [out2]
  funext i
  show GBc (W5 m ρ c (Proc.devRef .tc main_v58 : DevRef τ sig)) (W5 m ρ c (Proc.devRef .tc main_v46 : DevRef τ sig)) (W5 m ρ c (Proc.devRef .tc main_v46 : DevRef τ sig)) (W5 m ρ c (Proc.devRef .tc main_v12 : DevRef τ sig)) (W5 m ρ c (Proc.devRef .tc main_v62 : DevRef τ sig))
      (W5 m ρ c (Proc.devRef .tc main_v59 : DevRef τ sig)) (W5 m ρ c (Proc.devRef .tc main_v60 : DevRef τ sig)) (W5 m ρ c (Proc.devRef .tc main_v61 : DevRef τ sig)) (i 0) (i 1) = _
  rw [keep5 m ρ c main_v46 (by decide), w5_cinv, k_h2]
  show GBc (after hostOps2 (W4 m ρ c) (Proc.devRef .tc main_v58 : DevRef τ sig)) _ _ _ (after hostOps2 (W4 m ρ c) (Proc.devRef .tc main_v62 : DevRef τ sig))
      (after hostOps2 (W4 m ρ c) (Proc.devRef .tc main_v59 : DevRef τ sig)) (after hostOps2 (W4 m ρ c) (Proc.devRef .tc main_v60 : DevRef τ sig)) (after hostOps2 (W4 m ρ c) (Proc.devRef .tc main_v61 : DevRef τ sig)) (i 0) (i 1) = _
  rw [s58, s62, s59, s60, s61, k_h2, w4_src, w4_dst,
    arg4_ m ρ c main_arg13 (by decide) (by decide) (by decide) (by decide), arg4_ m ρ c main_arg14 (by decide) (by decide) (by decide) (by decide),
    arg4_ m ρ c main_arg15 (by decide) (by decide) (by decide) (by decide), arg4_ m ρ c main_arg16 (by decide) (by decide) (by decide) (by decide),
    arg4_ m ρ c main_arg17 (by decide) (by decide) (by decide) (by decide)]
  refine (Cert.Bridge.bridgeB' _ _ _ _ _ _ _ _ (i 0) (i 1)).trans ?_
  rw [Cert.Bridge.agg_eq, Cert.Bridge.src_eq, Cert.Bridge.dst_eq, Cert.Bridge.cnt_eq]
  unfold H3
  exact congrArg _ (eq_ix2 i).symm

/-! ## The results -/

/-- The second result: the third layer's output. -/
theorem res_h3 : W8 m ρ c (Proc.devRef .tc main_v63 : DevRef τ sig) = (H3 (H2 (H1 (W0 m ρ c (Proc.devRef .tc main_arg0 : DevRef τ sig)) (W0 m ρ c (Proc.devRef .tc main_arg1 : DevRef τ sig)) (W0 m ρ c (Proc.devRef .tc main_arg3 : DevRef τ sig)) (W0 m ρ c (Proc.devRef .tc main_arg4 : DevRef τ sig)) (W0 m ρ c (Proc.devRef .tc main_arg5 : DevRef τ sig)) (W0 m ρ c (Proc.devRef .tc main_arg6 : DevRef τ sig)) (W0 m ρ c (Proc.devRef .tc main_arg7 : DevRef τ sig))) (W0 m ρ c (Proc.devRef .tc main_arg1 : DevRef τ sig)) (W0 m ρ c (Proc.devRef .tc main_arg8 : DevRef τ sig)) (W0 m ρ c (Proc.devRef .tc main_arg9 : DevRef τ sig)) (W0 m ρ c (Proc.devRef .tc main_arg10 : DevRef τ sig)) (W0 m ρ c (Proc.devRef .tc main_arg11 : DevRef τ sig)) (W0 m ρ c (Proc.devRef .tc main_arg12 : DevRef τ sig))) (W0 m ρ c (Proc.devRef .tc main_arg1 : DevRef τ sig)) (W0 m ρ c (Proc.devRef .tc main_arg13 : DevRef τ sig)) (W0 m ρ c (Proc.devRef .tc main_arg14 : DevRef τ sig)) (W0 m ρ c (Proc.devRef .tc main_arg15 : DevRef τ sig)) (W0 m ρ c (Proc.devRef .tc main_arg16 : DevRef τ sig)) (W0 m ρ c (Proc.devRef .tc main_arg17 : DevRef τ sig))) :=
  (keep8 m ρ c main_v63 (by decide)).trans ((keep7 m ρ c main_v63 (by decide)).trans (k_h3 m ρ c))

/-- The third result: the pooled mean. -/
theorem res_avg : W8 m ρ c (Proc.devRef .tc main_v75 : DevRef τ sig) = Cert.ReferenceIdeal.RefVal.avg (H3 (H2 (H1 (W0 m ρ c (Proc.devRef .tc main_arg0 : DevRef τ sig)) (W0 m ρ c (Proc.devRef .tc main_arg1 : DevRef τ sig)) (W0 m ρ c (Proc.devRef .tc main_arg3 : DevRef τ sig)) (W0 m ρ c (Proc.devRef .tc main_arg4 : DevRef τ sig)) (W0 m ρ c (Proc.devRef .tc main_arg5 : DevRef τ sig)) (W0 m ρ c (Proc.devRef .tc main_arg6 : DevRef τ sig)) (W0 m ρ c (Proc.devRef .tc main_arg7 : DevRef τ sig))) (W0 m ρ c (Proc.devRef .tc main_arg1 : DevRef τ sig)) (W0 m ρ c (Proc.devRef .tc main_arg8 : DevRef τ sig)) (W0 m ρ c (Proc.devRef .tc main_arg9 : DevRef τ sig)) (W0 m ρ c (Proc.devRef .tc main_arg10 : DevRef τ sig)) (W0 m ρ c (Proc.devRef .tc main_arg11 : DevRef τ sig)) (W0 m ρ c (Proc.devRef .tc main_arg12 : DevRef τ sig))) (W0 m ρ c (Proc.devRef .tc main_arg1 : DevRef τ sig)) (W0 m ρ c (Proc.devRef .tc main_arg13 : DevRef τ sig)) (W0 m ρ c (Proc.devRef .tc main_arg14 : DevRef τ sig)) (W0 m ρ c (Proc.devRef .tc main_arg15 : DevRef τ sig)) (W0 m ρ c (Proc.devRef .tc main_arg16 : DevRef τ sig)) (W0 m ρ c (Proc.devRef .tc main_arg17 : DevRef τ sig))) (W0 m ρ c (Proc.devRef .tc main_arg2 : DevRef τ sig)) := by
  rw [keep8 m ρ c main_v75 (by decide)]
  show after hostOps3 (W6 m ρ c) (Proc.devRef .tc main_v75 : DevRef τ sig) = _
  rw [(stretch3 (W6 m ρ c)).1, k_h3, arg6_ m ρ c main_arg2 (by decide) (by decide) (by decide) (by decide) (by decide) (by decide), Cert.Bridge.avg_eq]

theorem out3 : W8 m ρ c (Proc.devRef .tc main_v77 : DevRef τ sig) = Val3.G (V7 m ρ) c :=
  (Function.update_self (β := fun b : DevRef τ sig => b.ty.Contents (Elt Ideal)) (Proc.devRef .tc main_v77 : DevRef τ sig) _ (W7 m ρ c)).trans (Val3.final (V7 m ρ) c)

/-- The first result: the read-out. -/
theorem res_out : W8 m ρ c (Proc.devRef .tc main_v77 : DevRef τ sig)
    = Cert.ReferenceIdeal.RefVal.readout (Cert.ReferenceIdeal.RefVal.avg (H3 (H2 (H1 (W0 m ρ c (Proc.devRef .tc main_arg0 : DevRef τ sig)) (W0 m ρ c (Proc.devRef .tc main_arg1 : DevRef τ sig)) (W0 m ρ c (Proc.devRef .tc main_arg3 : DevRef τ sig)) (W0 m ρ c (Proc.devRef .tc main_arg4 : DevRef τ sig)) (W0 m ρ c (Proc.devRef .tc main_arg5 : DevRef τ sig)) (W0 m ρ c (Proc.devRef .tc main_arg6 : DevRef τ sig)) (W0 m ρ c (Proc.devRef .tc main_arg7 : DevRef τ sig))) (W0 m ρ c (Proc.devRef .tc main_arg1 : DevRef τ sig)) (W0 m ρ c (Proc.devRef .tc main_arg8 : DevRef τ sig)) (W0 m ρ c (Proc.devRef .tc main_arg9 : DevRef τ sig)) (W0 m ρ c (Proc.devRef .tc main_arg10 : DevRef τ sig)) (W0 m ρ c (Proc.devRef .tc main_arg11 : DevRef τ sig)) (W0 m ρ c (Proc.devRef .tc main_arg12 : DevRef τ sig))) (W0 m ρ c (Proc.devRef .tc main_arg1 : DevRef τ sig)) (W0 m ρ c (Proc.devRef .tc main_arg13 : DevRef τ sig)) (W0 m ρ c (Proc.devRef .tc main_arg14 : DevRef τ sig)) (W0 m ρ c (Proc.devRef .tc main_arg15 : DevRef τ sig)) (W0 m ρ c (Proc.devRef .tc main_arg16 : DevRef τ sig)) (W0 m ρ c (Proc.devRef .tc main_arg17 : DevRef τ sig))) (W0 m ρ c (Proc.devRef .tc main_arg2 : DevRef τ sig))) (W0 m ρ c (Proc.devRef .tc main_arg18 : DevRef τ sig)) (W0 m ρ c (Proc.devRef .tc main_arg19 : DevRef τ sig)) := by
  rw [out3]
  funext i
  show mm (W7 m ρ c (Proc.devRef .tc main_v75 : DevRef τ sig)) (W7 m ρ c (Proc.devRef .tc main_arg18 : DevRef τ sig)) (ix2 (i 0) (i 1)) + W7 m ρ c (Proc.devRef .tc main_v76 : DevRef τ sig) (ix2 (0 : Fin 1) (i 1)) = _
  rw [keep7 m ρ c main_arg18 (by decide), arg6_ m ρ c main_arg18 (by decide) (by decide) (by decide) (by decide) (by decide) (by decide)]
  show mm (after hostOps3 (W6 m ρ c) (Proc.devRef .tc main_v75 : DevRef τ sig)) _ _ + after hostOps3 (W6 m ρ c) (Proc.devRef .tc main_v76 : DevRef τ sig) _ = _
  rw [(stretch3 (W6 m ρ c)).1, (stretch3 (W6 m ρ c)).2, k_h3, arg6_ m ρ c main_arg2 (by decide) (by decide) (by decide) (by decide) (by decide) (by decide),
    arg6_ m ρ c main_arg19 (by decide) (by decide) (by decide) (by decide) (by decide) (by decide), Cert.Bridge.avg_eq]
  exact (congrArg (HAdd.hAdd _) (bcRow_apply _ (0 : Fin 1) (i 1))).trans
    ((Cert.Bridge.readout_apply _ _ _ (i 0) (i 1)).symm.trans (congrArg _ (eq_ix2 i).symm))

end Cert.KernelIdeal.Chain

end
-- ==== Proof.lean ====
/-
  The certificate's claim: the word-level kernel and its idealization run to the end, fault nowhere and leave their
  argument arrays unchanged; so does the idealized reference; and at the exact (extended-real) values the
  idealized kernel and the idealized reference, run from memories that agree on the arguments, end with the same
  three results — the classifier's read-out, the third layer's node features and the per-graph pooled mean.

  The kernel is three fused graph-convolution layers and a read-out, each a pipelined region over row tiles of the
  node arrays, with host operations (gathers and scatter-adds along the edges) in between. Every region's output
  array is, tile by tile, one whole-array function of what the region finds; the host stretches are the same
  gathers and scatter-adds the reference performs; and a layer in the kernel's spelling (the reciprocal neighbour
  count multiplied in, the two weight matrices stacked into one product, the bias added last) is the reference's
  layer (a quotient, two products, the bias added in the middle), since dividing by c ≥ 1 is multiplying by 1/c and
  addition of extended reals is commutative and associative. No finiteness of the inputs is used.
-/
import proofs.«159482_j24764781429188_2_alg».proof.Defs
import proofs.«159482_j24764781429188_2_alg».proof.Proof.Gen.Kernel
import proofs.«159482_j24764781429188_2_alg».proof.Proof.Gen.KernelIdeal
import proofs.«159482_j24764781429188_2_alg».proof.Proof.Gen.ReferenceIdeal
import proofs.«159482_j24764781429188_2_alg».proof.Proof.Gen.Pre_finite_inputs
import proofs.«159482_j24764781429188_2_alg».proof.Proof.KFrame
import proofs.«159482_j24764781429188_2_alg».proof.Proof.KIFrame
import proofs.«159482_j24764781429188_2_alg».proof.Proof.KIChain
import proofs.«159482_j24764781429188_2_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_K : Cert.frame_Kernel := fun m ρ _ => Cert.Kernel.Frame.frame m ρ
theorem frame_KI : Cert.frame_KernelIdeal := fun m ρ _ => Cert.KernelIdeal.Frame.frame m ρ

/-- The reference's run leaves every argument as launched: no operation of its line writes one. -/
theorem frame_RI : Cert.frame_ReferenceIdeal := fun m ρ _ =>
  (θ_run Cert.ReferenceIdeal.defs _ _).mono (fun r h c =>
    ⟨(h c Cert.ReferenceIdeal.main_arg0).trans (Cert.ReferenceIdeal.RefChain.res_arg _ Cert.ReferenceIdeal.main_arg0 (by decide) (by decide) (by decide) (by decide)),
      (h c Cert.ReferenceIdeal.main_arg1).trans (Cert.ReferenceIdeal.RefChain.res_arg _ Cert.ReferenceIdeal.main_arg1 (by decide) (by decide) (by decide) (by decide)),
      (h c Cert.ReferenceIdeal.main_arg2).trans (Cert.ReferenceIdeal.RefChain.res_arg _ Cert.ReferenceIdeal.main_arg2 (by decide) (by decide) (by decide) (by decide)),
      (h c Cert.ReferenceIdeal.main_arg3).trans (Cert.ReferenceIdeal.RefChain.res_arg _ Cert.ReferenceIdeal.main_arg3 (by decide) (by decide) (by decide) (by decide)),
      (h c Cert.ReferenceIdeal.main_arg4).trans (Cert.ReferenceIdeal.RefChain.res_arg _ Cert.ReferenceIdeal.main_arg4 (by decide) (by decide) (by decide) (by decide)),
      (h c Cert.ReferenceIdeal.main_arg5).trans (Cert.ReferenceIdeal.RefChain.res_arg _ Cert.ReferenceIdeal.main_arg5 (by decide) (by decide) (by decide) (by decide)),
      (h c Cert.ReferenceIdeal.main_arg6).trans (Cert.ReferenceIdeal.RefChain.res_arg _ Cert.ReferenceIdeal.main_arg6 (by decide) (by decide) (by decide) (by decide)),
      (h c Cert.ReferenceIdeal.main_arg7).trans (Cert.ReferenceIdeal.RefChain.res_arg _ Cert.ReferenceIdeal.main_arg7 (by decide) (by decide) (by decide) (by decide)),
      (h c Cert.ReferenceIdeal.main_arg8).trans (Cert.ReferenceIdeal.RefChain.res_arg _ Cert.ReferenceIdeal.main_arg8 (by decide) (by decide) (by decide) (by decide)),
      (h c Cert.ReferenceIdeal.main_arg9).trans (Cert.ReferenceIdeal.RefChain.res_arg _ Cert.ReferenceIdeal.main_arg9 (by decide) (by decide) (by decide) (by decide)),
      (h c Cert.ReferenceIdeal.main_arg10).trans (Cert.ReferenceIdeal.RefChain.res_arg _ Cert.ReferenceIdeal.main_arg10 (by decide) (by decide) (by decide) (by decide)),
      (h c Cert.ReferenceIdeal.main_arg11).trans (Cert.ReferenceIdeal.RefChain.res_arg _ Cert.ReferenceIdeal.main_arg11 (by decide) (by decide) (by decide) (by decide)),
      (h c Cert.ReferenceIdeal.main_arg12).trans (Cert.ReferenceIdeal.RefChain.res_arg _ Cert.ReferenceIdeal.main_arg12 (by decide) (by decide) (by decide) (by decide)),
      (h c Cert.ReferenceIdeal.main_arg13).trans (Cert.ReferenceIdeal.RefChain.res_arg _ Cert.ReferenceIdeal.main_arg13 (by decide) (by decide) (by decide) (by decide)),
      (h c Cert.ReferenceIdeal.main_arg14).trans (Cert.ReferenceIdeal.RefChain.res_arg _ Cert.ReferenceIdeal.main_arg14 (by decide) (by decide) (by decide) (by decide)),
      (h c Cert.ReferenceIdeal.main_arg15).trans (Cert.ReferenceIdeal.RefChain.res_arg _ Cert.ReferenceIdeal.main_arg15 (by decide) (by decide) (by decide) (by decide)),
      (h c Cert.ReferenceIdeal.main_arg16).trans (Cert.ReferenceIdeal.RefChain.res_arg _ Cert.ReferenceIdeal.main_arg16 (by decide) (by decide) (by decide) (by decide)),
      (h c Cert.ReferenceIdeal.main_arg17).trans (Cert.ReferenceIdeal.RefChain.res_arg _ Cert.ReferenceIdeal.main_arg17 (by decide) (by decide) (by decide) (by decide)),
      (h c Cert.ReferenceIdeal.main_arg18).trans (Cert.ReferenceIdeal.RefChain.res_arg _ Cert.ReferenceIdeal.main_arg18 (by decide) (by decide) (by decide) (by decide)),
      (h c Cert.ReferenceIdeal.main_arg19).trans (Cert.ReferenceIdeal.RefChain.res_arg _ Cert.ReferenceIdeal.main_arg19 (by decide) (by decide) (by decide) (by decide))⟩)
    (Cert.ReferenceIdeal.RefRun.run_main (F := Ideal) m ρ)

theorem preserves : Cert.preserves_Kernel_KernelIdeal := trivial

set_option maxHeartbeats 4000000 in
/-- At the exact values the two programs end with the same three results: each is the same function of the
    argument arrays (the kernel's by its chain of regions and host stretches, the reference's by its line). -/
theorem algebraic : Cert.algebraic_KernelIdeal_ReferenceIdeal := by
  intro m ρ m' ρ' _ hagree
  refine ⟨fun c => Cert.KernelIdeal.Run.W8 m ρ c (Proc.devRef .tc Cert.KernelIdeal.main_v77),
    fun c => Cert.KernelIdeal.Run.W8 m ρ c (Proc.devRef .tc Cert.KernelIdeal.main_v63),
    fun c => Cert.KernelIdeal.Run.W8 m ρ c (Proc.devRef .tc Cert.KernelIdeal.main_v75), ?_, ?_⟩
  · exact (θ_run Cert.KernelIdeal.defs _ _).mono (fun r h c =>
      ⟨h c _ (Cert.KernelIdeal.Run.mem_uc Cert.KernelIdeal.main_v77 (by decide)),
        h c _ (Cert.KernelIdeal.Run.mem_uc Cert.KernelIdeal.main_v63 (by decide)),
        h c _ (Cert.KernelIdeal.Run.mem_uc Cert.KernelIdeal.main_v75 (by decide)),
        (h c _ (Cert.KernelIdeal.Run.mem_uc Cert.KernelIdeal.main_arg0 (by decide))).trans (Cert.KernelIdeal.Frame.W8_main_arg0 m ρ c),
        (h c _ (Cert.KernelIdeal.Run.mem_uc Cert.KernelIdeal.main_arg1 (by decide))).trans (Cert.KernelIdeal.Frame.W8_main_arg1 m ρ c),
        (h c _ (Cert.KernelIdeal.Run.mem_uc Cert.KernelIdeal.main_arg2 (by decide))).trans (Cert.KernelIdeal.Frame.W8_main_arg2 m ρ c),
        (h c _ (Cert.KernelIdeal.Run.mem_uc Cert.KernelIdeal.main_arg3 (by decide))).trans (Cert.KernelIdeal.Frame.W8_main_arg3 m ρ c),
        (h c _ (Cert.KernelIdeal.Run.mem_uc Cert.KernelIdeal.main_arg4 (by decide))).trans (Cert.KernelIdeal.Frame.W8_main_arg4 m ρ c),
        (h c _ (Cert.KernelIdeal.Run.mem_uc Cert.KernelIdeal.main_arg5 (by decide))).trans (Cert.KernelIdeal.Frame.W8_main_arg5 m ρ c),
        (h c _ (Cert.KernelIdeal.Run.mem_uc Cert.KernelIdeal.main_arg6 (by decide))).trans (Cert.KernelIdeal.Frame.W8_main_arg6 m ρ c),
        (h c _ (Cert.KernelIdeal.Run.mem_uc Cert.KernelIdeal.main_arg7 (by decide))).trans (Cert.KernelIdeal.Frame.W8_main_arg7 m ρ c),
        (h c _ (Cert.KernelIdeal.Run.mem_uc Cert.KernelIdeal.main_arg8 (by decide))).trans (Cert.KernelIdeal.Frame.W8_main_arg8 m ρ c),
        (h c _ (Cert.KernelIdeal.Run.mem_uc Cert.KernelIdeal.main_arg9 (by decide))).trans (Cert.KernelIdeal.Frame.W8_main_arg9 m ρ c),
        (h c _ (Cert.KernelIdeal.Run.mem_uc Cert.KernelIdeal.main_arg10 (by decide))).trans (Cert.KernelIdeal.Frame.W8_main_arg10 m ρ c),
        (h c _ (Cert.KernelIdeal.Run.mem_uc Cert.KernelIdeal.main_arg11 (by decide))).trans (Cert.KernelIdeal.Frame.W8_main_arg11 m ρ c),
        (h c _ (Cert.KernelIdeal.Run.mem_uc Cert.KernelIdeal.main_arg12 (by decide))).trans (Cert.KernelIdeal.Frame.W8_main_arg12 m ρ c),
        (h c _ (Cert.KernelIdeal.Run.mem_uc Cert.KernelIdeal.main_arg13 (by decide))).trans (Cert.KernelIdeal.Frame.W8_main_arg13 m ρ c),
        (h c _ (Cert.KernelIdeal.Run.mem_uc Cert.KernelIdeal.main_arg14 (by decide))).trans (Cert.KernelIdeal.Frame.W8_main_arg14 m ρ c),
        (h c _ (Cert.KernelIdeal.Run.mem_uc Cert.KernelIdeal.main_arg15 (by decide))).trans (Cert.KernelIdeal.Frame.W8_main_arg15 m ρ c),
        (h c _ (Cert.KernelIdeal.Run.mem_uc Cert.KernelIdeal.main_arg16 (by decide))).trans (Cert.KernelIdeal.Frame.W8_main_arg16 m ρ c),
        (h c _ (Cert.KernelIdeal.Run.mem_uc Cert.KernelIdeal.main_arg17 (by decide))).trans (Cert.KernelIdeal.Frame.W8_main_arg17 m ρ c),
        (h c _ (Cert.KernelIdeal.Run.mem_uc Cert.KernelIdeal.main_arg18 (by decide))).trans (Cert.KernelIdeal.Frame.W8_main_arg18 m ρ c),
        (h c _ (Cert.KernelIdeal.Run.mem_uc Cert.KernelIdeal.main_arg19 (by decide))).trans (Cert.KernelIdeal.Frame.W8_main_arg19 m ρ c)⟩)
      (Cert.KernelIdeal.Run.run_all m ρ)
  · refine (θ_run Cert.ReferenceIdeal.defs _ _).mono (fun r h c => ?_) (Cert.ReferenceIdeal.RefRun.run_main (F := Ideal) m' ρ')
    obtain ⟨a0, a1, a2, a3, a4, a5, a6, a7, a8, a9, a10, a11, a12, a13, a14, a15, a16, a17, a18, a19⟩ := hagree c
    have e0 : launchContents m' c (Proc.devRef .tc Cert.ReferenceIdeal.main_arg0) = Cert.KernelIdeal.Run.W0 m ρ c (Proc.devRef .tc Cert.KernelIdeal.main_arg0) := a0
    have e1 : launchContents m' c (Proc.devRef .tc Cert.ReferenceIdeal.main_arg1) = Cert.KernelIdeal.Run.W0 m ρ c (Proc.devRef .tc Cert.KernelIdeal.main_arg1) := a1
    have e2 : launchContents m' c (Proc.devRef .tc Cert.ReferenceIdeal.main_arg2) = Cert.KernelIdeal.Run.W0 m ρ c (Proc.devRef .tc Cert.KernelIdeal.main_arg2) := a2
    have e3 : launchContents m' c (Proc.devRef .tc Cert.ReferenceIdeal.main_arg3) = Cert.KernelIdeal.Run.W0 m ρ c (Proc.devRef .tc Cert.KernelIdeal.main_arg3) := a3
    have e4 : launchContents m' c (Proc.devRef .tc Cert.ReferenceIdeal.main_arg4) = Cert.KernelIdeal.Run.W0 m ρ c (Proc.devRef .tc Cert.KernelIdeal.main_arg4) := a4
    have e5 : launchContents m' c (Proc.devRef .tc Cert.ReferenceIdeal.main_arg5) = Cert.KernelIdeal.Run.W0 m ρ c (Proc.devRef .tc Cert.KernelIdeal.main_arg5) := a5
    have e6 : launchContents m' c (Proc.devRef .tc Cert.ReferenceIdeal.main_arg6) = Cert.KernelIdeal.Run.W0 m ρ c (Proc.devRef .tc Cert.KernelIdeal.main_arg6) := a6
    have e7 : launchContents m' c (Proc.devRef .tc Cert.ReferenceIdeal.main_arg7) = Cert.KernelIdeal.Run.W0 m ρ c (Proc.devRef .tc Cert.KernelIdeal.main_arg7) := a7
    have e8 : launchContents m' c (Proc.devRef .tc Cert.ReferenceIdeal.main_arg8) = Cert.KernelIdeal.Run.W0 m ρ c (Proc.devRef .tc Cert.KernelIdeal.main_arg8) := a8
    have e9 : launchContents m' c (Proc.devRef .tc Cert.ReferenceIdeal.main_arg9) = Cert.KernelIdeal.Run.W0 m ρ c (Proc.devRef .tc Cert.KernelIdeal.main_arg9) := a9
    have e10 : launchContents m' c (Proc.devRef .tc Cert.ReferenceIdeal.main_arg10) = Cert.KernelIdeal.Run.W0 m ρ c (Proc.devRef .tc Cert.KernelIdeal.main_arg10) := a10
    have e11 : launchContents m' c (Proc.devRef .tc Cert.ReferenceIdeal.main_arg11) = Cert.KernelIdeal.Run.W0 m ρ c (Proc.devRef .tc Cert.KernelIdeal.main_arg11) := a11
    have e12 : launchContents m' c (Proc.devRef .tc Cert.ReferenceIdeal.main_arg12) = Cert.KernelIdeal.Run.W0 m ρ c (Proc.devRef .tc Cert.KernelIdeal.main_arg12) := a12
    have e13 : launchContents m' c (Proc.devRef .tc Cert.ReferenceIdeal.main_arg13) = Cert.KernelIdeal.Run.W0 m ρ c (Proc.devRef .tc Cert.KernelIdeal.main_arg13) := a13
    have e14 : launchContents m' c (Proc.devRef .tc Cert.ReferenceIdeal.main_arg14) = Cert.KernelIdeal.Run.W0 m ρ c (Proc.devRef .tc Cert.KernelIdeal.main_arg14) := a14
    have e15 : launchContents m' c (Proc.devRef .tc Cert.ReferenceIdeal.main_arg15) = Cert.KernelIdeal.Run.W0 m ρ c (Proc.devRef .tc Cert.KernelIdeal.main_arg15) := a15
    have e16 : launchContents m' c (Proc.devRef .tc Cert.ReferenceIdeal.main_arg16) = Cert.KernelIdeal.Run.W0 m ρ c (Proc.devRef .tc Cert.KernelIdeal.main_arg16) := a16
    have e17 : launchContents m' c (Proc.devRef .tc Cert.ReferenceIdeal.main_arg17) = Cert.KernelIdeal.Run.W0 m ρ c (Proc.devRef .tc Cert.KernelIdeal.main_arg17) := a17
    have e18 : launchContents m' c (Proc.devRef .tc Cert.ReferenceIdeal.main_arg18) = Cert.KernelIdeal.Run.W0 m ρ c (Proc.devRef .tc Cert.KernelIdeal.main_arg18) := a18
    have e19 : launchContents m' c (Proc.devRef .tc Cert.ReferenceIdeal.main_arg19) = Cert.KernelIdeal.Run.W0 m ρ c (Proc.devRef .tc Cert.KernelIdeal.main_arg19) := a19
    refine ⟨?_, ?_, ?_, (h c Cert.ReferenceIdeal.main_arg0).trans (Cert.ReferenceIdeal.RefChain.res_arg _ Cert.ReferenceIdeal.main_arg0 (by decide) (by decide) (by decide) (by decide)),
      (h c Cert.ReferenceIdeal.main_arg1).trans (Cert.ReferenceIdeal.RefChain.res_arg _ Cert.ReferenceIdeal.main_arg1 (by decide) (by decide) (by decide) (by decide)),
      (h c Cert.ReferenceIdeal.main_arg2).trans (Cert.ReferenceIdeal.RefChain.res_arg _ Cert.ReferenceIdeal.main_arg2 (by decide) (by decide) (by decide) (by decide)),
      (h c Cert.ReferenceIdeal.main_arg3).trans (Cert.ReferenceIdeal.RefChain.res_arg _ Cert.ReferenceIdeal.main_arg3 (by decide) (by decide) (by decide) (by decide)),
      (h c Cert.ReferenceIdeal.main_arg4).trans (Cert.ReferenceIdeal.RefChain.res_arg _ Cert.ReferenceIdeal.main_arg4 (by decide) (by decide) (by decide) (by decide)),
      (h c Cert.ReferenceIdeal.main_arg5).trans (Cert.ReferenceIdeal.RefChain.res_arg _ Cert.ReferenceIdeal.main_arg5 (by decide) (by decide) (by decide) (by decide)),
      (h c Cert.ReferenceIdeal.main_arg6).trans (Cert.ReferenceIdeal.RefChain.res_arg _ Cert.ReferenceIdeal.main_arg6 (by decide) (by decide) (by decide) (by decide)),
      (h c Cert.ReferenceIdeal.main_arg7).trans (Cert.ReferenceIdeal.RefChain.res_arg _ Cert.ReferenceIdeal.main_arg7 (by decide) (by decide) (by decide) (by decide)),
      (h c Cert.ReferenceIdeal.main_arg8).trans (Cert.ReferenceIdeal.RefChain.res_arg _ Cert.ReferenceIdeal.main_arg8 (by decide) (by decide) (by decide) (by decide)),
      (h c Cert.ReferenceIdeal.main_arg9).trans (Cert.ReferenceIdeal.RefChain.res_arg _ Cert.ReferenceIdeal.main_arg9 (by decide) (by decide) (by decide) (by decide)),
      (h c Cert.ReferenceIdeal.main_arg10).trans (Cert.ReferenceIdeal.RefChain.res_arg _ Cert.ReferenceIdeal.main_arg10 (by decide) (by decide) (by decide) (by decide)),
      (h c Cert.ReferenceIdeal.main_arg11).trans (Cert.ReferenceIdeal.RefChain.res_arg _ Cert.ReferenceIdeal.main_arg11 (by decide) (by decide) (by decide) (by decide)),
      (h c Cert.ReferenceIdeal.main_arg12).trans (Cert.ReferenceIdeal.RefChain.res_arg _ Cert.ReferenceIdeal.main_arg12 (by decide) (by decide) (by decide) (by decide)),
      (h c Cert.ReferenceIdeal.main_arg13).trans (Cert.ReferenceIdeal.RefChain.res_arg _ Cert.ReferenceIdeal.main_arg13 (by decide) (by decide) (by decide) (by decide)),
      (h c Cert.ReferenceIdeal.main_arg14).trans (Cert.ReferenceIdeal.RefChain.res_arg _ Cert.ReferenceIdeal.main_arg14 (by decide) (by decide) (by decide) (by decide)),
      (h c Cert.ReferenceIdeal.main_arg15).trans (Cert.ReferenceIdeal.RefChain.res_arg _ Cert.ReferenceIdeal.main_arg15 (by decide) (by decide) (by decide) (by decide)),
      (h c Cert.ReferenceIdeal.main_arg16).trans (Cert.ReferenceIdeal.RefChain.res_arg _ Cert.ReferenceIdeal.main_arg16 (by decide) (by decide) (by decide) (by decide)),
      (h c Cert.ReferenceIdeal.main_arg17).trans (Cert.ReferenceIdeal.RefChain.res_arg _ Cert.ReferenceIdeal.main_arg17 (by decide) (by decide) (by decide) (by decide)),
      (h c Cert.ReferenceIdeal.main_arg18).trans (Cert.ReferenceIdeal.RefChain.res_arg _ Cert.ReferenceIdeal.main_arg18 (by decide) (by decide) (by decide) (by decide)),
      (h c Cert.ReferenceIdeal.main_arg19).trans (Cert.ReferenceIdeal.RefChain.res_arg _ Cert.ReferenceIdeal.main_arg19 (by decide) (by decide) (by decide) (by decide))⟩
    · refine (h c Cert.ReferenceIdeal.main_v153).trans ?_
      show _ = Cert.KernelIdeal.Run.W8 m ρ c (Proc.devRef .tc Cert.KernelIdeal.main_v77)
      rw [Cert.ReferenceIdeal.RefChain.res_out, Cert.KernelIdeal.Chain.res_out, e0, e1, e2, e3, e4, e5, e6, e7, e8, e9, e10, e11, e12, e13, e14, e15, e16, e17, e18, e19]
    · refine (h c Cert.ReferenceIdeal.main_v137).trans ?_
      show _ = Cert.KernelIdeal.Run.W8 m ρ c (Proc.devRef .tc Cert.KernelIdeal.main_v63)
      rw [Cert.ReferenceIdeal.RefChain.res_h3, Cert.KernelIdeal.Chain.res_h3, e0, e1, e3, e4, e5, e6, e7, e8, e9, e10, e11, e12, e13, e14, e15, e16, e17]
    · refine (h c Cert.ReferenceIdeal.main_v149).trans ?_
      show _ = Cert.KernelIdeal.Run.W8 m ρ c (Proc.devRef .tc Cert.KernelIdeal.main_v75)
      rw [Cert.ReferenceIdeal.RefChain.res_avg, Cert.KernelIdeal.Chain.res_avg, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_K, frame_KI, frame_RI, preserves, algebraic⟩

end Cert.Proof

end
